-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S3 .f32) (main_v13 : IVec S_ 1) (main_v16 : IVec S64x3 1) : IVec S_ 1 :=
  let main_c_5 : IVec S_ 1 := constantI S_ 1 1#1
  let main_v17 : IVec S_ 1 := (fun x v => Host.reduce IntOp.andi x v reducesTo_S64x3_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S50000x128 .f32) (main_arg1 : IVec S2x1600000 32) (main_arg2 : FVec F S128x64 .f32) (main_arg3 : FVec F S64 .f32) (main_arg4 : FVec F S64x3 .f32) (main_arg5 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x3 .f32 := Host.absf main_arg4
  let main_cst_4 : FVec F S_ .f32 := constant S_ .f32 0x7F800000#32
  let main_v15 : FVec F S64x3 .f32 := broadcastInDim S64x3 ![] bcast_S_S64x3 main_cst_4
  let main_v16 : IVec S64x3 1 := cmpf .olt main_v14 main_v15
  fn_part1 (F := F) main_arg5 main_v13 main_v16
-- ==== Kernel.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x64 : Shape := ⟨2, ![50000, 64]⟩
abbrev S5000x128 : Shape := ⟨2, ![5000, 128]⟩
abbrev S5000x64 : Shape := ⟨2, ![5000, 64]⟩
abbrev S1600000x64 : Shape := ⟨2, ![1600000, 64]⟩
abbrev S50000x1 : Shape := ⟨2, ![50000, 1]⟩
abbrev S1x64 : Shape := ⟨2, ![1, 64]⟩
abbrev S5000x1 : Shape := ⟨2, ![5000, 1]⟩
abbrev S50000x3 : Shape := ⟨2, ![50000, 3]⟩
abbrev S5000x3 : Shape := ⟨2, ![5000, 3]⟩
abbrev S1600000x3 : Shape := ⟨2, ![1600000, 3]⟩
abbrev S1x3 : Shape := ⟨2, ![1, 3]⟩
abbrev S5000 : Shape := ⟨1, ![5000]⟩

abbrev nBuf : Space → Nat
  | .hbm => 90
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x3, .f32⟩
  | .hbm, ⟨5, _⟩ => ⟨S3, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S50000, .f32⟩
  | .hbm, ⟨14, _⟩ => ⟨S1600000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000, .f32⟩
  | .hbm, ⟨49, _⟩ => ⟨S1600000, .f32⟩
  | .hbm, ⟨50, _⟩ => ⟨S50000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S1600000x1, .f32⟩
  | .hbm, ⟨61, _⟩ => ⟨S1600000x64, .f32⟩
  | .hbm, ⟨62, _⟩ => ⟨S1600000x64, .f32⟩
  | .hbm, ⟨63, _⟩ => ⟨S_, .f32⟩
  | .hbm, ⟨64, _⟩ => ⟨S50000x64, .f32⟩
  | .hbm, ⟨65, _⟩ => ⟨S1600000x1, .i32⟩
  | .hbm, ⟨66, _⟩ => ⟨S50000x64, .f32⟩
  | .hbm, ⟨67, _⟩ => ⟨S50000x1, .f32⟩
  | .hbm, ⟨68, _⟩ => ⟨S1x64, .f32⟩
  | .hbm, ⟨69, _⟩ => ⟨S50000x64, .f32⟩
  | .hbm, ⟨70, _⟩ => ⟨S50000x3, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x3, .f32⟩
  | .hbm, ⟨80, _⟩ => ⟨S1600000x1, .f32⟩
  | .hbm, ⟨81, _⟩ => ⟨S1600000x3, .f32⟩
  | .hbm, ⟨82, _⟩ => ⟨S1600000x3, .f32⟩
  | .hbm, ⟨83, _⟩ => ⟨S_, .f32⟩
  | .hbm, ⟨84, _⟩ => ⟨S50000x3, .f32⟩
  | .hbm, ⟨85, _⟩ => ⟨S1600000x1, .i32⟩
  | .hbm, ⟨86, _⟩ => ⟨S50000x3, .f32⟩
  | .hbm, ⟨87, _⟩ => ⟨S50000x1, .f32⟩
  | .hbm, ⟨88, _⟩ => ⟨S1x3, .f32⟩
  | .hbm, ⟨89, _⟩ => ⟨S50000x3, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x3, .f32⟩
  | .local _ .vmem, ⟨17, _⟩ => ⟨S5000x3, .f32⟩
  | .local _ .vmem, ⟨18, _⟩ => ⟨S5000x3, .f32⟩
  | .local _ .vmem, ⟨19, _⟩ => ⟨S5000x3, .f32⟩
  | .local _ .vmem, ⟨20, _⟩ => ⟨S5000x3, .f32⟩
  | .local _ .vmem, ⟨21, _⟩ => ⟨S5000x3, .f32⟩
  | .local _ .vmem, ⟨22, _⟩ => ⟨S5000x3, .f32⟩
  | .local _ .vmem, ⟨23, _⟩ => ⟨S5000x1, .f32⟩
  | .local _ .vmem, ⟨24, _⟩ => ⟨S5000x1, .f32⟩
  | .local _ .vmem, ⟨25, _⟩ => ⟨S1x3, .f32⟩
  | .local _ .vmem, ⟨26, _⟩ => ⟨S5000x3, .f32⟩
  | .local _ .vmem, ⟨27, _⟩ => ⟨S5000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_c_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x3 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x3 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x3 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  shapeCasts_S50000_S50000x1 : S50000.ShapeCasts S50000x1
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x3_S64x3_0_0 : ∀ a, (![0, 0] : Fin 2 → Nat) a + S64x3.size a ≤ S64x3.size a
  h_S64x3 : 0 < S64x3.numel
  inb_S5000x3_S5000x3_0_0 : ∀ a, (![0, 0] : Fin 2 → Nat) a + S5000x3.size a ≤ S5000x3.size a
  h_S5000x3 : 0 < S5000x3.numel
  bcast_S1600000x1_S1600000x3_0_1 : S1600000x1.BroadcastsInDim S1600000x3 (![0, 1] : Fin 2 → Fin S1600000x3.rank)
  bcast_S_S50000x3 : S_.BroadcastsInDim S50000x3 (![] : Fin 0 → Fin S50000x3.rank)
  shapeCasts_S3_S1x3 : S3.ShapeCasts S1x3
  shapeCasts_S5000x3_S5000x3 : S5000x3.ShapeCasts S5000x3
  broadcasts_S5000x1_S5000x3 : S5000x1.Broadcasts S5000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  reduces_S5000x3_S5000 : S5000x3.Reduces [1] S5000
  shapeCasts_S5000_S5000x1 : S5000.ShapeCasts S5000x1
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S5000x128_S128x64_S5000x64_1_0_0_1_n_n_wf : DotDims.WF S5000x128 S128x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x3_S5000x3_1_0_0_1_n_n_wf : DotDims.WF S5000x64 S64x3 S5000x3 [1] [0] [0] [1] [] []
  gather_S50000x3_S1600000x1_S1600000x3_1_0_n_n_0_1_13_wf : GatherDims.WF S50000x3 S1600000x1 S1600000x3 [1] [0] [] [0] [] 1 ![1, 3]
  scatter_S50000x3_S1600000x1_S1600000x3_1_0_0_1_wf : ScatterDims.WF S50000x3 S1600000x1 S1600000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x3.size a ≤ S64x3.size a
  hwx2_1 : ∀ i : grid2.Coords, EltTy.bits .f32 = 32 ∨ (Rect.block (s := S64x3) S64x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x3.size a ≤ S50000x3.size a
  hwx2_2 : ∀ i : grid2.Coords, EltTy.bits .f32 = 32 ∨ (Rect.block (s := S50000x3) S5000x3.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x3.size a ≤ S50000x3.size a
  hwx3_0 : ∀ i : grid3.Coords, EltTy.bits .f32 = 32 ∨ (Rect.block (s := S50000x3) S5000x3.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x3.size a ≤ S50000x3.size a
  hwx3_1 : ∀ i : grid3.Coords, EltTy.bits .f32 = 32 ∨ (Rect.block (s := S50000x3) S5000x3.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x3.size a ≤ S1x3.size a
  hwx3_3 : ∀ i : grid3.Coords, EltTy.bits .f32 = 32 ∨ (Rect.block (s := S1x3) S1x3.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x3.size a ≤ S50000x3.size a
  hwx3_4 : ∀ i : grid3.Coords, EltTy.bits .f32 = 32 ∨ (Rect.block (s := S50000x3) S5000x3.size (cc3_transform_4 i) (hinb3_4 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x3_S5000x3_1_0_0_1_n_n : DotDims S5000x64 S64x3 S5000x3 where
  lhsContracting := [1]
  rhsContracting := [0]
  lhsNonContracting := [0]
  rhsNonContracting := [1]
  lhsBatch := []
  rhsBatch := []
  wf := dot_S5000x64_S64x3_S5000x3_1_0_0_1_n_n_wf
def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def scatter_S50000x3_S1600000x1_S1600000x3_1_0_0_1 : ScatterDims S50000x3 S1600000x1 S1600000x3 where
  updateWindowDims := [1]
  insertedWindowDims := [0]
  scatterDimsToOperandDims := [0]
  indexVectorDim := 1
  wf := scatter_S50000x3_S1600000x1_S1600000x3_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x3.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S5000x3.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x3.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S5000x3.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x3 : Shape := ⟨2, ![64, 3]⟩
abbrev S3 : Shape := ⟨1, ![3]⟩
abbrev S1x1600000 : Shape := ⟨2, ![1, 1600000]⟩
abbrev S1600000 : Shape := ⟨1, ![1600000]⟩
abbrev S50000x64 : Shape := ⟨2, ![50000, 64]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩
abbrev S1x64 : Shape := ⟨2, ![1, 64]⟩
abbrev S50000x3 : Shape := ⟨2, ![50000, 3]⟩
abbrev S1650000x3 : Shape := ⟨2, ![1650000, 3]⟩
abbrev S1x3 : Shape := ⟨2, ![1, 3]⟩
abbrev S50000x1 : Shape := ⟨2, ![50000, 1]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S2x1600000, .i32⟩
  | 2 => ⟨S128x64, .f32⟩
  | 3 => ⟨S64, .f32⟩
  | 4 => ⟨S64x3, .f32⟩
  | 5 => ⟨S3, .f32⟩
  | 6 => ⟨S1x1600000, .i32⟩
  | 7 => ⟨S1600000, .i32⟩
  | 8 => ⟨S1x1600000, .i32⟩
  | 9 => ⟨S1600000, .i32⟩
  | 10 => ⟨S50000x64, .f32⟩
  | 11 => ⟨S50000, .i32⟩
  | 12 => ⟨S1650000, .i32⟩
  | 13 => ⟨S1650000, .i32⟩
  | 14 => ⟨S_, .f32⟩
  | 15 => ⟨S1650000, .f32⟩
  | 16 => ⟨S_, .f32⟩
  | 17 => ⟨S50000, .f32⟩
  | 18 => ⟨S1650000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S1650000, .i32⟩
  | 30 => ⟨S1650000, .i1⟩
  | 31 => ⟨S_, .i32⟩
  | 32 => ⟨S1650000, .i32⟩
  | 33 => ⟨S1650000, .i32⟩
  | 34 => ⟨S1650000, .i32⟩
  | 35 => ⟨S1650000x1, .i32⟩
  | 36 => ⟨S1650000, .f32⟩
  | 37 => ⟨S_, .i32⟩
  | 38 => ⟨S1650000, .i32⟩
  | 39 => ⟨S1650000, .i1⟩
  | 40 => ⟨S_, .i32⟩
  | 41 => ⟨S1650000, .i32⟩
  | 42 => ⟨S1650000, .i32⟩
  | 43 => ⟨S1650000, .i32⟩
  | 44 => ⟨S1650000x1, .i32⟩
  | 45 => ⟨S1650000, .f32⟩
  | 46 => ⟨S1650000, .f32⟩
  | 47 => ⟨S_, .i32⟩
  | 48 => ⟨S1650000, .i32⟩
  | 49 => ⟨S1650000, .i1⟩
  | 50 => ⟨S_, .i32⟩
  | 51 => ⟨S1650000, .i32⟩
  | 52 => ⟨S1650000, .i32⟩
  | 53 => ⟨S1650000, .i32⟩
  | 54 => ⟨S1650000x1, .i32⟩
  | 55 => ⟨S1650000x64, .f32⟩
  | 56 => ⟨S1650000x1, .f32⟩
  | 57 => ⟨S1650000x64, .f32⟩
  | 58 => ⟨S1650000x64, .f32⟩
  | 59 => ⟨S_, .f32⟩
  | 60 => ⟨S50000x64, .f32⟩
  | 61 => ⟨S1650000x1, .i32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S50000x64, .f32⟩
  | 68 => ⟨S50000x64, .f32⟩
  | 69 => ⟨S50000x3, .f32⟩
  | 70 => ⟨S50000, .i32⟩
  | 71 => ⟨S1650000, .i32⟩
  | 72 => ⟨S1650000, .i32⟩
  | 73 => ⟨S_, .f32⟩
  | 74 => ⟨S1650000, .f32⟩
  | 75 => ⟨S_, .f32⟩
  | 76 => ⟨S50000, .f32⟩
  | 77 => ⟨S1650000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S1650000, .i32⟩
  | 89 => ⟨S1650000, .i1⟩
  | 90 => ⟨S_, .i32⟩
  | 91 => ⟨S1650000, .i32⟩
  | 92 => ⟨S1650000, .i32⟩
  | 93 => ⟨S1650000, .i32⟩
  | 94 => ⟨S1650000x1, .i32⟩
  | 95 => ⟨S1650000, .f32⟩
  | 96 => ⟨S_, .i32⟩
  | 97 => ⟨S1650000, .i32⟩
  | 98 => ⟨S1650000, .i1⟩
  | 99 => ⟨S_, .i32⟩
  | 100 => ⟨S1650000, .i32⟩
  | 101 => ⟨S1650000, .i32⟩
  | 102 => ⟨S1650000, .i32⟩
  | 103 => ⟨S1650000x1, .i32⟩
  | 104 => ⟨S1650000, .f32⟩
  | 105 => ⟨S1650000, .f32⟩
  | 106 => ⟨S_, .i32⟩
  | 107 => ⟨S1650000, .i32⟩
  | 108 => ⟨S1650000, .i1⟩
  | 109 => ⟨S_, .i32⟩
  | 110 => ⟨S1650000, .i32⟩
  | 111 => ⟨S1650000, .i32⟩
  | 112 => ⟨S1650000, .i32⟩
  | 113 => ⟨S1650000x1, .i32⟩
  | 114 => ⟨S1650000x3, .f32⟩
  | 115 => ⟨S1650000x1, .f32⟩
  | 116 => ⟨S1650000x3, .f32⟩
  | 117 => ⟨S1650000x3, .f32⟩
  | 118 => ⟨S_, .f32⟩
  | 119 => ⟨S50000x3, .f32⟩
  | 120 => ⟨S1650000x1, .i32⟩
  | 121 => ⟨S50000x3, .f32⟩
  | 122 => ⟨S1x3, .f32⟩
  | 123 => ⟨S50000x3, .f32⟩
  | 124 => ⟨S50000x3, .f32⟩
  | 125 => ⟨S_, .f32⟩
  | 126 => ⟨S50000, .f32⟩
  | 127 => ⟨S_, .f32⟩
  | _ => ⟨S50000x128, .f32⟩

abbrev hbmTy0_1 (i : Nat) : BufTy := match i % 128 with
  | 0 => ⟨S50000, .f32⟩
  | 1 => ⟨S50000, .f32⟩
  | 2 => ⟨S50000x1, .f32⟩
  | 3 => ⟨S50000x3, .f32⟩
  | 4 => ⟨S50000x3, .f32⟩
  | 5 => ⟨S50000x3, .f32⟩
  | 6 => ⟨S_, .f32⟩
  | 7 => ⟨S50000, .f32⟩
  | 8 => ⟨S50000x1, .f32⟩
  | 9 => ⟨S50000x1, .f32⟩
  | 10 => ⟨S50000x3, .f32⟩
  | 11 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v91 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1650000x1_S1650000x3_0_1 : S1650000x1.BroadcastsInDim S1650000x3 (![0, 1] : Fin 2 → Fin S1650000x3.rank)
  bcast_S_S50000x3 : S_.BroadcastsInDim S50000x3 (![] : Fin 0 → Fin S50000x3.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  reducesTo_S50000x3_S50000_d1 : S50000x3.ReducesTo [1] S50000
  h_S_ : 0 < S_.numel
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  dot_S50000x128_S128x64_S50000x64_1_0_0_1_n_n_wf : DotDims.WF S50000x128 S128x64 S50000x64 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x3_S50000x3_1_0_0_1_n_n_wf : DotDims.WF S50000x64 S64x3 S50000x3 [1] [0] [0] [1] [] []
  gather_S50000x3_S1650000x1_S1650000x3_1_0_n_n_0_1_13_wf : GatherDims.WF S50000x3 S1650000x1 S1650000x3 [1] [0] [] [0] [] 1 ![1, 3]
  scatter_S50000x3_S1650000x1_S1650000x3_1_0_0_1_wf : ScatterDims.WF S50000x3 S1650000x1 S1650000x3 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x3_S50000x3_1_0_0_1_n_n : DotDims S50000x64 S64x3 S50000x3 where
  lhsContracting := [1]
  rhsContracting := [0]
  lhsNonContracting := [0]
  rhsNonContracting := [1]
  lhsBatch := []
  rhsBatch := []
  wf := dot_S50000x64_S64x3_S50000x3_1_0_0_1_n_n_wf
def gather_S50000x3_S1650000x1_S1650000x3_1_0_n_n_0_1_13 : GatherDims S50000x3 S1650000x1 S1650000x3 where
  offsetDims := [1]
  collapsedSliceDims := [0]
  operandBatchingDims := []
  startIndicesBatchingDims := []
  startIndexMap := [0]
  indexVectorDim := 1
  sliceSizes := ![1, 3]
  wf := gather_S50000x3_S1650000x1_S1650000x3_1_0_n_n_0_1_13_wf
def scatter_S50000x3_S1650000x1_S1650000x3_1_0_0_1 : ScatterDims S50000x3 S1650000x1 S1650000x3 where
  updateWindowDims := [1]
  insertedWindowDims := [0]
  scatterDimsToOperandDims := [0]
  indexVectorDim := 1
  wf := scatter_S50000x3_S1650000x1_S1650000x3_1_0_0_1_wf

class Facts : Prop extends Facts₀ where

variable [Facts]
-- ==== Proof.KRun.lean ====
/-
  The idealized kernel program's run with its result named.

  @main is nine segments: three stretches of host operations, the first projection's region, a stretch of host
  operations (the first layer's gather, scaling and scatter), the first combination's region, the second
  projection's region, a stretch (the second layer's gather, scaling and scatter) and the second combination's
  region. The buffer contents at each boundary are a fold from the launch memory: a stretch applies its operations,
  a region leaves in each of its arrays what its write-backs leave and every other buffer as it found it. Every
  weakly fair execution terminates, nothing faulting, with EVERY unscoped buffer at the last boundary's contents;
  read at the result buffer this names the result, read at the arguments it gives them back as launched.
-/
import proofs.«125733_j4569845203117_1_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument arrays as launched. -/
theorem run_value : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.KVal

end
-- ==== Proof.KHost.lean ====
/-
  The arrays the idealized kernel program's host operations compute around its four kernels, as functions of the
  edge array: the source and target words of every edge, the degree of every node (the number of edges whose
  target word names it, plus one), the normalising factor (one over the root of the degree where the degree is
  positive, else zero), its square, the weight of every edge (the factors of the two nodes its words read), and,
  for a node array, the rows gathered along the sources, scaled by the edge weights and added into zeros along
  the targets.
-/
import proofs.«125733_j4569845203117_1_alg».proof.KernelIdeal
import proofs.«125733_j4569845203117_1_alg».proof.Proof.Gen.KernelIdeal
import Idealize.ShloMosaic.PureOps.Ideal
import Idealize.ShloMosaic.PureOps.Ideal.Laws

noncomputable section

namespace Cert.KernelIdeal.KHost

open Idealize.ShloMosaic Cert.KernelIdeal Cert.KernelIdeal.Facts₀ Cert.KernelIdeal.Facts

variable (ei : IVec S2x1600000 32)

/-- The source words: row 0 of the edge array. -/
def srcV : IVec S1600000 32 :=
  shapeCast S1600000 (extractStridedSlice S1x1600000 ![0, 0] ei slices_S2x1600000_S1x1600000_0_0) shapeCasts_S1x1600000_S1600000

/-- The target words: row 1 of the edge array. -/
def dstV : IVec S1600000 32 :=
  shapeCast S1600000 (extractStridedSlice S1x1600000 ![1, 0] ei slices_S2x1600000_S1x1600000_1_0) shapeCasts_S1x1600000_S1600000

/-- An index vector as a column. -/
def colV (v : IVec S1600000 32) : IVec S1600000x1 32 := broadcastInDim S1600000x1 ![0] bcast_S1600000_S1600000x1_0 v

/-- A negative index word counts from the end. -/
def wrapV (v : IVec S1600000 32) : IVec S1600000 32 :=
  select (cmpi .slt v (broadcastInDim S1600000 ![] bcast_S_S1600000 (constantI S_ 32 0#32)))
    (addi v (broadcastInDim S1600000 ![] bcast_S_S1600000 (constantI S_ 32 50000#32))) v

/-- The degree: ones added into zeros along the targets, plus one. -/
def degV : FVec Ideal S50000 .f32 :=
  addf (Host.scatterAdd scatter_S50000_S1600000x1_S1600000_n_0_0_1
      (broadcastInDim S50000 ![] bcast_S_S50000 (constant S_ .f32 0x00000000#32)) (colV (dstV ei))
      (broadcastInDim S1600000 ![] bcast_S_S1600000 (constant S_ .f32 0x3F800000#32)))
    (broadcastInDim S50000 ![] bcast_S_S50000 (constant S_ .f32 0x3F800000#32))

/-- The normalising factor. -/
def dinvV : FVec Ideal S50000 .f32 :=
  select (cmpf .ogt (degV ei) (broadcastInDim S50000 ![] bcast_S_S50000 (constant S_ .f32 0x00000000#32)))
    (Host.divf (broadcastInDim S50000 ![] bcast_S_S50000 (constant S_ .f32 0x3F800000#32)) (Host.sqrt (degV ei)))
    (broadcastInDim S50000 ![] bcast_S_S50000 (constant S_ .f32 0x00000000#32))

/-- The squared factor. -/
def d2V : FVec Ideal S50000 .f32 := mulf (dinvV ei) (dinvV ei)

/-- The edge weights. -/
def normV : FVec Ideal S1600000 .f32 :=
  mulf (Host.gather gather_S50000_S1600000x1_S1600000_n_0_n_n_0_1_1 (dinvV ei) (colV (wrapV (srcV ei))))
    (Host.gather gather_S50000_S1600000x1_S1600000_n_0_n_n_0_1_1 (dinvV ei) (colV (wrapV (dstV ei))))

/-- The messages of the first layer: rows gathered along the sources, scaled, added into zeros along the targets. -/
def agg64 (L : FVec Ideal S50000x64 .f32) : FVec Ideal S50000x64 .f32 :=
  Host.scatterAdd scatter_S50000x64_S1600000x1_S1600000x64_1_0_0_1
    (broadcastInDim S50000x64 ![] bcast_S_S50000x64 (constant S_ .f32 0x00000000#32)) (colV (dstV ei))
    (mulf (Host.gather gather_S50000x64_S1600000x1_S1600000x64_1_0_n_n_0_1_164 L (colV (wrapV (srcV ei))))
      (broadcastInDim S1600000x64 ![0, 1] bcast_S1600000x1_S1600000x64_0_1
        (broadcastInDim S1600000x1 ![0] bcast_S1600000_S1600000x1_0 (normV ei))))

/-- The messages of the second layer. -/
def agg3 (L : FVec Ideal S50000x3 .f32) : FVec Ideal S50000x3 .f32 :=
  Host.scatterAdd scatter_S50000x3_S1600000x1_S1600000x3_1_0_0_1
    (broadcastInDim S50000x3 ![] bcast_S_S50000x3 (constant S_ .f32 0x00000000#32)) (colV (dstV ei))
    (mulf (Host.gather gather_S50000x3_S1600000x1_S1600000x3_1_0_n_n_0_1_13 L (colV (wrapV (srcV ei))))
      (broadcastInDim S1600000x3 ![0, 1] bcast_S1600000x1_S1600000x3_0_1
        (broadcastInDim S1600000x1 ![0] bcast_S1600000_S1600000x1_0 (normV ei))))

/-- The squared factor as a column. -/
def d2col : FVec Ideal S50000x1 .f32 := shapeCast S50000x1 (d2V ei) shapeCasts_S50000_S50000x1

/-- The first bias as a row. -/
def b1row (b1 : FVec Ideal S64 .f32) : FVec Ideal S1x64 .f32 := shapeCast S1x64 b1 shapeCasts_S64_S1x64

/-- The second bias as a row. -/
def b2row (b2 : FVec Ideal S3 .f32) : FVec Ideal S1x3 .f32 := shapeCast S1x3 b2 shapeCasts_S3_S1x3

end Cert.KernelIdeal.KHost

end
-- ==== Proof.RegionFns.lean ====
/-
  What each of the four kernels computes on whole arrays, at the extended reals.

  * a projection:  (X · W)[r, k] = Σ_j X[r, j] · W[j, k];
  * the combination of a layer:  A[r, k] + L[r, k] · D[r, 0] + B[0, k]  (aggregated messages, the node's own row
    scaled by its squared factor, the bias), clipped below at zero after the first layer;
  * after the second layer each row less its maximum, less the logarithm of the sum of the exponentials of the shifted row.
-/
import Idealize.ShloMosaic.PureOps.Ideal
import Idealize.ShloMosaic.PureOps.Ideal.Laws
import Idealize.ShloMosaic.Lib.ValueIdx

noncomputable section

namespace Cert.Gcn2

open Idealize.ShloMosaic Idealize.ShloMosaic.ValueIdx

/-- The first projection at node `r`, column `k`. -/
def proj1 (X : (⟨2, ![50000, 128]⟩ : Shape).Idx → EReal) (W : (⟨2, ![128, 64]⟩ : Shape).Idx → EReal)
    (r : Fin 50000) (k : Fin 64) : EReal := ∑ j : Fin 128, X (ix2 r j) * W (ix2 j k)

def proj1Arr (X : (⟨2, ![50000, 128]⟩ : Shape).Idx → EReal) (W : (⟨2, ![128, 64]⟩ : Shape).Idx → EReal) :
    (⟨2, ![50000, 64]⟩ : Shape).Idx → EReal := fun i => proj1 X W (i 0) (i 1)

/-- The second projection at node `r`, class `k`. -/
def proj2 (X : (⟨2, ![50000, 64]⟩ : Shape).Idx → EReal) (W : (⟨2, ![64, 3]⟩ : Shape).Idx → EReal)
    (r : Fin 50000) (k : Fin 3) : EReal := ∑ j : Fin 64, X (ix2 r j) * W (ix2 j k)

def proj2Arr (X : (⟨2, ![50000, 64]⟩ : Shape).Idx → EReal) (W : (⟨2, ![64, 3]⟩ : Shape).Idx → EReal) :
    (⟨2, ![50000, 3]⟩ : Shape).Idx → EReal := fun i => proj2 X W (i 0) (i 1)

/-- Messages plus the node's own scaled row plus the bias, at node `r`, column `k`. -/
def combine {C : Nat} (A L : (⟨2, ![50000, C]⟩ : Shape).Idx → EReal) (D : (⟨2, ![50000, 1]⟩ : Shape).Idx → EReal)
    (B : (⟨2, ![1, C]⟩ : Shape).Idx → EReal) (r : Fin 50000) (k : Fin C) : EReal :=
  A (ix2 r k) + L (ix2 r k) * D (ix2 r (0 : Fin 1)) + B (ix2 (0 : Fin 1) k)

/-- The first layer's combination clipped below at zero. -/
def reluArr (A L : (⟨2, ![50000, 64]⟩ : Shape).Idx → EReal) (D : (⟨2, ![50000, 1]⟩ : Shape).Idx → EReal)
    (B : (⟨2, ![1, 64]⟩ : Shape).Idx → EReal) : (⟨2, ![50000, 64]⟩ : Shape).Idx → EReal :=
  fun i => max (combine A L D B (i 0) (i 1)) 0

/-- The maximum of a row of three: the fold of max from the bottom element. -/
def max3 (v : Fin 3 → EReal) : EReal := (Finset.univ : Finset (Fin 3)).fold max ⊥ v

/-- A row of three less its maximum less the logarithm of the sum of the exponentials of the shifted row. -/
def logSoftmax3 (v : Fin 3 → EReal) (k : Fin 3) : EReal :=
  (v k - max3 v) - Ideal.log (∑ k' : Fin 3, Ideal.exp (v k' - max3 v))

/-- The second layer's combination, normalised row by row. -/
def lsmArr (A L : (⟨2, ![50000, 3]⟩ : Shape).Idx → EReal) (D : (⟨2, ![50000, 1]⟩ : Shape).Idx → EReal)
    (B : (⟨2, ![1, 3]⟩ : Shape).Idx → EReal) : (⟨2, ![50000, 3]⟩ : Shape).Idx → EReal :=
  fun i => logSoftmax3 (fun k => combine A L D B (i 0) k) (i 1)

end Cert.Gcn2

end
-- ==== Proof.KOut.lean ====
/-
  The idealized kernel program's result as one composition: the first projection of the node features, its messages
  combined with its own scaled rows and the bias and clipped at zero, the second projection of that, and its
  messages combined the same way and normalised row by row.
-/
import proofs.«125733_j4569845203117_1_alg».proof.Proof.KHost
import proofs.«125733_j4569845203117_1_alg».proof.Proof.RegionFns

noncomputable section

namespace Cert.KernelIdeal.KHost

open Idealize.ShloMosaic Cert.KernelIdeal

/-- The kernel program's result array as a function of its six argument arrays. -/
def kOut (ei : IVec S2x1600000 32) (x : FVec Ideal S50000x128 .f32) (W1 : FVec Ideal S128x64 .f32) (b1 : FVec Ideal S64 .f32)
    (W2 : FVec Ideal S64x3 .f32) (b2 : FVec Ideal S3 .f32) : FVec Ideal S50000x3 .f32 :=
  Cert.Gcn2.lsmArr
    (agg3 ei (Cert.Gcn2.proj2Arr (Cert.Gcn2.reluArr (agg64 ei (Cert.Gcn2.proj1Arr x W1)) (Cert.Gcn2.proj1Arr x W1) (d2col ei) (b1row b1)) W2))
    (Cert.Gcn2.proj2Arr (Cert.Gcn2.reluArr (agg64 ei (Cert.Gcn2.proj1Arr x W1)) (Cert.Gcn2.proj1Arr x W1) (d2col ei) (b1row b1)) W2)
    (d2col ei) (b2row b2)

end Cert.KernelIdeal.KHost

end
-- ==== Proof.KChain1.lean ====
/-
  The buffers of the idealized kernel program at its first kernel's entry and exit, read back to the launch memory.

  Three stretches of host operations run before the first projection: they compute the source and target words, the
  degree, the factor (one over the root of the degree where it is positive), its square, the wrapped words, and the
  factor gathered along them and multiplied: the edge weights. A stretch writes its own results and keeps every
  other buffer, and the first projection keeps every buffer that is not one of its three arrays.
-/
import proofs.«125733_j4569845203117_1_alg».proof.Proof.Gen.KernelIdeal.Frame
import proofs.«125733_j4569845203117_1_alg».proof.Proof.KOut
import Idealize.ShloMosaic.Lib.StableHlo.Run

set_option maxRecDepth 16384
set_option maxHeartbeats 40000000

noncomputable section

namespace Cert.KernelIdeal.KVal

open Idealize.ShloMosaic Idealize.ShloMosaic.TcCoe Idealize.ShloMosaic.StableHlo Idealize.SL.Sem
open Cert.KernelIdeal Cert.KernelIdeal.Gen Cert.KernelIdeal.KHost

variable (m : (ℓ : Loc nD τ sig) → Buf (Elt Ideal) ℓ) (ρ : Dev nD → PrngReg)

/-- A buffer none of a stretch's operations writes keeps its contents. -/
macro "host_keeps" ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## At the first projection's entry -/

theorem W3_v1 (c : Dev nD) : W3 m ρ c (Proc.devRef .tc main_v1) = srcV (m ((c : Thread nD τ).loc main_arg1)) := by
  dsimp only [W3, W2, W1, W0, hostOps0, hostOps0_1, hostOps0_2]; after_results; rfl
theorem W3_v3 (c : Dev nD) : W3 m ρ c (Proc.devRef .tc main_v3) = dstV (m ((c : Thread nD τ).loc main_arg1)) := by
  dsimp only [W3, W2, W1, W0, hostOps0, hostOps0_1, hostOps0_2]; after_results; rfl

/-- An argument array is written by none of the three stretches. -/
theorem W3_arg (c : Dev nD) (b : Ref sig .tc)
    (h0 : W1 m ρ c (Proc.devRef .tc b) = W0 m ρ c (Proc.devRef .tc b))
    (h1 : W2 m ρ c (Proc.devRef .tc b) = W1 m ρ c (Proc.devRef .tc b))
    (h2 : W3 m ρ c (Proc.devRef .tc b) = W2 m ρ c (Proc.devRef .tc b)) :
    W3 m ρ c (Proc.devRef .tc b) = W0 m ρ c (Proc.devRef .tc b) := h2.trans (h1.trans h0)

theorem W3_arg0 (c : Dev nD) : W3 m ρ c (Proc.devRef .tc main_arg0) = (m ((c : Thread nD τ).loc main_arg0)) :=
  W3_arg m ρ c main_arg0 (by host_keeps hostOps0) (by host_keeps hostOps0_1) (by host_keeps hostOps0_2)
theorem W3_arg2 (c : Dev nD) : W3 m ρ c (Proc.devRef .tc main_arg2) = (m ((c : Thread nD τ).loc main_arg2)) :=
  W3_arg m ρ c main_arg2 (by host_keeps hostOps0) (by host_keeps hostOps0_1) (by host_keeps hostOps0_2)
theorem W3_arg3 (c : Dev nD) : W3 m ρ c (Proc.devRef .tc main_arg3) = (m ((c : Thread nD τ).loc main_arg3)) :=
  W3_arg m ρ c main_arg3 (by host_keeps hostOps0) (by host_keeps hostOps0_1) (by host_keeps hostOps0_2)
theorem W3_arg4 (c : Dev nD) : W3 m ρ c (Proc.devRef .tc main_arg4) = (m ((c : Thread nD τ).loc main_arg4)) :=
  W3_arg m ρ c main_arg4 (by host_keeps hostOps0) (by host_keeps hostOps0_1) (by host_keeps hostOps0_2)
theorem W3_arg5 (c : Dev nD) : W3 m ρ c (Proc.devRef .tc main_arg5) = (m ((c : Thread nD τ).loc main_arg5)) :=
  W3_arg m ρ c main_arg5 (by host_keeps hostOps0) (by host_keeps hostOps0_1) (by host_keeps hostOps0_2)

/-! ## At the first projection's exit -/

theorem W4_v1 (c : Dev nD) : W4 m ρ c (Proc.devRef .tc main_v1) = srcV (m ((c : Thread nD τ).loc main_arg1)) :=
  (W4_of_ne m ρ c main_v1 (by decide)).trans (W3_v1 m ρ c)
theorem W4_v3 (c : Dev nD) : W4 m ρ c (Proc.devRef .tc main_v3) = dstV (m ((c : Thread nD τ).loc main_arg1)) :=
  (W4_of_ne m ρ c main_v3 (by decide)).trans (W3_v3 m ρ c)
theorem W4_arg3 (c : Dev nD) : W4 m ρ c (Proc.devRef .tc main_arg3) = (m ((c : Thread nD τ).loc main_arg3)) :=
  (W4_of_ne m ρ c main_arg3 (by decide)).trans (W3_arg3 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg5 (c : Dev nD) : W4 m ρ c (Proc.devRef .tc main_arg5) = (m ((c : Thread nD τ).loc main_arg5)) :=
  (W4_of_ne m ρ c main_arg5 (by decide)).trans (W3_arg5 m ρ c)

end Cert.KernelIdeal.KVal

end
-- ==== Proof.KChain1h.lean ====
/-
  The squared factor and the edge weights of the idealized kernel program at its first kernel's entry and exit, read back
  to the launch memory, one stretch of host operations at a time. From ANY buffer contents V a stretch leaves in each
  buffer it writes its operation's function of what V holds in the operands: the first stretch the words, the degree's
  comparison against zero and one over its root; the second the selected factor; the third its square and the product
  of the factors gathered along the wrapped words. Chained from the launch memory these are the named arrays.
-/
import proofs.«125733_j4569845203117_1_alg».proof.Proof.Gen.KernelIdeal.Frame
import proofs.«125733_j4569845203117_1_alg».proof.Proof.KOut
import Idealize.ShloMosaic.Lib.StableHlo.Run

set_option maxRecDepth 16384
set_option maxHeartbeats 40000000

noncomputable section

namespace Cert.KernelIdeal.KVal

open Idealize.ShloMosaic Idealize.ShloMosaic.TcCoe Idealize.ShloMosaic.StableHlo Idealize.SL.Sem
open Cert.KernelIdeal Cert.KernelIdeal.Gen Cert.KernelIdeal.KHost

variable (m : (ℓ : Loc nD τ sig) → Buf (Elt Ideal) ℓ) (ρ : Dev nD → PrngReg)

section
variable (V : Valuation τ sig (Elt Ideal))

/-! ## Each stretch from any contents -/

theorem s0_v1 : StableHlo.after hostOps0 V (Proc.devRef .tc main_v1) = srcV (V (Proc.devRef .tc main_arg1)) := by
  dsimp only [hostOps0]; after_results; rfl
theorem s0_v3 : StableHlo.after hostOps0 V (Proc.devRef .tc main_v3) = dstV (V (Proc.devRef .tc main_arg1)) := by
  dsimp only [hostOps0]; after_results; rfl
theorem s0_v11 : StableHlo.after hostOps0 V (Proc.devRef .tc main_v11)
    = cmpf .ogt (degV (V (Proc.devRef .tc main_arg1))) (broadcastInDim S50000 ![] bcast_S_S50000 (constant S_ .f32 0x00000000#32)) := by
  dsimp only [hostOps0]; after_results; rfl
theorem s0_v14 : StableHlo.after hostOps0 V (Proc.devRef .tc main_v14)
    = Host.divf (broadcastInDim S50000 ![] bcast_S_S50000 (constant S_ .f32 0x3F800000#32)) (Host.sqrt (degV (V (Proc.devRef .tc main_arg1)))) := by
  dsimp only [hostOps0]; after_results; rfl
theorem s0_cst_4 : StableHlo.after hostOps0 V (Proc.devRef .tc main_cst_4) = constant (F := Ideal) S_ .f32 0x00000000#32 := by
  dsimp only [hostOps0]; after_results; try rfl

theorem s1_v15 : StableHlo.after hostOps0_1 V (Proc.devRef .tc main_v15)
    = select (V (Proc.devRef .tc main_v11)) (V (Proc.devRef .tc main_v14)) (broadcastInDim S50000 ![] bcast_S_S50000 (V (Proc.devRef .tc main_cst_4))) := by
  dsimp only [hostOps0_1]; after_results; rfl

theorem s2_v16 : StableHlo.after hostOps0_2 V (Proc.devRef .tc main_v16) = (mulf ((V (Proc.devRef .tc main_v15)) : FVec Ideal S50000 .f32) ((V (Proc.devRef .tc main_v15)) : FVec Ideal S50000 .f32) : FVec Ideal S50000 .f32) := by
  dsimp only [hostOps0_2]; after_results; try rfl
theorem s2_v31 : StableHlo.after hostOps0_2 V (Proc.devRef .tc main_v31)
    = (mulf (Host.gather gather_S50000_S1600000x1_S1600000_n_0_n_n_0_1_1 ((V (Proc.devRef .tc main_v15)) : FVec Ideal S50000 .f32) (colV (wrapV (V (Proc.devRef .tc main_v1)))))
        (Host.gather gather_S50000_S1600000x1_S1600000_n_0_n_n_0_1_1 ((V (Proc.devRef .tc main_v15)) : FVec Ideal S50000 .f32) (colV (wrapV (V (Proc.devRef .tc main_v3))))) : FVec Ideal S1600000 .f32) := by
  dsimp only [hostOps0_2]; after_results; rfl

end

/-- A buffer none of a stretch's operations writes keeps its contents. -/
macro "host_keeps'" ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## Chained from the launch memory -/

theorem W2_v15 (c : Dev nD) : W2 m ρ c (Proc.devRef .tc main_v15) = dinvV (m ((c : Thread nD τ).loc main_arg1)) :=
  (s1_v15 (W1 m ρ c)).trans
    (congr (congr (congrArg select (s0_v11 (W0 m ρ c))) (s0_v14 (W0 m ρ c)))
      (congrArg (broadcastInDim S50000 ![] bcast_S_S50000) (s0_cst_4 (W0 m ρ c))))

theorem W2_v1 (c : Dev nD) : W2 m ρ c (Proc.devRef .tc main_v1) = srcV (m ((c : Thread nD τ).loc main_arg1)) :=
  (show W2 m ρ c (Proc.devRef .tc main_v1) = W1 m ρ c (Proc.devRef .tc main_v1) by host_keeps' hostOps0_1).trans (s0_v1 (W0 m ρ c))
theorem W2_v3 (c : Dev nD) : W2 m ρ c (Proc.devRef .tc main_v3) = dstV (m ((c : Thread nD τ).loc main_arg1)) :=
  (show W2 m ρ c (Proc.devRef .tc main_v3) = W1 m ρ c (Proc.devRef .tc main_v3) by host_keeps' hostOps0_1).trans (s0_v3 (W0 m ρ c))

theorem W3_v16 (c : Dev nD) : W3 m ρ c (Proc.devRef .tc main_v16) = d2V (m ((c : Thread nD τ).loc main_arg1)) :=
  (s2_v16 (W2 m ρ c)).trans (congrArg₂ mulf (W2_v15 m ρ c) (W2_v15 m ρ c))

theorem W3_v31 (c : Dev nD) : W3 m ρ c (Proc.devRef .tc main_v31) = normV (m ((c : Thread nD τ).loc main_arg1)) :=
  (s2_v31 (W2 m ρ c)).trans
    (congrArg₂ mulf
      (congrArg₂ (Host.gather gather_S50000_S1600000x1_S1600000_n_0_n_n_0_1_1) (W2_v15 m ρ c) (congrArg (fun v => colV (wrapV v)) (W2_v1 m ρ c)))
      (congrArg₂ (Host.gather gather_S50000_S1600000x1_S1600000_n_0_n_n_0_1_1) (W2_v15 m ρ c) (congrArg (fun v => colV (wrapV v)) (W2_v3 m ρ c))))

theorem W4_v16 (c : Dev nD) : W4 m ρ c (Proc.devRef .tc main_v16) = d2V (m ((c : Thread nD τ).loc main_arg1)) :=
  (W4_of_ne m ρ c main_v16 (by decide)).trans (W3_v16 m ρ c)
theorem W4_v31 (c : Dev nD) : W4 m ρ c (Proc.devRef .tc main_v31) = normV (m ((c : Thread nD τ).loc main_arg1)) :=
  (W4_of_ne m ρ c main_v31 (by decide)).trans (W3_v31 m ρ c)

end Cert.KernelIdeal.KVal

end
-- ==== Proof.KProj0.lean ====
/-
  The first projection kernel, from blocks to the whole array, at the extended reals.

  The kernel multiplies a block of 5000 rows of the node features X (5000 × 128) by the weight matrix W (128 × 64):
  the two narrowing casts in front of the matrix unit are the identity on extended reals and the accumulator is the
  zero splat, so the stored entry at row p, column q of the block is  Σ_j X_block[p, j] · W[j, q]  over the 128
  contracted positions. The grid has ten points; at point t the left operand's block and the result's block are rows
  5000·t … 5000·t + 4999 of their arrays and the right operand's block is the whole matrix. Hence what point t
  writes back is block t of the one array  (X · W)[r, k] = Σ_j X[r, j] · W[j, k],  row r of the result lies in the
  block of point r / 5000, the ten blocks tile the 50000 rows, and the result array ends holding X · W.
-/
import proofs.«125733_j4569845203117_1_alg».proof.Proof.Gen.KernelIdeal.Frame
import proofs.«125733_j4569845203117_1_alg».proof.Proof.RegionFns
import Idealize.ShloMosaic.Lib.Pipeline.Value
import Idealize.ShloMosaic.Lib.ValueIdx
import Idealize.ShloMosaic.PureOps.Ideal.Laws

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

/-! ## The product at one entry -/

/-- The dot's dimension numbers contract the left operand's axis 1 with the right operand's axis 0 and keep the left
    operand's axis 0 and the right operand's axis 1: the operand indices at an output index and a contraction index,
    coordinate by coordinate. -/
theorem proj1_lhs_row (i : S5000x64.Idx) (k : dot_S5000x128_S128x64_S5000x64_1_0_0_1_n_n.contr.Idx) :
    (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem proj1_lhs_col (i : S5000x64.Idx) (k : dot_S5000x128_S128x64_S5000x64_1_0_0_1_n_n.contr.Idx) :
    (dot_S5000x128_S128x64_S5000x64_1_0_0_1_n_n.lhsIdx i k 1).val = (k ⟨0, by decide⟩).val :=
  dot_S5000x128_S128x64_S5000x64_1_0_0_1_n_n.lhsIdx_val_of_single rfl i k
theorem proj1_rhs_row (i : S5000x64.Idx) (k : dot_S5000x128_S128x64_S5000x64_1_0_0_1_n_n.contr.Idx) :
    (dot_S5000x128_S128x64_S5000x64_1_0_0_1_n_n.rhsIdx i k 0).val = (k ⟨0, by decide⟩).val :=
  dot_S5000x128_S128x64_S5000x64_1_0_0_1_n_n.rhsIdx_val_of_single rfl i k
theorem proj1_rhs_col (i : S5000x64.Idx) (k : dot_S5000x128_S128x64_S5000x64_1_0_0_1_n_n.contr.Idx) :
    (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's stored value at row `p`, column `q` of its block: the two narrowing casts are the identity on extended
    reals and the accumulator is the zero splat, so it is the sum over the 128 contracted positions of the products of
    the left block's row `p` with the right block's column `q`. -/
theorem proj1_entry (x0 : Vec Ideal S5000x128 .f32) (x1 : Vec Ideal S128x64 .f32) (p : Fin 5000) (q : Fin 64) :
    Gen.k0_pay1 (F := Ideal) x0 x1 (ix2 p q) = ∑ j : Fin 128, x0 (ix2 p j) * x1 (ix2 j q) := by
  unfold Gen.k0_pay1
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  rw [truncf_apply, truncf_apply]
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact proj1_lhs_row _ _
    | ⟨1, _⟩ => exact (proj1_lhs_col _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (proj1_rhs_row _ _).trans hk
    | ⟨1, _⟩ => exact proj1_rhs_col _ _)
  rw [el, er]

/-- The product array at row `r`, column `q`. -/
theorem proj1Arr_at (X : S50000x128.Idx → EReal) (W : S128x64.Idx → EReal) (r : Fin 50000) (q : Fin 64) :
    Cert.Gcn2.proj1Arr X W (ix2 r q) = ∑ j : Fin 128, X (ix2 r j) * W (ix2 j q) := rfl

/-! ## From blocks to the array -/

section
variable (V : (c : Dev nD) → (b : Ref sig .tc) → Buf (Elt Ideal) ((c : Thread nD τ).loc b))

/-- The zero offsets of a whole-block access, as the constant function. -/
theorem proj1_zero_offsets : (![0, 0] : Fin 2 → Nat) = fun _ => 0 := funext fun a => by fin_cases a <;> rfl

/-- The index maps, decided over the ten grid points: at point `t` the left operand's window and the result's window
    are at row block `t`, column block 0; the right operand's window stays at block (0, 0). -/
theorem proj1_index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `5000·t … 5000·t + 4999` of the array. -/
theorem proj1_lhs_block (c : Dev nD) (t : Fin cfg0.N) (p : Fin 5000) (k : Fin 128) (r : Fin 50000) (hr : r.val = t.val * 5000 + p.val) :
    (iblk0 V c 0 t : Vec Ideal S5000x128 .f32) (ix2 p k) = (V c main_arg0 : S50000x128.Idx → EReal) (ix2 r k) := by
  obtain ⟨e00, e01, -, -, -, -⟩ := proj1_index_maps t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e00, hr]; omega
  | ⟨1, _⟩ => show win0_0.index t (1 : Fin 2) * 128 + 1 * k.val = k.val; rw [e01]; omega

/-- The right operand's block at every point is the whole matrix. -/
theorem proj1_rhs_block (c : Dev nD) (t : Fin cfg0.N) (k : Fin 128) (q : Fin 64) :
    (iblk0 V c 1 t : Vec Ideal S128x64 .f32) (ix2 k q) = (V c main_arg2 : S128x64.Idx → EReal) (ix2 k q) := by
  obtain ⟨-, -, e10, e11, -, -⟩ := proj1_index_maps t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e10]; omega
  | ⟨1, _⟩ => show win0_1.index t (1 : Fin 2) * 64 + 1 * q.val = q.val; rw [e11]; omega

/-- What point `t` writes back is block `t` of the product of the two arrays as the region finds them. -/
theorem proj1_written_back (c : Dev nD) (t : Fin cfg0.N) :
    (dat0 (F := Ideal) V c).flushed 2 t
      = ((cfg0.win 2).blk t).view.read (Elt Ideal) (Cert.Gcn2.proj1Arr (V c main_arg0) (V c main_arg2)) := by
  show (cfg0.win 2).cut (grid0.coords t) ((dat0 V c).after 2 t) = _
  rw [after0_2]
  unfold out0_2
  rw [View.canon_unit_zero proj1_zero_offsets]
  simp only [View.ld_unit_zero (S := S5000x128) proj1_zero_offsets, View.ld_unit_zero (S := S128x64) proj1_zero_offsets]
  obtain ⟨-, -, -, -, e20, e21⟩ := proj1_index_maps t
  have ht : t.val < 10 := lt_of_lt_of_eq t.isLt (N_0 : cfg0.N = 10)
  funext j
  obtain ⟨p, q, rfl⟩ : ∃ (p : Fin 5000) (q : Fin 64), j = ix2 p q := ⟨j 0, j 1, eq_ix2 j⟩
  refine (proj1_entry _ _ p q).trans ?_
  have hr : t.val * 5000 + p.val < 50000 := by have := p.isLt; omega
  have hemb : ((cfg0.win 2).blk t).view.emb (ix2 p q) = ix2 (⟨t.val * 5000 + p.val, hr⟩ : Fin 50000) q := by
    funext a
    apply Fin.ext
    match a with
    | ⟨0, _⟩ => show win0_2.index t (0 : Fin 2) * 5000 + 1 * p.val = t.val * 5000 + p.val; rw [e20]; omega
    | ⟨1, _⟩ => show win0_2.index t (1 : Fin 2) * 64 + 1 * q.val = q.val; rw [e21]; omega
  show _ = Cert.Gcn2.proj1Arr _ _ (((cfg0.win 2).blk t).view.emb (ix2 p q))
  rw [hemb, proj1Arr_at]
  refine Finset.sum_congr rfl fun k _ => ?_
  rw [proj1_lhs_block V c t p k ⟨t.val * 5000 + p.val, hr⟩ rfl, proj1_rhs_block V c t k q]

/-- An index of the array is in point `t`'s block iff each coordinate is in the block's range on its axis. -/
theorem proj1_mem_block (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Row `r` of the array lies in the block of point `r / 5000`: the ten blocks of 5000 rows tile the 50000 rows. -/
theorem proj1_rows_covered (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  obtain ⟨t, ht⟩ : ∃ t : Fin cfg0.N, t.val = (i 0).val / 5000 :=
    ⟨⟨(i 0).val / 5000, lt_of_lt_of_eq (show (i 0).val / 5000 < 10 by omega) hN.symm⟩, rfl⟩
  obtain ⟨-, -, -, -, e20, e21⟩ := proj1_index_maps t
  refine ⟨t, flush0_2 t, ?_⟩
  rw [proj1_mem_block]
  intro a
  match a with
  | ⟨0, _⟩ => show win0_2.index t (0 : Fin 2) * 5000 ≤ (i 0).val ∧ (i 0).val < win0_2.index t (0 : Fin 2) * 5000 + 5000; rw [e20, ht]; omega
  | ⟨1, _⟩ => show win0_2.index t (1 : Fin 2) * 64 ≤ (i 1).val ∧ (i 1).val < win0_2.index t (1 : Fin 2) * 64 + 64; rw [e21]; omega

/-- The result array after the region is the product of the two arrays as the region finds them. -/
theorem final0 (c : Dev nD) :
    (Gen.dat0 (F := Ideal) V c).arrAt 2 cfg0.N = Cert.Gcn2.proj1Arr (V c main_arg0) (V c main_arg2) :=
  (dat0 V c).arrAt_eq_of_cover 2 _ (fun t _ => proj1_written_back V c t) proj1_rows_covered

end

end Cert.KernelIdeal.KVal

end
-- ==== Proof.KProj2.lean ====
/-
  The second projection kernel, from blocks to the whole array, at the extended reals.

  The kernel multiplies a block of 5000 rows of the hidden features H (5000 × 64) by the weight matrix W (64 × 3): the
  cast of the block to its own shape and the two narrowing casts in front of the matrix unit are the identity on
  extended reals and the accumulator is the zero splat, so the stored entry at row p, column q of the block is
  Σ_j H_block[p, j] · W[j, q]  over the 64 contracted positions. The grid has ten points; at point t the left
  operand's block and the result's block are rows 5000·t … 5000·t + 4999 of their arrays and the right operand's block
  is the whole matrix. Hence what point t writes back is block t of the one array  (H · W)[r, k] = Σ_j H[r, j] · W[j, k],
  row r of the result lies in the block of point r / 5000, the ten blocks tile the 50000 rows, and the result array
  ends holding H · W.
-/
import proofs.«125733_j4569845203117_1_alg».proof.Proof.Gen.KernelIdeal.Frame
import proofs.«125733_j4569845203117_1_alg».proof.Proof.RegionFns
import Idealize.ShloMosaic.Lib.Pipeline.Value
import Idealize.ShloMosaic.Lib.ValueIdx
import Idealize.ShloMosaic.PureOps.Ideal.Laws

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

/-! ## The product at one entry -/

/-- The dot's dimension numbers contract the left operand's axis 1 with the right operand's axis 0 and keep the left
    operand's axis 0 and the right operand's axis 1: the operand indices at an output index and a contraction index,
    coordinate by coordinate. -/
theorem proj2_lhs_row (i : S5000x3.Idx) (k : dot_S5000x64_S64x3_S5000x3_1_0_0_1_n_n.contr.Idx) :
    (dot_S5000x64_S64x3_S5000x3_1_0_0_1_n_n.lhsIdx i k 0).val = (i 0).val := by
  unfold DotDims.lhsIdx
  rw [dif_neg (show ¬(0 : Fin S5000x64.rank) ∈ dot_S5000x64_S64x3_S5000x3_1_0_0_1_n_n.lhsBatch by decide), dif_pos (show (0 : Fin S5000x64.rank) ∈ dot_S5000x64_S64x3_S5000x3_1_0_0_1_n_n.lhsNonContracting by decide)]
  rfl
theorem proj2_lhs_col (i : S5000x3.Idx) (k : dot_S5000x64_S64x3_S5000x3_1_0_0_1_n_n.contr.Idx) :
    (dot_S5000x64_S64x3_S5000x3_1_0_0_1_n_n.lhsIdx i k 1).val = (k ⟨0, by decide⟩).val :=
  dot_S5000x64_S64x3_S5000x3_1_0_0_1_n_n.lhsIdx_val_of_single rfl i k
theorem proj2_rhs_row (i : S5000x3.Idx) (k : dot_S5000x64_S64x3_S5000x3_1_0_0_1_n_n.contr.Idx) :
    (dot_S5000x64_S64x3_S5000x3_1_0_0_1_n_n.rhsIdx i k 0).val = (k ⟨0, by decide⟩).val :=
  dot_S5000x64_S64x3_S5000x3_1_0_0_1_n_n.rhsIdx_val_of_single rfl i k
theorem proj2_rhs_col (i : S5000x3.Idx) (k : dot_S5000x64_S64x3_S5000x3_1_0_0_1_n_n.contr.Idx) :
    (dot_S5000x64_S64x3_S5000x3_1_0_0_1_n_n.rhsIdx i k 1).val = (i 1).val := by
  unfold DotDims.rhsIdx
  rw [dif_neg (show ¬(1 : Fin S64x3.rank) ∈ dot_S5000x64_S64x3_S5000x3_1_0_0_1_n_n.rhsBatch by decide), dif_pos (show (1 : Fin S64x3.rank) ∈ dot_S5000x64_S64x3_S5000x3_1_0_0_1_n_n.rhsNonContracting by decide)]
  rfl

/-- The body's stored value at row `p`, column `q` of its block: the cast to the block's own shape and the two narrowing
    casts are the identity on extended reals and the accumulator is the zero splat, so it is the sum over the 64
    contracted positions of the products of the left block's row `p` with the right block's column `q`. -/
theorem proj2_entry (x0 : Vec Ideal S5000x64 .f32) (x1 : Vec Ideal S64x3 .f32) (p : Fin 5000) (q : Fin 3) :
    Gen.k2_pay1 (F := Ideal) x0 x1 (ix2 p q) = ∑ j : Fin 64, x0 (ix2 p j) * x1 (ix2 j q) := by
  unfold Gen.k2_pay1
  simp only [matmul]
  rw [Ideal.matmul_constant_zero_apply, ← Equiv.sum_comp (contrEquiv1 dot_S5000x64_S64x3_S5000x3_1_0_0_1_n_n 64 rfl rfl).symm]
  refine Finset.sum_congr rfl fun k _ => ?_
  have hk := contrEquiv1_symm_val dot_S5000x64_S64x3_S5000x3_1_0_0_1_n_n 64 rfl rfl k
  rw [truncf_apply, truncf_apply, shapeCast_self]
  have el : dot_S5000x64_S64x3_S5000x3_1_0_0_1_n_n.lhsIdx (ix2 p q) ((contrEquiv1 dot_S5000x64_S64x3_S5000x3_1_0_0_1_n_n 64 rfl rfl).symm k) = ix2 p k := funext fun a => Fin.ext (by
    match a with
    | ⟨0, _⟩ => exact proj2_lhs_row _ _
    | ⟨1, _⟩ => exact (proj2_lhs_col _ _).trans hk)
  have er : dot_S5000x64_S64x3_S5000x3_1_0_0_1_n_n.rhsIdx (ix2 p q) ((contrEquiv1 dot_S5000x64_S64x3_S5000x3_1_0_0_1_n_n 64 rfl rfl).symm k) = ix2 k q := funext fun a => Fin.ext (by
    match a with
    | ⟨0, _⟩ => exact (proj2_rhs_row _ _).trans hk
    | ⟨1, _⟩ => exact proj2_rhs_col _ _)
  rw [el, er]

/-- The product array at row `r`, column `q`. -/
theorem proj2Arr_at (X : S50000x64.Idx → EReal) (W : S64x3.Idx → EReal) (r : Fin 50000) (q : Fin 3) :
    Cert.Gcn2.proj2Arr X W (ix2 r q) = ∑ j : Fin 64, X (ix2 r j) * W (ix2 j q) := rfl

/-! ## From blocks to the array -/

section
variable (V : (c : Dev nD) → (b : Ref sig .tc) → Buf (Elt Ideal) ((c : Thread nD τ).loc b))

/-- The zero offsets of a whole-block access, as the constant function. -/
theorem proj2_zero_offsets : (![0, 0] : Fin 2 → Nat) = fun _ => 0 := funext fun a => by fin_cases a <;> rfl

/-- The index maps, decided over the ten grid points: at point `t` the left operand's window and the result's window
    are at row block `t`, column block 0; the right operand's window stays at block (0, 0). -/
theorem proj2_index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point `t` is rows `5000·t … 5000·t + 4999` of the array. -/
theorem proj2_lhs_block (c : Dev nD) (t : Fin cfg2.N) (p : Fin 5000) (k : Fin 64) (r : Fin 50000) (hr : r.val = t.val * 5000 + p.val) :
    (iblk2 V c 0 t : Vec Ideal S5000x64 .f32) (ix2 p k) = (V c main_v48 : S50000x64.Idx → EReal) (ix2 r k) := by
  obtain ⟨e00, e01, -, -, -, -⟩ := proj2_index_maps t
  unfold iblk2
  rw [View.read_apply]
  show V c main_v48 _ = V c main_v48 _
  congr 1
  funext a
  apply Fin.ext
  match a with
  | ⟨0, _⟩ => show win2_0.index t (0 : Fin 2) * 5000 + 1 * p.val = r.val; rw [e00, hr]; omega
  | ⟨1, _⟩ => show win2_0.index t (1 : Fin 2) * 64 + 1 * k.val = k.val; rw [e01]; omega

/-- The right operand's block at every point is the whole matrix. -/
theorem proj2_rhs_block (c : Dev nD) (t : Fin cfg2.N) (k : Fin 64) (q : Fin 3) :
    (iblk2 V c 1 t : Vec Ideal S64x3 .f32) (ix2 k q) = (V c main_arg4 : S64x3.Idx → EReal) (ix2 k q) := by
  obtain ⟨-, -, e10, e11, -, -⟩ := proj2_index_maps t
  unfold iblk2
  rw [View.read_apply]
  show V c main_arg4 _ = V c main_arg4 _
  congr 1
  funext a
  apply Fin.ext
  match a with
  | ⟨0, _⟩ => show win2_1.index t (0 : Fin 2) * 64 + 1 * k.val = k.val; rw [e10]; omega
  | ⟨1, _⟩ => show win2_1.index t (1 : Fin 2) * 3 + 1 * q.val = q.val; rw [e11]; omega

/-- What point `t` writes back is block `t` of the product of the two arrays as the region finds them. -/
theorem proj2_written_back (c : Dev nD) (t : Fin cfg2.N) :
    (dat2 (F := Ideal) V c).flushed 2 t
      = ((cfg2.win 2).blk t).view.read (Elt Ideal) (Cert.Gcn2.proj2Arr (V c main_v48) (V c main_arg4)) := by
  show (cfg2.win 2).cut (grid2.coords t) ((dat2 V c).after 2 t) = _
  rw [after2_2]
  unfold out2_2
  rw [View.canon_unit_zero proj2_zero_offsets]
  simp only [View.ld_unit_zero (S := S5000x64) proj2_zero_offsets, View.ld_unit_zero (S := S64x3) proj2_zero_offsets]
  obtain ⟨-, -, -, -, e20, e21⟩ := proj2_index_maps t
  have ht : t.val < 10 := lt_of_lt_of_eq t.isLt (N_2 : cfg2.N = 10)
  funext j
  obtain ⟨p, q, rfl⟩ : ∃ (p : Fin 5000) (q : Fin 3), j = ix2 p q := ⟨j 0, j 1, eq_ix2 j⟩
  refine (proj2_entry _ _ p q).trans ?_
  have hr : t.val * 5000 + p.val < 50000 := by have := p.isLt; omega
  have hemb : ((cfg2.win 2).blk t).view.emb (ix2 p q) = ix2 (⟨t.val * 5000 + p.val, hr⟩ : Fin 50000) q := by
    funext a
    apply Fin.ext
    match a with
    | ⟨0, _⟩ => show win2_2.index t (0 : Fin 2) * 5000 + 1 * p.val = t.val * 5000 + p.val; rw [e20]; omega
    | ⟨1, _⟩ => show win2_2.index t (1 : Fin 2) * 3 + 1 * q.val = q.val; rw [e21]; omega
  show _ = Cert.Gcn2.proj2Arr _ _ (((cfg2.win 2).blk t).view.emb (ix2 p q))
  rw [hemb, proj2Arr_at]
  refine Finset.sum_congr rfl fun k _ => ?_
  rw [proj2_lhs_block V c t p k ⟨t.val * 5000 + p.val, hr⟩ rfl, proj2_rhs_block V c t k q]

/-- An index of the array is in point `t`'s block iff each coordinate is in the block's range on its axis. -/
theorem proj2_mem_block (t : Fin cfg2.N) (i : S50000x3.Idx) :
    i ∈ ((cfg2.win 2).blk t).view.set ↔ ∀ a : Fin 2, win2_2.index t a * S5000x3.size a ≤ (i a).val ∧ (i a).val < win2_2.index t a * S5000x3.size a + S5000x3.size a := by
  show i ∈ ((View.whole main_v49).slice (win2_2.rect t)).set ↔ _
  rw [View.set_slice_whole, Rect.mem_set_unit]
  exact Iff.rfl

/-- Row `r` of the array lies in the block of point `r / 5000`: the ten blocks of 5000 rows tile the 50000 rows. -/
theorem proj2_rows_covered (i : S50000x3.Idx) :
    ∃ t : Fin cfg2.N, (cfg2.win 2).flush t = true ∧ i ∈ ((cfg2.win 2).blk t).view.set := by
  have hi0 : (i 0).val < 50000 := (i 0).isLt
  have hi1 : (i 1).val < 3 := (i 1).isLt
  have hN : cfg2.N = 10 := N_2
  obtain ⟨t, ht⟩ : ∃ t : Fin cfg2.N, t.val = (i 0).val / 5000 :=
    ⟨⟨(i 0).val / 5000, lt_of_lt_of_eq (show (i 0).val / 5000 < 10 by omega) hN.symm⟩, rfl⟩
  obtain ⟨-, -, -, -, e20, e21⟩ := proj2_index_maps t
  refine ⟨t, flush2_2 t, ?_⟩
  rw [proj2_mem_block]
  intro a
  match a with
  | ⟨0, _⟩ => show win2_2.index t (0 : Fin 2) * 5000 ≤ (i 0).val ∧ (i 0).val < win2_2.index t (0 : Fin 2) * 5000 + 5000; rw [e20, ht]; omega
  | ⟨1, _⟩ => show win2_2.index t (1 : Fin 2) * 3 ≤ (i 1).val ∧ (i 1).val < win2_2.index t (1 : Fin 2) * 3 + 3; rw [e21]; omega

/-- The result array after the region is the product of the two arrays as the region finds them. -/
theorem final2 (c : Dev nD) :
    (Gen.dat2 (F := Ideal) V c).arrAt 2 cfg2.N = Cert.Gcn2.proj2Arr (V c main_v48) (V c main_arg4) :=
  (dat2 V c).arrAt_eq_of_cover 2 _ (fun t _ => proj2_written_back V c t) proj2_rows_covered

end

end Cert.KernelIdeal.KVal

end
-- ==== Proof.KProj.lean ====
/-
  The two projection kernels of the idealized kernel program, from blocks to whole arrays, at the extended reals.

  Each kernel writes back, at grid point t, rows 5000·t … 5000·t + 4999 of a matrix product, and the ten blocks tile
  the 50000 rows; so after its region the result array is the whole product:
    * `Cert.KernelIdeal.KVal.final0`: the first region's result is  X · W1  (X the node features, 50000 × 128; W1 128 × 64);
    * `Cert.KernelIdeal.KVal.final2`: the third region's result is  H · W2  (H the hidden features, 50000 × 64; W2 64 × 3).
  The two statements are proved in the two modules imported here.
-/
import proofs.«125733_j4569845203117_1_alg».proof.Proof.KProj0
import proofs.«125733_j4569845203117_1_alg».proof.Proof.KProj2
-- ==== Proof.KCombLayout.lean ====
/-
  Reading a column at an index, and the row of an array that a row of a block is.

  * A column of shape [a, 1] spread along the second axis to [a, b] reads, at (p, c), the column at row p; a vector of
    shape [a] cast to the column [a, 1] reads, at (i, 0), the vector at i. These are the two layout steps of a row
    reduction that keeps its axis (the row's maximum or sum taken back to every entry of the row).
  * The exponential and the logarithm of a vector of extended reals, entry by entry.
  * The arrays of 50000 rows are cut in ten blocks of 5000 rows: row p of block t is row 5000·t + p of the array.
-/
import Idealize.ShloMosaic.PureOps.Ideal
import Idealize.ShloMosaic.Lib.Pipeline.Value
import Idealize.ShloMosaic.Lib.ValueLayout

noncomputable section

namespace Cert.KernelIdeal.KVal

open Idealize.ShloMosaic Idealize.ShloMosaic.ValueIdx

section Layout
variable {α : Type}

/-- A column `[a, 1]` spread along the second axis to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- The exponential of a vector of extended reals, at an index. -/
theorem exp_apply {s : Shape} {φ : FTy} (x : FVec Ideal s φ) (i : s.Idx) :
    Idealize.ShloMosaic.exp x i = Ideal.exp (x i) := rfl

/-- The logarithm of a vector of extended reals, at an index. -/
theorem log_apply {s : Shape} {φ : FTy} (x : FVec Ideal s φ) (i : s.Idx) :
    Idealize.ShloMosaic.log x i = Ideal.log (x i) := rfl

/-- The zero offsets of a whole-block access, however spelt. -/
theorem zeroOff2 : (![0, 0] : Fin 2 → Nat) = fun _ => 0 := funext fun a => by fin_cases a <;> rfl

/-- Row `p` of block `t` (of ten blocks of 5000 rows) is row `5000·t + p` of the array. -/
def blockRow (t : Nat) (ht : t < 10) (p : Fin 5000) : Fin 50000 := ⟨5000 * t + p.val, by omega⟩

end Cert.KernelIdeal.KVal

end
-- ==== Proof.KComb1.lean ====
/-
  The first combination, from blocks to the whole array, at the extended reals.

  On a block of 5000 rows the body stores  max (E + L · d + b, 0)  entry by entry, where E and L are [5000, 64] blocks, d is
  a [5000, 1] column spread along the 64 columns and b a [1, 64] row spread along the 5000 rows (`pay1_apply`). The ten
  points of the grid stage rows 5000·t … 5000·t + 4999 of the three row-blocked arrays and always the one bias row
  (`idx_facts1`, `iblk1_*_apply`), so what point t writes back is block t of ONE function of the whole arrays, the clipped
  combination (`flushed1_eq`); the ten blocks cover the 50000 rows (`cover1`: row r is in block r / 5000), hence the
  output array ends holding that function (`final1`).
-/
import proofs.«125733_j4569845203117_1_alg».proof.Proof.Gen.KernelIdeal.Frame
import proofs.«125733_j4569845203117_1_alg».proof.Proof.RegionFns
import proofs.«125733_j4569845203117_1_alg».proof.Proof.KCombLayout
import Idealize.ShloMosaic.PureOps.Ideal.Laws

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

/-- The body's stored value at row `p`, column `q` of the block: the combination clipped below at zero. -/
theorem pay1_apply (x0 x1 : Vec Ideal S5000x64 .f32) (x2 : Vec Ideal S5000x1 .f32) (x3 : Vec Ideal S1x64 .f32)
    (p : Fin 5000) (q : Fin 64) :
    k1_pay1 (F := Ideal) x0 x1 x2 x3 (ix2 p q)
      = max (x0 (ix2 p q) + x1 (ix2 p q) * x2 (ix2 p (0 : Fin 1)) + x3 (ix2 (0 : Fin 1) q)) 0 := by
  unfold k1_pay1
  simp only [maximumf_apply, addf_apply, mulf_apply, broadcast_apply, shapeCast_self, broadcastTo_a1_ab_apply,
    broadcastTo_1b_ab_apply, Ideal.ofBits_def, Ideal.ofBits_zero_f32]

variable (V : (c : Dev nD) → (b : Ref sig .tc) → Buf (Elt Ideal) ((c : Thread nD τ).loc b))

/-- The printed index maps of the first combination, decided over its ten points: the three row-blocked inputs and the
    output sit at block (t, 0), the bias row at block (0, 0). -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = t.val ∧ win1_4.index t (1 : Fin 2) = 0)
    ∧ t.val < 10 :=
  (by decide +kernel : ∀ t : Fin grid1.N, _)

/-- Window 0's block at point `t`, at row `p`: the array's row `5000·t + p`. -/
theorem iblk1_0_apply (c : Dev nD) (t : Fin cfg1.N) (ht : t.val < 10) (p : Fin 5000) (q : Fin 64) :
    (iblk1 V c 0 t : Vec Ideal S5000x64 .f32) (ix2 p q)
      = (V c main_v45 : S50000x64.Idx → EReal) (ix2 (blockRow t.val ht p) q) := by
  obtain ⟨⟨e0, e1⟩, -⟩ := idx_facts1 t
  unfold iblk1
  rw [View.read_apply]
  show V c main_v45 _ = V c main_v45 _
  refine congrArg _ (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 64 + 1 * q.val = q.val; rw [e1]; omega

/-- Window 1's block at point `t`, at row `p`: the array's row `5000·t + p`. -/
theorem iblk1_1_apply (c : Dev nD) (t : Fin cfg1.N) (ht : t.val < 10) (p : Fin 5000) (q : Fin 64) :
    (iblk1 V c 1 t : Vec Ideal S5000x64 .f32) (ix2 p q)
      = (V c main_v32 : S50000x64.Idx → EReal) (ix2 (blockRow t.val ht p) q) := by
  obtain ⟨-, ⟨e0, e1⟩, -⟩ := idx_facts1 t
  unfold iblk1
  rw [View.read_apply]
  show V c main_v32 _ = V c main_v32 _
  refine congrArg _ (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 64 + 1 * q.val = q.val; rw [e1]; omega

/-- Window 2's block at point `t`, at row `p`: the array's row `5000·t + p`. -/
theorem iblk1_2_apply (c : Dev nD) (t : Fin cfg1.N) (ht : t.val < 10) (p : Fin 5000) (u : Fin 1) :
    (iblk1 V c 2 t : Vec Ideal S5000x1 .f32) (ix2 p u)
      = (V c main_v46 : S50000x1.Idx → EReal) (ix2 (blockRow t.val ht p) u) := by
  obtain ⟨-, -, ⟨e0, e1⟩, -⟩ := idx_facts1 t
  unfold iblk1
  rw [View.read_apply]
  show V c main_v46 _ = V c main_v46 _
  refine congrArg _ (funext fun a => Fin.ext ?_)
  match a with
  | ⟨0, _⟩ => show win1_2.index t (0 : Fin 2) * 5000 + 1 * p.val = 5000 * t.val + p.val; rw [e0]; omega
  | ⟨1, _⟩ => show win1_2.index t (1 : Fin 2) * 1 + 1 * u.val = u.val; rw [e1]; omega

/-- Window 3's block at every point is the whole bias row. -/
theorem iblk1_3_apply (c : Dev nD) (t : Fin cfg1.N) (u : Fin 1) (q : Fin 64) :
    (iblk1 V c 3 t : Vec Ideal S1x64 .f32) (ix2 u q) = (V c main_v47 : S1x64.Idx → EReal) (ix2 u q) := by
  obtain ⟨-, -, -, ⟨e0, e1⟩, -⟩ := idx_facts1 t
  unfold iblk1
  rw [View.read_apply]
  show V c main_v47 _ = V c main_v47 _
  refine congrArg _ (funext fun a => Fin.ext ?_)
  match a with
  | ⟨0, _⟩ => show win1_3.index t (0 : Fin 2) * 1 + 1 * u.val = u.val; rw [e0]; omega
  | ⟨1, _⟩ => show win1_3.index t (1 : Fin 2) * 64 + 1 * q.val = q.val; rw [e1]; omega

/-- What point `t` writes back is block `t` of the clipped combination of the arrays the region finds. -/
theorem flushed1_eq (c : Dev nD) (t : Fin cfg1.N) :
    (dat1 (F := Ideal) V c).flushed 4 t = ((cfg1.win 4).blk t).view.read (Elt Ideal)
      (Cert.Gcn2.reluArr (V c main_v45) (V c main_v32) (V c main_v46) (V c main_v47)) := by
  have ht : t.val < 10 := (idx_facts1 t).2.2.2.2.2
  obtain ⟨-, -, -, -, ⟨e0, e1⟩, -⟩ := idx_facts1 t
  show (cfg1.win 4).cut (grid1.coords t) ((dat1 V c).after 4 t) = _
  rw [after1_4]
  unfold out1_4
  rw [View.canon_unit_zero zeroOff2]
  simp only [View.ld_unit_zero (S := S5000x64) zeroOff2, View.ld_unit_zero (S := S5000x1) zeroOff2,
    View.ld_unit_zero (S := S1x64) zeroOff2]
  funext j
  obtain ⟨p, q, rfl⟩ : ∃ (p : Fin 5000) (q : Fin 64), j = ix2 p q := ⟨j 0, j 1, eq_ix2 j⟩
  refine (pay1_apply _ _ _ _ p q).trans ?_
  rw [iblk1_0_apply V c t ht, iblk1_1_apply V c t ht, iblk1_2_apply V c t ht, iblk1_3_apply V c t, View.read_apply]
  show _ = Cert.Gcn2.reluArr (V c main_v45) (V c main_v32) (V c main_v46) (V c main_v47)
    (((cfg1.win 4).blk t).view.emb (ix2 p q))
  have hemb : ((cfg1.win 4).blk t).view.emb (ix2 p q) = (ix2 (blockRow t.val ht p) q : S50000x64.Idx) := by
    funext a; apply Fin.ext
    match a with
    | ⟨0, _⟩ => show win1_4.index t (0 : Fin 2) * 5000 + 1 * p.val = 5000 * t.val + p.val; rw [e0]; omega
    | ⟨1, _⟩ => show win1_4.index t (1 : Fin 2) * 64 + 1 * q.val = q.val; rw [e1]; omega
  rw [hemb]
  rfl

/-- An index of the array is in point `t`'s block iff each coordinate is in the block's range on its axis. -/
theorem mem_blk1 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v48).slice (win1_4.rect t)).set ↔ _
  rw [View.set_slice_whole, Rect.mem_set_unit]
  exact Iff.rfl

/-- Every row `r` is in the block of the point `r / 5000`, and every point writes its block back. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : grid1.N = 10 := N_1
  let t : Fin cfg1.N := ⟨(i 0).val / 5000, by show (i 0).val / 5000 < grid1.N; rw [hN]; omega⟩
  obtain ⟨-, -, -, -, ⟨e0, e1⟩, -⟩ := idx_facts1 t
  have htv : t.val = (i 0).val / 5000 := rfl
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; rw [e0, htv]; omega
  | ⟨1, _⟩ => show win1_4.index t (1 : Fin 2) * 64 ≤ (i 1).val ∧ (i 1).val < win1_4.index t (1 : Fin 2) * 64 + 64; rw [e1]; omega

/-- The output array after the region: the clipped combination of the four arrays the region finds, as one function. -/
theorem final1 (c : Dev nD) : (Gen.dat1 (F := Ideal) V c).arrAt 4 cfg1.N
    = Cert.Gcn2.reluArr (V c main_v45) (V c main_v32) (V c main_v46) (V c main_v47) :=
  (dat1 (F := Ideal) V c).arrAt_eq_of_cover 4 _ (fun t _ => flushed1_eq V c t) cover1

end Cert.KernelIdeal.KVal

end
-- ==== Proof.KComb3.lean ====
/-
  The second combination, from blocks to the whole array, at the extended reals.

  On a block of 5000 rows of three the body forms  v = E + L · d + b  (E and L are [5000, 3] blocks, d a [5000, 1] column spread
  along the columns, b a [1, 3] row spread along the rows), takes each row's maximum m (the fold of max over the three
  columns from the bottom element: the accumulator's word is minus infinity), shifts  s = v − m,  and stores
  s − log (Σ exp s),  the sum again over the three columns of the row (`pay3_apply`). A row reduction at a row is read as
  a fold or a sum over `Fin 3` (`rowmax_apply`, `rowsum_apply`), and taking it back to every entry of the row is a cast to a
  column and a spread along the columns (`shift_log_apply`, `exp_shift_apply`). The ten points of the grid stage rows
  5000·t … 5000·t + 4999 of the three row-blocked arrays and always the one bias row (`idx_facts3`, `iblk3_*_apply`); a row's
  result depends on that row only, so what point t writes back is block t of ONE function of the whole arrays
  (`flushed3_eq`); the ten blocks cover the 50000 rows (`cover3`), hence the output array ends holding that function
  (`final3`).
-/
import proofs.«125733_j4569845203117_1_alg».proof.Proof.Gen.KernelIdeal.Frame
import proofs.«125733_j4569845203117_1_alg».proof.Proof.RegionFns
import proofs.«125733_j4569845203117_1_alg».proof.Proof.KCombLayout
import Idealize.ShloMosaic.PureOps.Ideal.Laws

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

/-- The f32 word of minus infinity denotes the bottom element. -/
theorem ofBits_neg_inf : Ideal.ofBits .f32 0xFF800000#32 = ⊥ := by simp [Ideal.ofBits, Ideal.ieee]

/-- Inserting column `k` into row `p`. -/
theorem lift_row (p : Fin 5000) (k : Fin 3) :
    reduces_S5000x3_S5000.lift (ix1 p) k = (ix2 p k : S5000x3.Idx) := by
  funext c
  apply Fin.ext
  match c with
  | ⟨0, _⟩ => rfl
  | ⟨1, _⟩ => rfl

/-- The lane maximum of a block of rows of three, at row `p`: the fold of max from the bottom element over the row. -/
theorem rowmax_apply (v : FVec Ideal S5000x3 .f32) (hφ : FKind.Formats .f32)
    (hacc : (0xFF800000#32 : BitVec 32) = 0xFF800000#32) (p : Fin 5000) :
    multiReduction (F := Ideal) .maximumf [1] S5000 v 0xFF800000#32 reduces_S5000x3_S5000 hφ hacc (ix1 p)
      = (Finset.univ : Finset (Fin 3)).fold max ⊥ (fun k => v (ix2 p k)) := by
  refine (Ideal.multiReduction_maximumf_single v 0xFF800000#32 reduces_S5000x3_S5000 hφ hacc (ix1 p)).trans ?_
  show (Finset.univ : Finset (Fin 3)).fold max (Ideal.ofBits .f32 0xFF800000#32)
      (fun k => v (reduces_S5000x3_S5000.lift (ix1 p) k)) = _
  rw [ofBits_neg_inf]
  exact congrArg (fun f : Fin 3 → EReal => (Finset.univ : Finset (Fin 3)).fold max ⊥ f)
    (funext fun k => congrArg v (lift_row p k))

/-- The lane sum of a block of rows of three, at row `p`. -/
theorem rowsum_apply (v : FVec Ideal S5000x3 .f32) (hφ : FKind.Formats .f32)
    (hacc : (0x00000000#32 : BitVec 32) = 0x00000000#32) (p : Fin 5000) :
    multiReduction (F := Ideal) .add [1] S5000 v 0x00000000#32 reduces_S5000x3_S5000 hφ hacc (ix1 p)
      = ∑ k : Fin 3, v (ix2 p k) := by
  refine (Ideal.multiReduction_add_single v 0x00000000#32 reduces_S5000x3_S5000 hφ hacc (ix1 p)).trans ?_
  show ∑ k : Fin 3, v (reduces_S5000x3_S5000.lift (ix1 p) k) = _
  exact Finset.sum_congr rfl fun k _ => congrArg v (lift_row p k)

/-- A block less a row vector `R` spread along the columns, at row `p`, column `k`, after the exponential. -/
theorem exp_shift_apply (w : FVec Ideal S5000x3 .f32) (R : FVec Ideal S5000 .f32) (p : Fin 5000) (k : Fin 3) :
    Idealize.ShloMosaic.exp (subf w (broadcastTo S5000x3 (shapeCast S5000x1 R shapeCasts_S5000_S5000x1)
      broadcasts_S5000x1_S5000x3)) (ix2 p k) = Ideal.exp (w (ix2 p k) - R (ix1 p)) := by
  simp only [exp_apply, subf_apply, broadcastTo_a1_ab_apply, shapeCast_a_a1_apply]

/-- A block less a row vector `R`, less the logarithm of a row vector `S`, both spread along the columns. -/
theorem shift_log_apply (w : FVec Ideal S5000x3 .f32) (R S : FVec Ideal S5000 .f32) (p : Fin 5000) (q : Fin 3) :
    subf (subf w (broadcastTo S5000x3 (shapeCast S5000x1 R shapeCasts_S5000_S5000x1) broadcasts_S5000x1_S5000x3))
      (broadcastTo S5000x3 (Idealize.ShloMosaic.log (shapeCast S5000x1 S shapeCasts_S5000_S5000x1))
        broadcasts_S5000x1_S5000x3) (ix2 p q)
      = w (ix2 p q) - R (ix1 p) - Ideal.log (S (ix1 p)) := by
  simp only [subf_apply, broadcastTo_a1_ab_apply, shapeCast_a_a1_apply, log_apply]

/-- A block of rows of three normalised row by row, at row `p`, class `q`: the entry less the row's maximum, less the
    logarithm of the sum of the exponentials of the shifted row. -/
theorem lsm_block_apply (w : FVec Ideal S5000x3 .f32) (hφ : FKind.Formats .f32)
    (hmax : (0xFF800000#32 : BitVec 32) = 0xFF800000#32) (hadd : (0x00000000#32 : BitVec 32) = 0x00000000#32)
    (p : Fin 5000) (q : Fin 3) :
    subf
      (subf w (broadcastTo S5000x3 (shapeCast S5000x1
        (multiReduction (F := Ideal) .maximumf [1] S5000 w 0xFF800000#32 reduces_S5000x3_S5000 hφ hmax)
        shapeCasts_S5000_S5000x1) broadcasts_S5000x1_S5000x3))
      (broadcastTo S5000x3 (Idealize.ShloMosaic.log (shapeCast S5000x1
        (multiReduction (F := Ideal) .add [1] S5000
          (Idealize.ShloMosaic.exp (subf w (broadcastTo S5000x3 (shapeCast S5000x1
            (multiReduction (F := Ideal) .maximumf [1] S5000 w 0xFF800000#32 reduces_S5000x3_S5000 hφ hmax)
            shapeCasts_S5000_S5000x1) broadcasts_S5000x1_S5000x3)))
          0x00000000#32 reduces_S5000x3_S5000 hφ hadd)
        shapeCasts_S5000_S5000x1)) broadcasts_S5000x1_S5000x3) (ix2 p q)
      = (w (ix2 p q) - (Finset.univ : Finset (Fin 3)).fold max ⊥ (fun k => w (ix2 p k)))
          - Ideal.log (∑ k' : Fin 3, Ideal.exp (w (ix2 p k') - (Finset.univ : Finset (Fin 3)).fold max ⊥ (fun k => w (ix2 p k)))) :=
  (shift_log_apply w _ _ p q).trans
    (congrArg₂ (fun a b => w (ix2 p q) - a - Ideal.log b) (rowmax_apply w hφ hmax p)
      ((rowsum_apply _ hφ hadd p).trans
        (Finset.sum_congr rfl fun k _ => (exp_shift_apply w _ p k).trans
          (congrArg (fun a => Ideal.exp (w (ix2 p k) - a)) (rowmax_apply w hφ hmax p)))))

/-- The second combination's payload at row `p`, class `q`: the combined row, normalised. -/
theorem pay3_apply (x0 x1 : Vec Ideal S5000x3 .f32) (x2 : Vec Ideal S5000x1 .f32) (x3 : Vec Ideal S1x3 .f32)
    (p : Fin 5000) (q : Fin 3) :
    k3_pay1 (F := Ideal) x0 x1 x2 x3 (ix2 p q)
      = Cert.Gcn2.logSoftmax3
          (fun k => x0 (ix2 p k) + x1 (ix2 p k) * x2 (ix2 p (0 : Fin 1)) + x3 (ix2 (0 : Fin 1) k)) q := by
  unfold k3_pay1
  refine (lsm_block_apply _ _ _ _ p q).trans ?_
  simp only [addf_apply, mulf_apply, shapeCast_self, broadcastTo_a1_ab_apply, broadcastTo_1b_ab_apply]
  rfl

variable (V : (c : Dev nD) → (b : Ref sig .tc) → Buf (Elt Ideal) ((c : Thread nD τ).loc b))

/-- The printed index maps of the second combination, decided over its ten points: the three row-blocked inputs and the
    output sit at block (t, 0), the bias row at block (0, 0). -/
theorem idx_facts3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = t.val ∧ win3_4.index t (1 : Fin 2) = 0)
    ∧ t.val < 10 :=
  (by decide +kernel : ∀ t : Fin grid3.N, _)

/-- Window 0's block at point `t`, at row `p`: the array's row `5000·t + p`. -/
theorem iblk3_0_apply (c : Dev nD) (t : Fin cfg3.N) (ht : t.val < 10) (p : Fin 5000) (q : Fin 3) :
    (iblk3 V c 0 t : Vec Ideal S5000x3 .f32) (ix2 p q)
      = (V c main_v62 : S50000x3.Idx → EReal) (ix2 (blockRow t.val ht p) q) := by
  obtain ⟨⟨e0, e1⟩, -⟩ := idx_facts3 t
  unfold iblk3
  rw [View.read_apply]
  show V c main_v62 _ = V c main_v62 _
  refine congrArg _ (funext fun a => Fin.ext ?_)
  match a with
  | ⟨0, _⟩ => show win3_0.index t (0 : Fin 2) * 5000 + 1 * p.val = 5000 * t.val + p.val; rw [e0]; omega
  | ⟨1, _⟩ => show win3_0.index t (1 : Fin 2) * 3 + 1 * q.val = q.val; rw [e1]; omega

/-- Window 1's block at point `t`, at row `p`: the array's row `5000·t + p`. -/
theorem iblk3_1_apply (c : Dev nD) (t : Fin cfg3.N) (ht : t.val < 10) (p : Fin 5000) (q : Fin 3) :
    (iblk3 V c 1 t : Vec Ideal S5000x3 .f32) (ix2 p q)
      = (V c main_v49 : S50000x3.Idx → EReal) (ix2 (blockRow t.val ht p) q) := by
  obtain ⟨-, ⟨e0, e1⟩, -⟩ := idx_facts3 t
  unfold iblk3
  rw [View.read_apply]
  show V c main_v49 _ = V c main_v49 _
  refine congrArg _ (funext fun a => Fin.ext ?_)
  match a with
  | ⟨0, _⟩ => show win3_1.index t (0 : Fin 2) * 5000 + 1 * p.val = 5000 * t.val + p.val; rw [e0]; omega
  | ⟨1, _⟩ => show win3_1.index t (1 : Fin 2) * 3 + 1 * q.val = q.val; rw [e1]; omega

/-- Window 2's block at point `t`, at row `p`: the array's row `5000·t + p`. -/
theorem iblk3_2_apply (c : Dev nD) (t : Fin cfg3.N) (ht : t.val < 10) (p : Fin 5000) (u : Fin 1) :
    (iblk3 V c 2 t : Vec Ideal S5000x1 .f32) (ix2 p u)
      = (V c main_v63 : S50000x1.Idx → EReal) (ix2 (blockRow t.val ht p) u) := by
  obtain ⟨-, -, ⟨e0, e1⟩, -⟩ := idx_facts3 t
  unfold iblk3
  rw [View.read_apply]
  show V c main_v63 _ = V c main_v63 _
  refine congrArg _ (funext fun a => Fin.ext ?_)
  match a with
  | ⟨0, _⟩ => show win3_2.index t (0 : Fin 2) * 5000 + 1 * p.val = 5000 * t.val + p.val; rw [e0]; omega
  | ⟨1, _⟩ => show win3_2.index t (1 : Fin 2) * 1 + 1 * u.val = u.val; rw [e1]; omega

/-- Window 3's block at every point is the whole bias row. -/
theorem iblk3_3_apply (c : Dev nD) (t : Fin cfg3.N) (u : Fin 1) (q : Fin 3) :
    (iblk3 V c 3 t : Vec Ideal S1x3 .f32) (ix2 u q) = (V c main_v64 : S1x3.Idx → EReal) (ix2 u q) := by
  obtain ⟨-, -, -, ⟨e0, e1⟩, -⟩ := idx_facts3 t
  unfold iblk3
  rw [View.read_apply]
  show V c main_v64 _ = V c main_v64 _
  refine congrArg _ (funext fun a => Fin.ext ?_)
  match a with
  | ⟨0, _⟩ => show win3_3.index t (0 : Fin 2) * 1 + 1 * u.val = u.val; rw [e0]; omega
  | ⟨1, _⟩ => show win3_3.index t (1 : Fin 2) * 3 + 1 * q.val = q.val; rw [e1]; omega

/-- What point `t` writes back is block `t` of the row-normalised combination of the arrays the region finds. -/
theorem flushed3_eq (c : Dev nD) (t : Fin cfg3.N) :
    (dat3 (F := Ideal) V c).flushed 4 t = ((cfg3.win 4).blk t).view.read (Elt Ideal)
      (Cert.Gcn2.lsmArr (V c main_v62) (V c main_v49) (V c main_v63) (V c main_v64)) := by
  have ht : t.val < 10 := (idx_facts3 t).2.2.2.2.2
  obtain ⟨-, -, -, -, ⟨e0, e1⟩, -⟩ := idx_facts3 t
  show (cfg3.win 4).cut (grid3.coords t) ((dat3 V c).after 4 t) = _
  rw [after3_4]
  unfold out3_4
  rw [View.canon_unit_zero zeroOff2]
  simp only [View.ld_unit_zero (S := S5000x3) zeroOff2, View.ld_unit_zero (S := S5000x1) zeroOff2,
    View.ld_unit_zero (S := S1x3) zeroOff2]
  funext j
  obtain ⟨p, q, rfl⟩ : ∃ (p : Fin 5000) (q : Fin 3), j = ix2 p q := ⟨j 0, j 1, eq_ix2 j⟩
  refine (pay3_apply _ _ _ _ p q).trans ?_
  rw [View.read_apply]
  show _ = Cert.Gcn2.lsmArr (V c main_v62) (V c main_v49) (V c main_v63) (V c main_v64)
    (((cfg3.win 4).blk t).view.emb (ix2 p q))
  have hemb : ((cfg3.win 4).blk t).view.emb (ix2 p q) = (ix2 (blockRow t.val ht p) q : S50000x3.Idx) := by
    funext a; apply Fin.ext
    match a with
    | ⟨0, _⟩ => show win3_4.index t (0 : Fin 2) * 5000 + 1 * p.val = 5000 * t.val + p.val; rw [e0]; omega
    | ⟨1, _⟩ => show win3_4.index t (1 : Fin 2) * 3 + 1 * q.val = q.val; rw [e1]; omega
  rw [hemb]
  show _ = Cert.Gcn2.logSoftmax3 (fun k => Cert.Gcn2.combine (V c main_v62) (V c main_v49) (V c main_v63) (V c main_v64)
    (blockRow t.val ht p) k) q
  refine congrArg (fun v => Cert.Gcn2.logSoftmax3 v q) (funext fun k => ?_)
  rw [iblk3_0_apply V c t ht, iblk3_1_apply V c t ht, iblk3_2_apply V c t ht, iblk3_3_apply V c t]
  rfl

/-- An index of the array is in point `t`'s block iff each coordinate is in the block's range on its axis. -/
theorem mem_blk3 (t : Fin cfg3.N) (i : S50000x3.Idx) :
    i ∈ ((cfg3.win 4).blk t).view.set ↔ ∀ a : Fin 2, win3_4.index t a * S5000x3.size a ≤ (i a).val ∧ (i a).val < win3_4.index t a * S5000x3.size a + S5000x3.size a := by
  show i ∈ ((View.whole main_v65).slice (win3_4.rect t)).set ↔ _
  rw [View.set_slice_whole, Rect.mem_set_unit]
  exact Iff.rfl

/-- Every row `r` is in the block of the point `r / 5000`, and every point writes its block back. -/
theorem cover3 (i : S50000x3.Idx) :
    ∃ t : Fin cfg3.N, (cfg3.win 4).flush t = true ∧ i ∈ ((cfg3.win 4).blk t).view.set := by
  have hi0 : (i 0).val < 50000 := (i 0).isLt
  have hi1 : (i 1).val < 3 := (i 1).isLt
  have hN : grid3.N = 10 := N_3
  let t : Fin cfg3.N := ⟨(i 0).val / 5000, by show (i 0).val / 5000 < grid3.N; rw [hN]; omega⟩
  obtain ⟨-, -, -, -, ⟨e0, e1⟩, -⟩ := idx_facts3 t
  have htv : t.val = (i 0).val / 5000 := rfl
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; rw [e0, htv]; omega
  | ⟨1, _⟩ => show win3_4.index t (1 : Fin 2) * 3 ≤ (i 1).val ∧ (i 1).val < win3_4.index t (1 : Fin 2) * 3 + 3; rw [e1]; omega

/-- The output array after the region: the row-normalised combination of the four arrays the region finds, as one function. -/
theorem final3 (c : Dev nD) : (Gen.dat3 (F := Ideal) V c).arrAt 4 cfg3.N
    = Cert.Gcn2.lsmArr (V c main_v62) (V c main_v49) (V c main_v63) (V c main_v64) :=
  (dat3 (F := Ideal) V c).arrAt_eq_of_cover 4 _ (fun t _ => flushed3_eq V c t) cover3

end Cert.KernelIdeal.KVal

end
-- ==== Proof.KComb.lean ====
/-
  The two combination kernels of the network, each as one function of whole arrays, at the extended reals.

  After its region the first combination's output array is  max (E + L · d + b, 0)  of the four arrays the region finds
  (`final1`, in the module of the first combination), and the second's is each row of  E + L · d + b  less its maximum less
  the logarithm of the sum of the exponentials of the shifted row (`final3`, in the module of the second). Here E is the
  array of aggregated messages, L the projected node rows, d the column of squared normalising factors spread along a row,
  b the bias row spread along the rows. This module gathers the two.
-/
import proofs.«125733_j4569845203117_1_alg».proof.Proof.Gen.KernelIdeal.Frame
import proofs.«125733_j4569845203117_1_alg».proof.Proof.RegionFns
import proofs.«125733_j4569845203117_1_alg».proof.Proof.KComb1
import proofs.«125733_j4569845203117_1_alg».proof.Proof.KComb3

noncomputable section

namespace Cert.KernelIdeal.KVal

open Cert.KernelIdeal Cert.KernelIdeal.Gen Idealize.ShloMosaic Idealize.ShloMosaic.TcCoe Idealize.SL.Sem

variable (V : (c : Dev nD) → (b : Ref sig .tc) → Buf (Elt Ideal) ((c : Thread nD τ).loc b))

/-- Both output arrays at once, on every core. -/
theorem final13 (c : Dev nD) :
    (Gen.dat1 (F := Ideal) V c).arrAt 4 cfg1.N
        = Cert.Gcn2.reluArr (V c main_v45) (V c main_v32) (V c main_v46) (V c main_v47)
      ∧ (Gen.dat3 (F := Ideal) V c).arrAt 4 cfg3.N
        = Cert.Gcn2.lsmArr (V c main_v62) (V c main_v49) (V c main_v63) (V c main_v64) :=
  ⟨final1 V c, final3 V c⟩

end Cert.KernelIdeal.KVal

end
-- ==== Proof.KChain2.lean ====
/-
  The idealized kernel program's result buffer after its run, read back through the boundaries of @main.

  A kernel's region leaves in its output array that kernel's function of its input arrays as the region found them,
  and keeps every buffer that is not one of its arrays; a stretch of host operations writes its own results and keeps
  every other buffer. So the second combination's output is its function of what the last stretch computed from the
  second projection's output, which is its function of the first combination's output, and so on back to the first
  projection of the launch memory: the composition `kOut` of the argument arrays.
-/
import proofs.«125733_j4569845203117_1_alg».proof.Proof.KChain1
import proofs.«125733_j4569845203117_1_alg».proof.Proof.KChain1h
import proofs.«125733_j4569845203117_1_alg».proof.Proof.KProj
import proofs.«125733_j4569845203117_1_alg».proof.Proof.KComb
import Idealize.ShloMosaic.Lib.StableHlo.Run

set_option maxRecDepth 16384
set_option maxHeartbeats 40000000

noncomputable section

namespace Cert.KernelIdeal.KVal

open Idealize.ShloMosaic Idealize.ShloMosaic.TcCoe Idealize.ShloMosaic.StableHlo Idealize.SL.Sem
open Cert.KernelIdeal Cert.KernelIdeal.Gen Cert.KernelIdeal.KHost

variable (m : (ℓ : Loc nD τ sig) → Buf (Elt Ideal) ℓ) (ρ : Dev nD → PrngReg)

/-! ## The first projection and the first layer's stretch -/

theorem W4_v32 (c : Dev nD) : W4 m ρ c (Proc.devRef .tc main_v32) = (Cert.Gcn2.proj1Arr (m ((c : Thread nD τ).loc main_arg0)) (m ((c : Thread nD τ).loc main_arg2))) := by
  have h1 : W4 m ρ c (Proc.devRef .tc main_v32) = (dat0 (V3 m ρ) c).arrAt 2 cfg0.N := W4_arr m ρ c 2
  exact h1.trans ((final0 (V3 m ρ) c).trans (congr (congrArg Cert.Gcn2.proj1Arr (W3_arg0 m ρ c)) (W3_arg2 m ρ c)))

theorem W5_v32 (c : Dev nD) : W5 m ρ c (Proc.devRef .tc main_v32) = (Cert.Gcn2.proj1Arr (m ((c : Thread nD τ).loc main_arg0)) (m ((c : Thread nD τ).loc main_arg2))) :=
  (show W5 m ρ c (Proc.devRef .tc main_v32) = W4 m ρ c (Proc.devRef .tc main_v32) by host_keeps hostOps1).trans (W4_v32 m ρ c)

theorem W5_v45 (c : Dev nD) : W5 m ρ c (Proc.devRef .tc main_v45) = agg64 (m ((c : Thread nD τ).loc main_arg1)) (Cert.Gcn2.proj1Arr (m ((c : Thread nD τ).loc main_arg0)) (m ((c : Thread nD τ).loc main_arg2))) := by
  dsimp only [W5, hostOps1]; after_results
  simp only [W4_v1 m ρ c, W4_v3 m ρ c, W4_v31 m ρ c, W4_v32 m ρ c]
  rfl

theorem W5_v46 (c : Dev nD) : W5 m ρ c (Proc.devRef .tc main_v46) = d2col (m ((c : Thread nD τ).loc main_arg1)) := by
  dsimp only [W5, hostOps1]; after_results
  simp only [W4_v16 m ρ c]
  rfl

theorem W5_v47 (c : Dev nD) : W5 m ρ c (Proc.devRef .tc main_v47) = b1row (m ((c : Thread nD τ).loc main_arg3)) := by
  dsimp only [W5, hostOps1]; after_results
  simp only [W4_arg3 m ρ c]
  rfl

/-! ## The first combination and the second projection -/

/-- The hidden layer. -/
abbrev hidK (c : Dev nD) : FVec Ideal S50000x64 .f32 :=
  Cert.Gcn2.reluArr (agg64 (m ((c : Thread nD τ).loc main_arg1)) (Cert.Gcn2.proj1Arr (m ((c : Thread nD τ).loc main_arg0)) (m ((c : Thread nD τ).loc main_arg2)))) (Cert.Gcn2.proj1Arr (m ((c : Thread nD τ).loc main_arg0)) (m ((c : Thread nD τ).loc main_arg2))) (d2col (m ((c : Thread nD τ).loc main_arg1))) (b1row (m ((c : Thread nD τ).loc main_arg3)))

theorem W6_v48 (c : Dev nD) : W6 m ρ c (Proc.devRef .tc main_v48) = hidK m c := by
  have h1 : W6 m ρ c (Proc.devRef .tc main_v48) = (dat1 (V5 m ρ) c).arrAt 4 cfg1.N := W6_arr m ρ c 4
  exact h1.trans ((final1 (V5 m ρ) c).trans
    (congr (congr (congr (congrArg Cert.Gcn2.reluArr (W5_v45 m ρ c)) (W5_v32 m ρ c)) (W5_v46 m ρ c)) (W5_v47 m ρ c)))

theorem W6_arg4 (c : Dev nD) : W6 m ρ c (Proc.devRef .tc main_arg4) = (m ((c : Thread nD τ).loc main_arg4)) :=
  (W6_of_ne m ρ c main_arg4 (by decide)).trans
    ((show W5 m ρ c (Proc.devRef .tc main_arg4) = W4 m ρ c (Proc.devRef .tc main_arg4) by host_keeps hostOps1).trans (W4_arg4 m ρ c))

/-- The second projection's output. -/
abbrev lin2K (c : Dev nD) : FVec Ideal S50000x3 .f32 := Cert.Gcn2.proj2Arr (hidK m c) (m ((c : Thread nD τ).loc main_arg4))

theorem W7_v49 (c : Dev nD) : W7 m ρ c (Proc.devRef .tc main_v49) = lin2K m c := by
  have h1 : W7 m ρ c (Proc.devRef .tc main_v49) = (dat2 (V6 m ρ) c).arrAt 2 cfg2.N := W7_arr m ρ c 2
  exact h1.trans ((final2 (V6 m ρ) c).trans (congr (congrArg Cert.Gcn2.proj2Arr (W6_v48 m ρ c)) (W6_arg4 m ρ c)))

/-- A buffer that neither the first layer's stretch nor the two kernels after it write is, at the second projection's
    exit, what it was at the first projection's exit. -/
theorem W7_keep (c : Dev nD) (b : Ref sig .tc) (h1 : ∀ w, Pipeline.arrRef spec1 w ≠ b) (h2 : ∀ w, Pipeline.arrRef spec2 w ≠ b)
    (hh : W5 m ρ c (Proc.devRef .tc b) = W4 m ρ c (Proc.devRef .tc b)) :
    W7 m ρ c (Proc.devRef .tc b) = W4 m ρ c (Proc.devRef .tc b) :=
  (W7_of_ne m ρ c b h2).trans ((W6_of_ne m ρ c b h1).trans hh)

theorem W7_v1 (c : Dev nD) : W7 m ρ c (Proc.devRef .tc main_v1) = srcV (m ((c : Thread nD τ).loc main_arg1)) :=
  (W7_keep m ρ c main_v1 (by decide) (by decide) (by host_keeps hostOps1)).trans (W4_v1 m ρ c)
theorem W7_v3 (c : Dev nD) : W7 m ρ c (Proc.devRef .tc main_v3) = dstV (m ((c : Thread nD τ).loc main_arg1)) :=
  (W7_keep m ρ c main_v3 (by decide) (by decide) (by host_keeps hostOps1)).trans (W4_v3 m ρ c)
theorem W7_v16 (c : Dev nD) : W7 m ρ c (Proc.devRef .tc main_v16) = d2V (m ((c : Thread nD τ).loc main_arg1)) :=
  (W7_keep m ρ c main_v16 (by decide) (by decide) (by host_keeps hostOps1)).trans (W4_v16 m ρ c)
theorem W7_v31 (c : Dev nD) : W7 m ρ c (Proc.devRef .tc main_v31) = normV (m ((c : Thread nD τ).loc main_arg1)) :=
  (W7_keep m ρ c main_v31 (by decide) (by decide) (by host_keeps hostOps1)).trans (W4_v31 m ρ c)
theorem W7_arg5 (c : Dev nD) : W7 m ρ c (Proc.devRef .tc main_arg5) = (m ((c : Thread nD τ).loc main_arg5)) :=
  (W7_keep m ρ c main_arg5 (by decide) (by decide) (by host_keeps hostOps1)).trans (W4_arg5 m ρ c)

/-! ## The second layer's stretch and the second combination -/

theorem W8_v49 (c : Dev nD) : W8 m ρ c (Proc.devRef .tc main_v49) = lin2K m c :=
  (show W8 m ρ c (Proc.devRef .tc main_v49) = W7 m ρ c (Proc.devRef .tc main_v49) by host_keeps hostOps3).trans (W7_v49 m ρ c)

theorem W8_v62 (c : Dev nD) : W8 m ρ c (Proc.devRef .tc main_v62) = agg3 (m ((c : Thread nD τ).loc main_arg1)) (lin2K m c) := by
  dsimp only [W8, hostOps3]; after_results
  simp only [W7_v1 m ρ c, W7_v3 m ρ c, W7_v31 m ρ c, W7_v49 m ρ c]
  rfl

theorem W8_v63 (c : Dev nD) : W8 m ρ c (Proc.devRef .tc main_v63) = d2col (m ((c : Thread nD τ).loc main_arg1)) := by
  dsimp only [W8, hostOps3]; after_results
  simp only [W7_v16 m ρ c]
  rfl

theorem W8_v64 (c : Dev nD) : W8 m ρ c (Proc.devRef .tc main_v64) = b2row (m ((c : Thread nD τ).loc main_arg5)) := by
  dsimp only [W8, hostOps3]; after_results
  simp only [W7_arg5 m ρ c]
  rfl

/-- THE RESULT BUFFER after the run: the composition of the four kernels' functions and the host arrays. -/
theorem result (c : Dev nD) : W9 m ρ c (Proc.devRef .tc main_v65)
    = kOut (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) := by
  have h1 : W9 m ρ c (Proc.devRef .tc main_v65) = (dat3 (V8 m ρ) c).arrAt 4 cfg3.N := W9_arr m ρ c 4
  exact h1.trans ((final3 (V8 m ρ) c).trans
    (congr (congr (congr (congrArg Cert.Gcn2.lsmArr (W8_v62 m ρ c)) (W8_v49 m ρ c)) (W8_v63 m ρ c)) (W8_v64 m ρ c)))

end Cert.KernelIdeal.KVal

end
-- ==== Proof.Spec.lean ====
/-
  The two-layer graph convolution both programs compute, as one function of the argument arrays.

  Nodes are r < 50000, the given edges e < 1600000. Edge e reads node `node (src e)` (its source word with a
  negative value counted from the end, read signed and clamped into the node range) and is added into the node its
  target word names when read signed as it stands (`into r`; an edge whose target word names no node is dropped).
  Every node also keeps its own row (its self-loop). With  c r = 1/√(in-degree r + 1)  one layer sends a node array f
  and a bias b to
      layer f b r k = Σ_{e into r} f[node (src e), k] · (c (node (src e)) · c (node (dst e)))  +  f[r, k] · (c r · c r)  +  b k.
  The network:  lin1 = x · W1,  hid = max (layer lin1 b1) 0,  lin2 = hid · W2,  logits = layer lin2 b2,  and each row of
  logits less its maximum less the logarithm of the sum of the exponentials of the shifted row.
-/
import Idealize.ShloMosaic.PureOps.Ideal
import Idealize.ShloMosaic.PureOps.Ideal.Laws
import Idealize.ShloMosaic.Lib.ValueIdx

noncomputable section

namespace Cert.Gcn2

open Idealize.ShloMosaic Idealize.ShloMosaic.ValueIdx

/-- A negative index word counts from the end: `v < 0 ? v + 50000 : v`. -/
def wrap (v : BitVec 32) : BitVec 32 := Scalar.select (IntOp.cmpi .slt v 0#32) (IntOp.addi v 50000#32) v

/-- The node a gather reads for the index word `v`: wrapped, read signed, clamped into the node range. -/
def node (v : BitVec 32) : Fin 50000 := ⟨min (wrap v).toInt.toNat (50000 - 1), by omega⟩

section
variable (ei : IVec ⟨2, ![2, 1600000]⟩ 32)

/-- The source word of edge `e`. -/
def src (e : Fin 1600000) : BitVec 32 := ei (ix2 (0 : Fin 2) e)
/-- The target word of edge `e`. -/
def dst (e : Fin 1600000) : BitVec 32 := ei (ix2 (1 : Fin 2) e)

/-- The edges added into node `r`: those whose target word, read signed as it stands, is `r`. -/
def into (r : Fin 50000) : Finset (Fin 1600000) := Finset.univ.filter fun e => (dst ei e).toInt = (r.val : Int)

/-- The normalising factor of node `r`: one over the root of its in-degree plus one. -/
def c (r : Fin 50000) : ℝ := (Real.sqrt (((into ei r).card : ℝ) + 1))⁻¹

/-- The weight of edge `e`: the factors of the two nodes its words read. -/
def weight (e : Fin 1600000) : EReal := (c ei (node (src ei e)) : EReal) * (c ei (node (dst ei e)) : EReal)

/-- One normalised layer with self-loops on a node array `f` with bias `b`, at node `r`, column `k`. -/
def layer {C : Nat} (f : Fin 50000 → Fin C → EReal) (b : Fin C → EReal) (r : Fin 50000) (k : Fin C) : EReal :=
  (∑ e ∈ into ei r, f (node (src ei e)) k * weight ei e) + f r k * ((c ei r : EReal) * (c ei r : EReal)) + b k

variable (x : (⟨2, ![50000, 128]⟩ : Shape).Idx → EReal) (W1 : (⟨2, ![128, 64]⟩ : Shape).Idx → EReal)
  (b1 : (⟨1, ![64]⟩ : Shape).Idx → EReal) (W2 : (⟨2, ![64, 3]⟩ : Shape).Idx → EReal) (b2 : (⟨1, ![3]⟩ : Shape).Idx → EReal)

def lin1 (r : Fin 50000) (k : Fin 64) : EReal := ∑ j : Fin 128, x (ix2 r j) * W1 (ix2 j k)

def hid (r : Fin 50000) (k : Fin 64) : EReal := max (layer ei (lin1 x W1) (fun k => b1 (ix1 k)) r k) 0

def lin2 (r : Fin 50000) (k : Fin 3) : EReal := ∑ j : Fin 64, hid ei x W1 b1 r j * W2 (ix2 j k)

def logits (r : Fin 50000) (k : Fin 3) : EReal := layer ei (lin2 ei x W1 b1 W2) (fun k => b2 (ix1 k)) r k

/-- The maximum of row `r` of the logits: the fold of max from the bottom element. -/
def rowMax (r : Fin 50000) : EReal := (Finset.univ : Finset (Fin 3)).fold max ⊥ (fun k => logits ei x W1 b1 W2 b2 r k)

/-- The result at node `r`, class `k`. -/
def out (r : Fin 50000) (k : Fin 3) : EReal :=
  (logits ei x W1 b1 W2 b2 r k - rowMax ei x W1 b1 W2 b2 r)
    - Ideal.log (∑ k' : Fin 3, Ideal.exp (logits ei x W1 b1 W2 b2 r k' - rowMax ei x W1 b1 W2 b2 r))

/-- The result array. -/
def outArr : (⟨2, ![50000, 3]⟩ : Shape).Idx → EReal := fun i => out ei x W1 b1 W2 b2 (i 0) (i 1)

end

end Cert.Gcn2

end
-- ==== Proof.LibScatterGather.lean ====
/-
  Row gathers and row scatters of StableHLO, read at an index, and the one law of the extended reals
  that lets a non-negative finite factor cross an accumulating scatter.

  * a gather of whole rows (`x[idx]` on the leading axis of a matrix, or of a vector): result row e is
    operand row `idx e`, read signed and clamped into the operand;
  * an accumulating scatter of whole rows: update row e lands on operand row `idx e` (read signed, not
    clamped) when that is a row of the operand, and nowhere otherwise;
  * on the extended reals multiplication by c distributes over a finite sum when 0 ≤ c < ⊤, so scaling
    every update that lands on an element by that element's factor scales the accumulated sum.
-/
import Idealize.ShloMosaic.PureOps.Ideal
import Idealize.ShloMosaic.PureOps.Ideal.Laws
import Idealize.ShloMosaic.Lib.ValueIdx

noncomputable section

namespace Cert.ScatterGather

open Idealize.ShloMosaic Idealize.ShloMosaic.ValueIdx

/-! ## Sums on the extended reals -/

/-- A factor `0 ≤ c < ⊤` distributes over a finite sum of extended reals. -/
theorem sum_mul_of_nonneg_ne_top {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih => rw [Finset.sum_insert ha, Finset.sum_insert ha, EReal.right_distrib_of_nonneg_of_ne_top h0 ht, ih]

/-- An accumulating scatter into zeros whose every landing update carries the factor of the element it
    lands on: the factor comes out of the accumulated sum. Only an element some update lands on needs
    its factor non-negative and finite: where nothing lands both sides are zero. -/
theorem hostScatterAdd_zero_mul {s si su : Shape} (d : ScatterDims s si su) {w : Nat} (idx : IVec si w)
    (u u' : su.Idx → EReal) (c : s.Idx → EReal)
    (hc : ∀ j i, d.resultIdx? j idx = some i → 0 ≤ c i ∧ c i ≠ ⊤)
    (h : ∀ j i, d.resultIdx? j idx = some i → u j = u' j * c i) (i : s.Idx) :
    Ideal.hostScatterAdd d (fun _ => 0) idx u i = Ideal.hostScatterAdd d (fun _ => 0) idx u' i * c i := by
  unfold Ideal.hostScatterAdd
  simp only [zero_add]
  by_cases hne : (Finset.univ.filter (fun j => d.resultIdx? j idx = some i)).Nonempty
  · obtain ⟨j0, hj0⟩ := hne
    have hci := hc j0 i (Finset.mem_filter.mp hj0).2
    rw [sum_mul_of_nonneg_ne_top _ _ hci.1 hci.2]
    exact Finset.sum_congr rfl (fun j hj => h j i (Finset.mem_filter.mp hj).2)
  · rw [Finset.not_nonempty_iff_eq_empty.mp hne]; simp

/-- The inverse square root of a positive count is a non-negative real. -/
theorem rsqrt_count {ι : Type} (s : Finset ι) (hs : s.Nonempty) :
    0 ≤ Ideal.rsqrt (0 + ∑ _j ∈ s, (1 : EReal)) ∧ Ideal.rsqrt (0 + ∑ _j ∈ s, (1 : EReal)) ≠ ⊤ := by
  have hcard : 0 < s.card := Finset.card_pos.mpr hs
  have hsum : (0 + ∑ _j ∈ s, (1 : EReal)) = ((s.card : ℝ) : EReal) := by
    rw [zero_add, Finset.sum_const, EReal.nsmul_eq_mul, mul_one]; rfl
  have hpos : (0 : ℝ) < (s.card : ℝ) := by exact_mod_cast hcard
  rw [hsum, Ideal.rsqrt_coe, if_neg (not_lt.mpr hpos.le), if_neg hpos.ne']
  exact ⟨by exact_mod_cast inv_nonneg.mpr (Real.sqrt_nonneg _), EReal.coe_ne_top _⟩

/-! ## A gather of rows -/

section Gather
variable {α : Type} {N M C w : Nat}

/-- `x[idx]` on the leading axis of `x : [N, C]` at `idx : [M]` carried as `[M, 1]`. -/
abbrev rowsDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row a gather reads for result row `e`: the start index read signed, clamped into `[0, N - 1]`. -/
def clampRow (N : Nat) (hN : 0 < N) {M w : Nat} (idx : IVec ⟨2, ![M, 1]⟩ w) (e : Fin M) : Fin N :=
  ⟨min (idx (ix2 e (0 : Fin 1))).toInt.toNat (N - 1), by omega⟩

/-- THE ROW GATHER READ AT `(e, j)`: the operand at row `clampRow … e`, column `j`. -/
theorem gather_rows_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowsDims N M C wf) x idx y = x (ix2 (clampRow N hN idx (y 0)) (y 1)) := by
  unfold Host.gather
  congr 1
  funext a
  refine Fin.ext ?_
  match a with
  | ⟨0, _⟩ =>
    show (rowsDims N M C wf).start y idx 0 + (rowsDims N M C wf).batchCoord y 0 + (rowsDims N M C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M C wf).startIndexMap from List.mem_singleton.mpr rfl)]
    have hsi : (rowsDims N M C wf).siIdx y ⟨List.idxOf (0 : Fin 2) (rowsDims N M C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowsDims N M C wf).start y idx 1 + (rowsDims N M C wf).batchCoord y 1 + (rowsDims N M C wf).offCoord y 1 = (y 1).val
    rw [GatherDims.batchCoord_eq_zero _ _ _ List.not_mem_nil]
    unfold GatherDims.start
    rw [dif_neg (show (1 : Fin 2) ∉ ([0] : List (Fin 2)) by decide)]
    simp only [Nat.zero_add, Nat.add_zero]
    unfold GatherDims.offCoord
    rw [dif_pos ((GatherDims.mem_sKept _ _).mpr ⟨(show (1 : Fin 2) ∉ ([0] : List (Fin 2)) by decide), List.not_mem_nil⟩)]
    rfl

/-- `x[idx]` of a vector `x : [N]` at `idx : [M]` carried as `[M, 1]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `clampRow … e`. -/
theorem gather_flat_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatDims N M wf) x idx y = x (ix1 (clampRow N hN idx (y 0))) := by
  unfold Host.gather
  congr 1
  funext a
  obtain rfl : a = 0 := Subsingleton.elim _ _
  refine Fin.ext ?_
  show (flatDims N M wf).start y idx 0 + (flatDims N M wf).batchCoord y 0 + (flatDims N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx y ⟨List.idxOf (0 : Fin 1) (flatDims N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Gather

/-! ## An accumulating scatter of rows -/

section Scatter
variable {N M C w : Nat}

/-- `x.at[idx].add(u)` on the leading axis of `x : [N, C]`, `idx : [M]` carried as `[M, 1]`, `u : [M, C]`. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem rowsScatter_start0 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 0 = (idx (ix2 (j 0) (0 : Fin 1))).toInt := by
  unfold ScatterDims.start
  rw [dif_pos (show (0 : Fin 2) ∈ (rowsScatter N M C wf).scatterDimsToOperandDims from List.mem_singleton.mpr rfl)]
  have hsi : (rowsScatter N M C wf).siIdx j ⟨List.idxOf (0 : Fin 2) (rowsScatter N M C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowsScatter_start1 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 1 = 0 := by
  unfold ScatterDims.start
  rw [dif_neg (show (1 : Fin 2) ∉ ([0] : List (Fin 2)) by decide)]

theorem rowsScatter_window0 (wf : ScatterDims.WF ⟨2, ![N, C]⟩ ⟨2, ![M, 1]⟩ ⟨2, ![M, C]⟩ [1] [0] [0] 1)
    (j : (⟨2, ![M, C]⟩ : Shape).Idx) : (rowsScatter N M C wf).window j 0 = 0 := by
  unfold ScatterDims.window
  have h : (0 : Fin 2) ∉ (rowsScatter N M C wf).sKept := by
    show (0 : Fin 2) ∉ ([1] : List (Fin 2)); decide
  rw [dif_neg h]

theorem rowsScatter_window1 (wf : ScatterDims.WF ⟨2, ![N, C]⟩ ⟨2, ![M, 1]⟩ ⟨2, ![M, C]⟩ [1] [0] [0] 1)
    (j : (⟨2, ![M, C]⟩ : Shape).Idx) : (rowsScatter N M C wf).window j 1 = (j 1).val := by
  unfold ScatterDims.window
  have h : (1 : Fin 2) ∈ (rowsScatter N M C wf).sKept := by
    show (1 : Fin 2) ∈ ([1] : List (Fin 2)); decide
  rw [dif_pos h]
  rfl

/-- WHERE A ROW UPDATE LANDS: element `(e, k)` of the updates lands on `(n, k')` exactly when the index of
    row `e`, read signed, is `n` and `k = k'`. -/
theorem rowsScatter_resultIdx?_eq_some_iff (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) (i : (⟨2, ![N, C]⟩ : Shape).Idx) :
    (rowsScatter N M C wf).resultIdx? j idx = some i ↔
      (idx (ix2 (j 0) (0 : Fin 1))).toInt = ((i 0).val : Int) ∧ (j 1).val = (i 1).val := by
  have hi0 : (i 0).val < N := (i 0).isLt
  have hj1 : (j 1).val < C := (j 1).isLt
  unfold ScatterDims.resultIdx?
  split
  · rename_i h
    rw [Option.some.injEq]
    constructor
    · intro e
      have e0 := congrArg (fun f => (f 0).val) e
      have e1 := congrArg (fun f => (f 1).val) e
      simp only [rowsScatter_start0, rowsScatter_start1, rowsScatter_window0, rowsScatter_window1] at e0 e1
      have h0 := h 0
      simp only [rowsScatter_start0, rowsScatter_window0] at h0
      constructor
      · omega
      · omega
    · rintro ⟨e0, e1⟩
      funext a
      refine Fin.ext ?_
      match a with
      | ⟨0, _⟩ =>
        show ((rowsScatter N M C wf).start j idx 0 + ((rowsScatter N M C wf).window j 0 : Int)).toNat = (i 0).val
        rw [rowsScatter_start0, rowsScatter_window0, e0]; omega
      | ⟨1, _⟩ =>
        show ((rowsScatter N M C wf).start j idx 1 + ((rowsScatter N M C wf).window j 1 : Int)).toNat = (i 1).val
        rw [rowsScatter_start1, rowsScatter_window1]; omega
  · rename_i h
    constructor
    · intro e; exact absurd e (by simp)
    · rintro ⟨e0, e1⟩
      exfalso; apply h
      intro a
      match a with
      | ⟨0, _⟩ =>
        show 0 ≤ (rowsScatter N M C wf).start j idx 0 + ((rowsScatter N M C wf).window j 0 : Int) ∧
          (rowsScatter N M C wf).start j idx 0 + ((rowsScatter N M C wf).window j 0 : Int) < ((⟨2, ![N, C]⟩ : Shape).size 0 : Int)
        rw [rowsScatter_start0, rowsScatter_window0, e0]
        refine ⟨by omega, ?_⟩
        show ((i 0).val : Int) + ((0 : Nat) : Int) < (N : Int)
        omega
      | ⟨1, _⟩ =>
        show 0 ≤ (rowsScatter N M C wf).start j idx 1 + ((rowsScatter N M C wf).window j 1 : Int) ∧
          (rowsScatter N M C wf).start j idx 1 + ((rowsScatter N M C wf).window j 1 : Int) < ((⟨2, ![N, C]⟩ : Shape).size 1 : Int)
        rw [rowsScatter_start1, rowsScatter_window1]
        refine ⟨by omega, ?_⟩
        show (0 : Int) + ((j 1).val : Int) < (C : Int)
        omega

/-- `x.at[idx].add(u)` of a vector `x : [N]`, `idx : [M]` carried as `[M, 1]`, `u : [M]`. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem flatScatter_start0 (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (flatScatter N M wf).start j idx 0 = (idx (ix2 (j 0) (0 : Fin 1))).toInt := by
  unfold ScatterDims.start
  rw [dif_pos (show (0 : Fin 1) ∈ (flatScatter N M wf).scatterDimsToOperandDims from List.mem_singleton.mpr rfl)]
  have hsi : (flatScatter N M wf).siIdx j ⟨List.idxOf (0 : Fin 1) (flatScatter N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 (wf : ScatterDims.WF ⟨1, ![N]⟩ ⟨2, ![M, 1]⟩ ⟨1, ![M]⟩ [] [0] [0] 1)
    (j : (⟨1, ![M]⟩ : Shape).Idx) : (flatScatter N M wf).window j 0 = 0 := by
  unfold ScatterDims.window
  have h : (0 : Fin 1) ∉ (flatScatter N M wf).sKept := by
    show (0 : Fin 1) ∉ ([] : List (Fin 1)); exact List.not_mem_nil
  rw [dif_neg h]

/-- WHERE A VECTOR UPDATE LANDS: element `e` lands on `n` exactly when its index, read signed, is `n`. -/
theorem flatScatter_resultIdx?_eq_some_iff (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (flatScatter N M wf).resultIdx? j idx = some i ↔ (idx (ix2 (j 0) (0 : Fin 1))).toInt = ((i 0).val : Int) := by
  have hi0 : (i 0).val < N := (i 0).isLt
  unfold ScatterDims.resultIdx?
  split
  · rename_i h
    rw [Option.some.injEq]
    constructor
    · intro e
      have e0 := congrArg (fun f => (f 0).val) e
      simp only [flatScatter_start0, flatScatter_window0] at e0
      have h0 := h 0
      simp only [flatScatter_start0, flatScatter_window0] at h0
      omega
    · intro e0
      funext a
      obtain rfl : a = 0 := Subsingleton.elim _ _
      refine Fin.ext ?_
      show ((flatScatter N M wf).start j idx 0 + ((flatScatter N M wf).window j 0 : Int)).toNat = (i 0).val
      rw [flatScatter_start0, flatScatter_window0, e0]; omega
  · rename_i h
    constructor
    · intro e; exact absurd e (by simp)
    · intro e0
      exfalso; apply h
      intro a
      obtain rfl : a = 0 := Subsingleton.elim _ _
      show 0 ≤ (flatScatter N M wf).start j idx 0 + ((flatScatter N M wf).window j 0 : Int) ∧
        (flatScatter N M wf).start j idx 0 + ((flatScatter N M wf).window j 0 : Int) < ((⟨1, ![N]⟩ : Shape).size 0 : Int)
      rw [flatScatter_start0, flatScatter_window0, e0]
      refine ⟨by omega, ?_⟩
      show ((i 0).val : Int) + ((0 : Nat) : Int) < (N : Int)
      omega

end Scatter

end Cert.ScatterGather

end
-- ==== Proof.LibGraphMean.lean ====
/-
  The mean of gathered rows commutes with a linear map, on the extended reals.

  A graph layer gathers rows of a node array `X` along the edges' sources, adds the gathered rows into the rows
  their edges point to, and divides each row by a per-row divisor. Row `r` of the result is
  `(Σ_{e lands on r} X[src e, ·]) / d r`. When `X` and a weight matrix `B` hold real numbers and `d r` is a
  non-zero real, projecting afterwards,  `Σ_k ((Σ_e X[src e, k]) / d r) · B[q, k]`,  is the same number as
  projecting first,  `(Σ_e Σ_k X[src e, k] · B[q, k]) / d r`:  both are finite sums of products of reals, and the
  law is the exchange of two finite sums with the factor `1 / d r` and `B[q, k]` moved across them.
  The divisor of the layer is the in-degree clamped below by one, `max (#{e lands on r}) 1`: a real, at least one.
-/
import Idealize.ShloMosaic.PureOps.Ideal
import Idealize.ShloMosaic.PureOps.Ideal.Laws
import Idealize.ShloMosaic.Lib.ValueIdx
import proofs.«125733_j4569845203117_1_alg».proof.Proof.LibScatterGather

noncomputable section

namespace Cert.GraphMean

open Idealize.ShloMosaic Idealize.ShloMosaic.ValueIdx Cert.ScatterGather

/-- The coercion of the reals into the extended reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {N M C w : Nat}

/-- The update rows that land on operand row `r`: those whose index, read signed, is `r`. -/
def landing (idx : IVec ⟨2, ![M, 1]⟩ w) (r : Fin N) : Finset (Fin M) :=
  Finset.univ.filter fun e => (idx (ix2 e (0 : Fin 1))).toInt = (r.val : Int)

/-- An accumulating row scatter into zeros, read at `(r, k)`: the sum of column `k` of the update rows that land
    on row `r`. -/
theorem scatter_rows_apply (wf : ScatterDims.WF ⟨2, ![N, C]⟩ ⟨2, ![M, 1]⟩ ⟨2, ![M, C]⟩ [1] [0] [0] 1)
    (idx : IVec ⟨2, ![M, 1]⟩ w) (u : (⟨2, ![M, C]⟩ : Shape).Idx → EReal) (r : Fin N) (k : Fin C) :
    Ideal.hostScatterAdd (rowsScatter N M C wf) (fun _ => 0) idx u (ix2 r k) = ∑ e ∈ landing idx r, u (ix2 e k) := by
  unfold Ideal.hostScatterAdd
  rw [zero_add]
  have key : ∀ j : (⟨2, ![M, C]⟩ : Shape).Idx, (rowsScatter N M C wf).resultIdx? j idx = some (ix2 r k) →
      (idx (ix2 (j 0) (0 : Fin 1))).toInt = (r.val : Int) ∧ ix2 (j 0) k = j := by
    intro j hj
    have h := (rowsScatter_resultIdx?_eq_some_iff wf j idx (ix2 r k)).mp hj
    refine ⟨h.1, ?_⟩
    funext a
    match a with
    | ⟨0, _⟩ => rfl
    | ⟨1, _⟩ => exact (Fin.ext h.2).symm
  refine Finset.sum_nbij' (fun j => j 0) (fun e => ix2 e k) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowsScatter_resultIdx?_eq_some_iff wf (ix2 e k) idx (ix2 r k)).mpr ⟨(Finset.mem_filter.mp he).2, rfl⟩⟩
  · intro j hj
    exact (key j (Finset.mem_filter.mp hj).2).2
  · intro e _
    rfl
  · intro j hj
    exact congrArg u (key j (Finset.mem_filter.mp hj).2).2.symm

/-- An accumulating scatter of ones into a vector of zeros, read at `r`: the number of updates that land on `r`. -/
theorem scatter_count_apply (wf : ScatterDims.WF ⟨1, ![N]⟩ ⟨2, ![M, 1]⟩ ⟨1, ![M]⟩ [] [0] [0] 1)
    (idx : IVec ⟨2, ![M, 1]⟩ w) (r : Fin N) :
    Ideal.hostScatterAdd (flatScatter N M wf) (fun _ => 0) idx (fun _ => 1) (ix1 r)
      = (((landing idx r).card : ℝ) : EReal) := by
  unfold Ideal.hostScatterAdd
  rw [zero_add]
  have e : ∑ j ∈ Finset.univ.filter (fun j : (⟨1, ![M]⟩ : Shape).Idx => (flatScatter N M wf).resultIdx? j idx = some (ix1 r)), (1 : EReal)
      = ∑ _e ∈ landing idx r, (1 : EReal) := by
    refine Finset.sum_nbij' (fun j => j 0) (fun e => ix1 e) ?_ ?_ ?_ ?_ ?_
    · intro j hj
      exact Finset.mem_filter.mpr ⟨Finset.mem_univ _,
        (flatScatter_resultIdx?_eq_some_iff wf j idx (ix1 r)).mp (Finset.mem_filter.mp hj).2⟩
    · intro e he
      exact Finset.mem_filter.mpr ⟨Finset.mem_univ _,
        (flatScatter_resultIdx?_eq_some_iff wf (ix1 e) idx (ix1 r)).mpr (Finset.mem_filter.mp he).2⟩
    · intro j _
      exact (eq_ix1 j).symm
    · intro e _
      rfl
    · intro j _
      rfl
  rw [e, Finset.sum_const, EReal.nsmul_eq_mul, mul_one]
  rfl

/-- The same count, for the host's accumulating scatter of a vector of ones into a vector of zeros, whatever the
    names its record, its operand and its updates go by. -/
theorem host_count_apply (d : ScatterDims ⟨1, ![N]⟩ ⟨2, ![M, 1]⟩ ⟨1, ![M]⟩)
    (wf : ScatterDims.WF ⟨1, ![N]⟩ ⟨2, ![M, 1]⟩ ⟨1, ![M]⟩ [] [0] [0] 1) (hd : d = flatScatter N M wf)
    (Z : FVec Ideal ⟨1, ![N]⟩ .f32) (hZ : Z = fun _ => 0) (idx : IVec ⟨2, ![M, 1]⟩ w)
    (U : FVec Ideal ⟨1, ![M]⟩ .f32) (hU : U = fun _ => 1) (r : Fin N) :
    Host.scatterAdd (F := Ideal) d Z idx U (ix1 r) = (((landing idx r).card : ℝ) : EReal) := by
  subst hd hZ hU
  exact scatter_count_apply wf idx r

/-- The in-degree of row `r` clamped below by one: the layer's divisor. -/
def degree (idx : IVec ⟨2, ![M, 1]⟩ w) (r : Fin N) : ℝ := max ((landing idx r).card : ℝ) 1

theorem degree_ne_zero (idx : IVec ⟨2, ![M, 1]⟩ w) (r : Fin N) : degree idx r ≠ 0 :=
  (lt_of_lt_of_le one_pos (le_max_right _ _)).ne'

/-- The maximum of a count and one, on the extended reals, is that real. -/
theorem max_count_one (idx : IVec ⟨2, ![M, 1]⟩ w) (r : Fin N) :
    max (((landing idx r).card : ℝ) : EReal) 1 = (degree idx r : EReal) := by
  unfold degree
  rw [← EReal.coe_one]
  exact (EReal.coe_strictMono.monotone.map_max).symm

/-- The exchange of sums over the reals: scaling and projecting the sum of rows is summing the projected rows and
    scaling. -/
theorem real_law {E K : Type} [Fintype K] (s : Finset E) (a : E → K → ℝ) (b : K → ℝ) (c : ℝ) :
    ∑ k : K, ((∑ e ∈ s, a e k) * c) * b k = (∑ e ∈ s, ∑ k : K, a e k * b k) * c := by
  simp only [Finset.sum_mul]
  rw [Finset.sum_comm]
  exact Finset.sum_congr rfl fun e _ => Finset.sum_congr rfl fun k _ => by ring

/-- THE LAW. `X = ↑a` and `B = ↑b` real, the divisor of row `r` the non-zero real `d r` in every column, the
    scatter's operand zero: the mean of the gathered rows of `X`, projected by `B`, is the mean of the gathered rows
    of the projected `X`. -/
theorem mean_project (hN : 0 < N)
    (wfg : GatherDims.WF ⟨2, ![N, C]⟩ ⟨2, ![M, 1]⟩ ⟨2, ![M, C]⟩ [1] [0] [] [0] [] 1 ![1, C])
    (wfs : ScatterDims.WF ⟨2, ![N, C]⟩ ⟨2, ![M, 1]⟩ ⟨2, ![M, C]⟩ [1] [0] [0] 1)
    (Z : (⟨2, ![N, C]⟩ : Shape).Idx → EReal) (hZ : Z = fun _ => 0)
    (I1 I2 : IVec ⟨2, ![M, 1]⟩ w)
    (Dn : (⟨2, ![N, C]⟩ : Shape).Idx → EReal) (d : Fin N → ℝ) (hd : ∀ r, d r ≠ 0)
    (hDn : ∀ r k, Dn (ix2 r k) = (d r : EReal))
    (a : (⟨2, ![N, C]⟩ : Shape).Idx → ℝ) (b : (⟨2, ![C, C]⟩ : Shape).Idx → ℝ) (r : Fin N) (q : Fin C) :
    ∑ k : Fin C, Ideal.div (Ideal.hostScatterAdd (rowsScatter N M C wfs) Z I2
        (Host.gather (rowsDims N M C wfg) (fun i => (a i : EReal)) I1) (ix2 r k)) (Dn (ix2 r k)) * (b (ix2 q k) : EReal)
      = Ideal.div (Ideal.hostScatterAdd (rowsScatter N M C wfs) Z I2
        (Host.gather (rowsDims N M C wfg) (fun i => ∑ k : Fin C, (a (ix2 (i 0) k) : EReal) * (b (ix2 (i 1) k) : EReal)) I1)
          (ix2 r q)) (Dn (ix2 r q)) := by
  subst hZ
  simp only [scatter_rows_apply, hDn, Ideal.div_coe (hd r), gather_rows_apply hN wfg]
  simp only [← EReal.coe_mul, ← coe_sum]
  exact congrArg _ (real_law (landing I2 r) (fun e k => a (ix2 (clampRow N hN I1 e) k)) (fun k => b (ix2 q k)) (1 / d r))

end Cert.GraphMean

end
-- ==== Proof.LibGcnLayer.lean ====
/-
  One graph-convolution layer with symmetric normalisation, in the two arrangements the two programs use, and the
  two-layer network they both compute.

  Nodes are r < N, edges e < M (the given edges followed by one self-loop per node). Edge e reads node `s e` (its
  source index, read signed and clamped into the node range) and is added into node `d e` (its target index, read
  signed; an edge whose target is not a node is dropped). With  c r = 1/√(deg r)  (0 where the degree is not positive)
  the layer sends a node array xw to
        out[r, k] = c r · Σ_{e lands on r} xw[s e, k] · c (s e).
  * The kernel's program scales the node array by c BEFORE the gather, adds the gathered rows, and scales the sums
    by c AFTER: literally the formula above.
  * The reference scales every gathered row by the edge weight  c (s e) · c (d' e),  d' e the target index read
    signed with a negative index wrapped, clamped — and adds. For an edge that lands on r the target IS r, so the
    weight is c (s e) · c r, and the factor c r, a non-negative real, comes out of the sum: on the extended reals
    a factor 0 ≤ c < ⊤ distributes over a finite sum whatever the summands are.
  No finiteness of the node array is needed.
  Stated for any numbers of nodes N, edges M and columns C and any index width (the network `gcn` with 64 → 64 → 32
  features, `clampRow_of_wrapped` for 100000 nodes and 32-bit indices); the records of the gathers and scatters enter as
  parameters with an equation to the row forms of the scatter / gather lemma file this module imports.
-/
import Idealize.ShloMosaic.PureOps.Ideal
import Idealize.ShloMosaic.PureOps.Ideal.Laws
import Idealize.ShloMosaic.Lib.ValueIdx
import proofs.«125733_j4569845203117_1_alg».proof.Proof.LibScatterGather
import proofs.«125733_j4569845203117_1_alg».proof.Proof.LibGraphMean

noncomputable section

namespace Cert.Gcn

open Idealize.ShloMosaic Idealize.ShloMosaic.ValueIdx Cert.ScatterGather Cert.GraphMean

/-! ## The normalising factor -/

/-- `1/√d` where `d > 0`, else `0`: the factor of a node of degree `d`, as both programs select it. -/
def invSqrtDeg (d : EReal) : EReal := Scalar.select (Ideal.cmp .ogt d 0) (Ideal.rsqrt d) 0

/-- The factor is a non-negative real whatever the degree is: the inverse root of a positive real is a positive
    real, that of `⊤` is `0`, and where the degree is not positive the factor is `0`. -/
theorem invSqrtDeg_nonneg_ne_top (d : EReal) : 0 ≤ invSqrtDeg d ∧ invSqrtDeg d ≠ ⊤ := by
  unfold invSqrtDeg Ideal.cmp
  by_cases h : (0 : EReal) < d
  · rw [show (BitVec.ofBool (decide ((0 : EReal) < d))) = 1#1 by simp [h], select_one]
    induction d using EReal.rec with
    | bot => exact absurd h (by simp)
    | top => rw [Ideal.rsqrt_top]; exact ⟨le_refl _, EReal.zero_ne_top⟩
    | coe r =>
      have hr : (0 : ℝ) < r := by exact_mod_cast h
      rw [Ideal.rsqrt_coe, if_neg (not_lt.mpr hr.le), if_neg hr.ne']
      exact ⟨by exact_mod_cast inv_nonneg.mpr (Real.sqrt_nonneg _), EReal.coe_ne_top _⟩
  · rw [show (BitVec.ofBool (decide ((0 : EReal) < d))) = 0#1 by simp [h], select_zero]
    exact ⟨le_refl _, EReal.zero_ne_top⟩

variable {N M C w : Nat}

/-! ## The two gathers at explicit coordinates -/

/-- The row gather at edge `e`, column `k`: the operand's row `s e`, column `k`. -/
theorem gather_rows_at {α : Type} (hN : 0 < N)
    (wfg : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (k : Fin C) :
    Host.gather (rowsDims N M C wfg) x idx (ix2 e k) = x (ix2 (clampRow N hN idx e) k) :=
  gather_rows_apply hN wfg x idx (ix2 e k)

/-- The vector gather at edge `e`: the operand at `s e`. -/
theorem gather_flat_at {α : Type} (hN : 0 < N)
    (wfv : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatDims N M wfv) x idx (ix1 e) = x (ix1 (clampRow N hN idx e)) :=
  gather_flat_apply hN wfv x idx (ix1 e)

/-! ## The layer -/

/-- One normalised layer at node `r`, column `k`: `c r · Σ_{e lands on r} xw[s e, k] · c (s e)`. -/
def layer (hN : 0 < N) (c : Fin N → EReal) (S D : IVec ⟨2, ![M, 1]⟩ w) (xw : Fin N → Fin C → EReal)
    (r : Fin N) (k : Fin C) : EReal :=
  c r * ∑ e ∈ landing D r, xw (clampRow N hN S e) k * c (clampRow N hN S e)

/-- THE KERNEL'S ARRANGEMENT. The node array scaled by the factor (carried as the array `CB1`, constant along
    rows), rounded to the narrow format (the identity on extended reals), gathered along the sources, widened,
    added into zeros along the targets, scaled again (`CB2`): the layer. -/
theorem layer_of_prescaled (hN : 0 < N)
    (gd : GatherDims ⟨2, ![N, C]⟩ ⟨2, ![M, 1]⟩ ⟨2, ![M, C]⟩)
    (wfg : GatherDims.WF ⟨2, ![N, C]⟩ ⟨2, ![M, 1]⟩ ⟨2, ![M, C]⟩ [1] [0] [] [0] [] 1 ![1, C]) (hgd : gd = rowsDims N M C wfg)
    (sd : ScatterDims ⟨2, ![N, C]⟩ ⟨2, ![M, 1]⟩ ⟨2, ![M, C]⟩)
    (wfs : ScatterDims.WF ⟨2, ![N, C]⟩ ⟨2, ![M, 1]⟩ ⟨2, ![M, C]⟩ [1] [0] [0] 1) (hsd : sd = rowsScatter N M C wfs)
    (Z : FVec Ideal ⟨2, ![N, C]⟩ .f32) (hZ : Z = fun _ => 0)
    (XW CB1 CB2 : FVec Ideal ⟨2, ![N, C]⟩ .f32) (c : Fin N → EReal)
    (hCB1 : ∀ r k, CB1 (ix2 r k) = c r) (hCB2 : ∀ r k, CB2 (ix2 r k) = c r)
    (S D : IVec ⟨2, ![M, 1]⟩ w) (hb : FTy.bits .bf16 < FTy.bits .f32) (r : Fin N) (k : Fin C) :
    mulf CB2 (Host.scatterAdd (F := Ideal) sd Z D
        (extf .f32 (Host.gather gd (truncf .bf16 (mulf XW CB1) hb) S) hb)) (ix2 r k)
      = layer hN c S D (fun r k => XW (ix2 r k)) r k := by
  subst hgd hsd hZ
  rw [mulf_apply, hCB2]
  show c r * Ideal.hostScatterAdd (rowsScatter N M C wfs) (fun _ => 0) D _ (ix2 r k) = _
  rw [scatter_rows_apply]
  unfold layer
  refine congrArg _ (Finset.sum_congr rfl fun e _ => ?_)
  rw [extf_apply, gather_rows_at hN wfg, truncf_apply, mulf_apply, hCB1]

/-- THE REFERENCE'S ARRANGEMENT. The node array gathered along the sources, every gathered row scaled by its
    edge's weight `c (s e) · c (d' e)` (carried as the array `NB`, constant along rows; the two factors gathered
    from the vector `cv`), added into zeros along the targets: the layer, when an edge that lands on node `r` has
    `d' e = r` and the factors are non-negative reals. -/
theorem layer_of_edge_weights (hN : 0 < N)
    (gd : GatherDims ⟨2, ![N, C]⟩ ⟨2, ![M, 1]⟩ ⟨2, ![M, C]⟩)
    (wfg : GatherDims.WF ⟨2, ![N, C]⟩ ⟨2, ![M, 1]⟩ ⟨2, ![M, C]⟩ [1] [0] [] [0] [] 1 ![1, C]) (hgd : gd = rowsDims N M C wfg)
    (sd : ScatterDims ⟨2, ![N, C]⟩ ⟨2, ![M, 1]⟩ ⟨2, ![M, C]⟩)
    (wfs : ScatterDims.WF ⟨2, ![N, C]⟩ ⟨2, ![M, 1]⟩ ⟨2, ![M, C]⟩ [1] [0] [0] 1) (hsd : sd = rowsScatter N M C wfs)
    (gv : GatherDims ⟨1, ![N]⟩ ⟨2, ![M, 1]⟩ ⟨1, ![M]⟩)
    (wfv : GatherDims.WF ⟨1, ![N]⟩ ⟨2, ![M, 1]⟩ ⟨1, ![M]⟩ [] [0] [] [0] [] 1 ![1]) (hgv : gv = flatDims N M wfv)
    (Z : FVec Ideal ⟨2, ![N, C]⟩ .f32) (hZ : Z = fun _ => 0)
    (XW : FVec Ideal ⟨2, ![N, C]⟩ .f32) (cv : FVec Ideal ⟨1, ![N]⟩ .f32) (c : Fin N → EReal)
    (hcv : ∀ r, cv (ix1 r) = c r) (hc : ∀ r, 0 ≤ c r ∧ c r ≠ ⊤)
    (S D D' : IVec ⟨2, ![M, 1]⟩ w)
    (hD' : ∀ (e : Fin M) (r : Fin N), (D (ix2 e (0 : Fin 1))).toInt = (r.val : Int) → clampRow N hN D' e = r)
    (NB : FVec Ideal ⟨2, ![M, C]⟩ .f32)
    (hNB : ∀ e k, NB (ix2 e k) = mulf (Host.gather gv cv S) (Host.gather gv cv D') (ix1 e))
    (r : Fin N) (k : Fin C) :
    Host.scatterAdd (F := Ideal) sd Z D (mulf (Host.gather gd XW S) NB) (ix2 r k)
      = layer hN c S D (fun r k => XW (ix2 r k)) r k := by
  subst hgd hsd hgv hZ
  show Ideal.hostScatterAdd (rowsScatter N M C wfs) (fun _ => 0) D _ (ix2 r k) = _
  rw [scatter_rows_apply]
  unfold layer
  rw [mul_comm, sum_mul_of_nonneg_ne_top _ _ (hc r).1 (hc r).2]
  refine Finset.sum_congr rfl fun e he => ?_
  have hland : (D (ix2 e (0 : Fin 1))).toInt = (r.val : Int) := (Finset.mem_filter.mp he).2
  rw [mulf_apply, gather_rows_at hN wfg, hNB, mulf_apply, gather_flat_at hN wfv, gather_flat_at hN wfv,
    hcv, hcv, hD' e r hland, mul_assoc]

/-! ## The network -/

/-- The two-layer network at node `r`, class `q`: the layer of `x0 · x2`, plus the bias `x3`, clipped below at zero,
    projected by `x4`, the layer again, plus the bias `x5`. -/
def gcn (hN : 0 < N) (c : Fin N → EReal) (S D : IVec ⟨2, ![M, 1]⟩ w)
    (x0 : (⟨2, ![N, 64]⟩ : Shape).Idx → EReal) (x2 : (⟨2, ![64, 64]⟩ : Shape).Idx → EReal)
    (x3 : (⟨1, ![64]⟩ : Shape).Idx → EReal) (x4 : (⟨2, ![64, 32]⟩ : Shape).Idx → EReal)
    (x5 : (⟨1, ![32]⟩ : Shape).Idx → EReal) (r : Fin N) (q : Fin 32) : EReal :=
  layer hN c S D (fun r q => ∑ k : Fin 64,
      max (layer hN c S D (fun r k => ∑ j : Fin 64, x0 (ix2 r j) * x2 (ix2 j k)) r k + x3 (ix1 k)) 0 * x4 (ix2 k q)) r q
    + x5 (ix1 q)

/-! ## Two small facts both programs' readings use -/

/-- The zero word broadcast to any shape is the zero array. -/
theorem bcast_zero_f32 {t : Shape} (h : (⟨0, ![]⟩ : Shape).BroadcastsInDim t (![] : Fin 0 → Fin t.rank)) :
    broadcastInDim t ![] h (constant (F := Ideal) ⟨0, ![]⟩ .f32 0x00000000#32) = fun _ => 0 := by
  funext i
  unfold broadcastInDim
  exact Ideal.ofBits_zero_f32

/-- A target index that names node `r` of 100000 is left alone by the wrap of negative indices
    (`b < 0 ? b + 100000 : b`) and by the clamp into the node range: the reference's second factor of an edge that
    lands on `r` is read at `r`. -/
theorem clampRow_of_wrapped (D D' : IVec ⟨2, ![M, 1]⟩ 32) (e : Fin M) (r : Fin 100000)
    (hw : D' (ix2 e (0 : Fin 1)) = Scalar.select (IntOp.cmpi .slt (D (ix2 e (0 : Fin 1))) 0#32)
      (IntOp.addi (D (ix2 e (0 : Fin 1))) 100000#32) (D (ix2 e (0 : Fin 1))))
    (hr : (D (ix2 e (0 : Fin 1))).toInt = (r.val : Int)) :
    clampRow 100000 (by decide) D' e = r := by
  have hlt : r.val < 100000 := r.isLt
  have hns : (D (ix2 e (0 : Fin 1))).slt 0#32 = false := by
    rw [BitVec.slt, hr]; simp
  have hsel : D' (ix2 e (0 : Fin 1)) = D (ix2 e (0 : Fin 1)) := by
    rw [hw]; unfold IntOp.cmpi; rw [hns]; exact select_zero _ _
  refine Fin.ext ?_
  show min (D' (ix2 e (0 : Fin 1))).toInt.toNat (100000 - 1) = r.val
  rw [hsel, hr]
  omega

end Cert.Gcn

end
-- ==== Proof.KRead1.lean ====
/-
  The index words of the idealized kernel program's host arrays read at an index: the source and target words of
  edge e are the two rows of the edge array at column e; the column form of an index vector holds the vector's word
  at (e, 0); wrapping is word by word. So the node a gather reads for edge e is `node` of the edge's word, and the
  edges an accumulating scatter along the targets adds into node r are `into r`.
-/
import proofs.«125733_j4569845203117_1_alg».proof.Proof.KHost
import proofs.«125733_j4569845203117_1_alg».proof.Proof.Spec
import proofs.«125733_j4569845203117_1_alg».proof.Proof.LibScatterGather
import proofs.«125733_j4569845203117_1_alg».proof.Proof.LibGraphMean
import proofs.«125733_j4569845203117_1_alg».proof.Proof.LibGcnLayer
import Idealize.ShloMosaic.Lib.Pipeline.Value
import Idealize.ShloMosaic.Lib.ValueIdx
import Idealize.ShloMosaic.Lib.IdealHost

noncomputable section

namespace Cert.KernelIdeal.KHost

open Idealize.ShloMosaic Idealize.ShloMosaic.ValueIdx Cert.KernelIdeal Cert.KernelIdeal.Facts₀ Cert.KernelIdeal.Facts
open Cert.ScatterGather Cert.GraphMean

variable (ei : IVec S2x1600000 32)

theorem srcV_apply (e : Fin 1600000) : srcV ei (ix1 e) = Cert.Gcn2.src ei e := by
  unfold srcV
  rw [shapeCast_apply _ shapeCasts_S1x1600000_S1600000 (ix1 e) (ix2 (0 : Fin 1) e)
    (by rewrite [Shape.rowMajor_val_two, Shape.rowMajor_val_one]; show 0 * 1600000 + e.val = e.val; omega)]
  exact extractStridedSlice_apply ![0, 0] ei slices_S2x1600000_S1x1600000_0_0 (ix2 (0 : Fin 1) e) (ix2 (0 : Fin 2) e)
    (fun a => match a with
      | ⟨0, _⟩ => by show (0 : Nat) = 0 + 0; omega
      | ⟨1, _⟩ => by show e.val = 0 + e.val; omega)

theorem dstV_apply (e : Fin 1600000) : dstV ei (ix1 e) = Cert.Gcn2.dst ei e := by
  unfold dstV
  rw [shapeCast_apply _ shapeCasts_S1x1600000_S1600000 (ix1 e) (ix2 (0 : Fin 1) e)
    (by rewrite [Shape.rowMajor_val_two, Shape.rowMajor_val_one]; show 0 * 1600000 + e.val = e.val; omega)]
  exact extractStridedSlice_apply ![1, 0] ei slices_S2x1600000_S1x1600000_1_0 (ix2 (0 : Fin 1) e) (ix2 (1 : Fin 2) e)
    (fun a => match a with
      | ⟨0, _⟩ => by show (1 : Nat) = 1 + 0; omega
      | ⟨1, _⟩ => by show e.val = 0 + e.val; omega)

theorem colV_apply (v : IVec S1600000 32) (e : Fin 1600000) : colV v (ix2 e (0 : Fin 1)) = v (ix1 e) := by
  unfold colV
  exact broadcastInDim_apply ![0] bcast_S1600000_S1600000x1_0 v (ix2 e (0 : Fin 1)) (ix1 e)
    (fun a => by
      obtain rfl : a = 0 := Subsingleton.elim _ _
      show e.val = if (1600000 : Nat) = 1 then 0 else e.val
      rw [if_neg (by omega)])

theorem wrapV_apply (v : IVec S1600000 32) (e : Fin 1600000) : wrapV v (ix1 e) = Cert.Gcn2.wrap (v (ix1 e)) := rfl

/-- The node a gather along a wrapped index vector reads for edge `e`. -/
theorem clampRow_wrap (v : IVec S1600000 32) (e : Fin 1600000) :
    clampRow 50000 (by decide) (colV (wrapV v)) e = Cert.Gcn2.node (v (ix1 e)) := by
  refine Fin.ext ?_
  show min (colV (wrapV v) (ix2 e (0 : Fin 1))).toInt.toNat (50000 - 1) = min (Cert.Gcn2.wrap (v (ix1 e))).toInt.toNat (50000 - 1)
  rw [colV_apply, wrapV_apply]

/-- The edges an accumulating scatter along the targets adds into node `r`. -/
theorem landing_dst (r : Fin 50000) : landing (colV (dstV ei)) r = Cert.Gcn2.into ei r := by
  unfold landing Cert.Gcn2.into
  refine Finset.filter_congr fun e _ => ?_
  rw [colV_apply, dstV_apply]

end Cert.KernelIdeal.KHost

end
-- ==== Proof.KRead2.lean ====
/-
  The degree, the normalising factor and the edge weights of the idealized kernel program read at an index.

  The degree of node r is the number of edges into r plus one: a positive real. So the comparison against zero holds,
  the root is the real root, the quotient of one by it is the real  (√(in-degree + 1))⁻¹  — the specification's `c r` —,
  and the weight of edge e, the product of the factors gathered at the two nodes its wrapped words read, is the
  specification's `weight e`.
-/
import proofs.«125733_j4569845203117_1_alg».proof.Proof.KRead1
import Idealize.ShloMosaic.Lib.Pipeline.Value
import Idealize.ShloMosaic.Lib.ValueIdx
import Idealize.ShloMosaic.Lib.IdealHost

noncomputable section

namespace Cert.KernelIdeal.KHost

open Idealize.ShloMosaic Idealize.ShloMosaic.ValueIdx Cert.KernelIdeal Cert.KernelIdeal.Facts₀ Cert.KernelIdeal.Facts
open Cert.ScatterGather Cert.GraphMean

/-- The one word broadcast to any shape is the array of ones. -/
theorem bcast_one_f32 {t : Shape} (h : (⟨0, ![]⟩ : Shape).BroadcastsInDim t ![]) :
    broadcastInDim t ![] h (constant (F := Ideal) ⟨0, ![]⟩ .f32 0x3F800000#32) = fun _ => 1 := by
  funext i
  rw [broadcastInDim_scalar_apply, constant_apply, Ideal.ofBits_one_f32]

/-- The host's root at an index. -/
theorem hostSqrt_apply {s : Shape} {φ : FTy} (x : FVec Ideal s φ) (i : s.Idx) : Host.sqrt x i = Ideal.sqrt (x i) := rfl

variable (ei : IVec S2x1600000 32)

/-- The degree of node `r`: its in-degree plus one. -/
theorem degV_apply (r : Fin 50000) : degV ei (ix1 r) = ((((Cert.Gcn2.into ei r).card : ℝ) + 1 : ℝ) : EReal) := by
  unfold degV
  rw [addf_apply, bcast_one_f32 bcast_S_S50000,
    host_count_apply scatter_S50000_S1600000x1_S1600000_n_0_0_1 scatter_S50000_S1600000x1_S1600000_n_0_0_1.wf rfl _
      (Cert.Gcn.bcast_zero_f32 bcast_S_S50000) (colV (dstV ei)) _ (bcast_one_f32 bcast_S_S1600000) r,
    landing_dst, EReal.coe_add, EReal.coe_one]

/-- The factor of node `r`. -/
theorem dinvV_apply (r : Fin 50000) : dinvV ei (ix1 r) = (Cert.Gcn2.c ei r : EReal) := by
  have hpos : (0 : ℝ) < ((Cert.Gcn2.into ei r).card : ℝ) + 1 := by positivity
  have hc : Ideal.cmp .ogt ((((Cert.Gcn2.into ei r).card : ℝ) + 1 : ℝ) : EReal) 0 = 1#1 := by
    unfold Ideal.cmp
    have h0 : (0 : EReal) < ((((Cert.Gcn2.into ei r).card : ℝ) + 1 : ℝ) : EReal) := by exact_mod_cast hpos
    simp only [h0, decide_true]
    rfl
  unfold dinvV Cert.Gcn2.c
  rw [select_apply, cmpf_apply, hostDivf_apply, hostSqrt_apply, degV_apply, bcast_one_f32 bcast_S_S50000,
    Cert.Gcn.bcast_zero_f32 bcast_S_S50000, Ideal.cmpf_def, hc, select_one, Ideal.sqrt_coe, if_neg (not_lt.mpr hpos.le),
    Ideal.div_coe (Real.sqrt_ne_zero'.mpr hpos), one_mul, one_div]

theorem d2V_apply (r : Fin 50000) : d2V ei (ix1 r) = (Cert.Gcn2.c ei r : EReal) * (Cert.Gcn2.c ei r : EReal) := by
  unfold d2V
  rw [mulf_apply, dinvV_apply]

/-- The weight of edge `e`. -/
theorem normV_apply (e : Fin 1600000) : normV ei (ix1 e) = Cert.Gcn2.weight ei e := by
  unfold normV Cert.Gcn2.weight
  rw [mulf_apply]
  have wfv : GatherDims.WF ⟨1, ![50000]⟩ ⟨2, ![1600000, 1]⟩ ⟨1, ![1600000]⟩ [] [0] [] [0] [] 1 ![1] :=
    gather_S50000_S1600000x1_S1600000_n_0_n_n_0_1_1.wf
  have hg : gather_S50000_S1600000x1_S1600000_n_0_n_n_0_1_1 = flatDims 50000 1600000 wfv := rfl
  rw [hg, Cert.Gcn.gather_flat_at (by decide) wfv, Cert.Gcn.gather_flat_at (by decide) wfv, clampRow_wrap, clampRow_wrap,
    dinvV_apply, dinvV_apply, srcV_apply, dstV_apply]

end Cert.KernelIdeal.KHost

end
-- ==== Proof.RefIdx.lean ====
/-
  The reference's edge list with the self-loops appended, read at an edge.

  The reference works on 1600000 + 50000 = 1650000 edges: the given edges e < 1600000 followed by one loop edge
  1600000 + j per node j < 50000, whose source and target word is the node's number j written as a 32-bit word.
  * A word that reads, signed, as a node number r < 50000 is not negative, so the wrap of negative words leaves it
    alone and the clamp into the node range reads it as r. In particular the word of j < 50000 is read as j.
  * A sum over the extended edges whose target word, read signed, is r splits into the sum over the given edges whose
    target word is r and the one loop edge of r.
  * The word 0x3F800000 is the number one.
-/
import Idealize.ShloMosaic.PureOps.Ideal
import Idealize.ShloMosaic.PureOps.Ideal.Laws
import Idealize.ShloMosaic.Lib.ValueIdx
import Idealize.ShloMosaic.Lib.Pipeline.Value
import proofs.«125733_j4569845203117_1_alg».proof.Proof.Spec

noncomputable section

namespace Cert.ReferenceIdeal.RefValue

open Idealize.ShloMosaic Idealize.ShloMosaic.ValueIdx Cert.Gcn2

/-- The word 0x3F800000 is one. -/
theorem ofBits_one_f32 : Ideal.ofBits .f32 0x3F800000#32 = 1 := by
  simp [Ideal.ofBits, Ideal.ieee, -EReal.coe_mul]; norm_num

/-! ## Words that name a node -/

/-- The word of a node number reads, signed, as that number. -/
theorem toInt_word (j : Nat) (hj : j < 50000) : (BitVec.ofNat 32 j).toInt = (j : Int) := by
  rw [BitVec.toInt_eq_toNat_cond, BitVec.toNat_ofNat]
  have : j % 2 ^ 32 = j := Nat.mod_eq_of_lt (by omega)
  rw [this, if_pos (by omega)]

/-- A word that reads as a node number is left alone by the wrap of negative words. -/
theorem wrap_of_toInt (v : BitVec 32) (r : Nat) (h : v.toInt = (r : Int)) : wrap v = v := by
  have hns : v.slt 0#32 = false := by rw [BitVec.slt, h]; simp
  unfold wrap IntOp.cmpi
  rw [hns]
  exact select_zero _ _

/-- A word that reads as the node number r is read by a gather as node r. -/
theorem node_of_toInt (v : BitVec 32) (r : Fin 50000) (h : v.toInt = (r.val : Int)) : node v = r := by
  have hlt : r.val < 50000 := r.isLt
  refine Fin.ext ?_
  show min (wrap v).toInt.toNat (50000 - 1) = r.val
  rw [wrap_of_toInt v r.val h, h]
  omega

theorem node_word (j : Fin 50000) : node (BitVec.ofNat 32 j.val) = j :=
  node_of_toInt _ j (toInt_word j.val j.isLt)

/-! ## The extended edge list -/

/-- A given edge among the extended edges. -/
def left (e : Fin 1600000) : Fin 1650000 := ⟨e.val, by omega⟩
/-- The loop edge of node j among the extended edges. -/
def loop (j : Fin 50000) : Fin 1650000 := ⟨1600000 + j.val, by omega⟩

/-- A word array of the given edges followed by the node numbers, at an extended edge. -/
def ext (a : Fin 1600000 → BitVec 32) (e : Fin 1650000) : BitVec 32 :=
  if h : e.val < 1600000 then a ⟨e.val, h⟩ else BitVec.ofNat 32 (e.val - 1600000)

theorem ext_left (a : Fin 1600000 → BitVec 32) (e : Fin 1600000) : ext a (left e) = a e := by
  unfold ext left
  rw [dif_pos e.isLt]

theorem ext_loop (a : Fin 1600000 → BitVec 32) (j : Fin 50000) : ext a (loop j) = BitVec.ofNat 32 j.val := by
  have h : ¬ ((loop j).val < 1600000) := by show ¬ (1600000 + j.val < 1600000); omega
  have hv : (loop j).val - 1600000 = j.val := by show 1600000 + j.val - 1600000 = j.val; omega
  unfold ext
  rw [dif_neg h, hv]

section
variable (ei : IVec ⟨2, ![2, 1600000]⟩ 32)

/-- The source words of the extended edges. -/
def src2 : Fin 1650000 → BitVec 32 := ext (src ei)
/-- The target words of the extended edges. -/
def dst2 : Fin 1650000 → BitVec 32 := ext (dst ei)

end

/-! ## Splitting a sum over the extended edges -/

/-- A sum over the extended edges that satisfy p: the given edges that do, and the loop edges that do. -/
theorem sum_filter_split {A : Type} [AddCommMonoid A] (p : Fin 1650000 → Prop) [DecidablePred p] (g : Fin 1650000 → A) :
    ∑ e ∈ Finset.univ.filter p, g e
      = ∑ e ∈ Finset.univ.filter (fun e : Fin 1600000 => p (left e)), g (left e)
        + ∑ j ∈ Finset.univ.filter (fun j : Fin 50000 => p (loop j)), g (loop j) := by
  rw [Finset.sum_filter, Finset.sum_filter, Finset.sum_filter]
  exact Fin.sum_univ_add (a := 1600000) (b := 50000) (fun e : Fin (1600000 + 50000) => if p e then g e else 0)

/-- A sum over the extended edges whose target word reads as node r: the given edges into r, and r's loop edge. -/
theorem sum_landing {A : Type} [AddCommMonoid A] (ei : IVec ⟨2, ![2, 1600000]⟩ 32) (r : Fin 50000) (g : Fin 1650000 → A) :
    ∑ e ∈ Finset.univ.filter (fun e : Fin 1650000 => (dst2 ei e).toInt = (r.val : Int)), g e
      = ∑ e ∈ into ei r, g (left e) + g (loop r) := by
  rw [sum_filter_split]
  have h1 : (Finset.univ.filter fun e : Fin 1600000 => (dst2 ei (left e)).toInt = (r.val : Int)) = into ei r := by
    unfold into dst2
    simp only [ext_left]
  have h2 : (Finset.univ.filter fun j : Fin 50000 => (dst2 ei (loop j)).toInt = (r.val : Int)) = {r} := by
    ext j
    unfold dst2
    simp only [Finset.mem_filter, Finset.mem_univ, true_and, Finset.mem_singleton, ext_loop, toInt_word j.val j.isLt]
    constructor
    · intro h; exact Fin.ext (by omega)
    · rintro rfl; rfl
  rw [h1, h2, Finset.sum_singleton]

end Cert.ReferenceIdeal.RefValue

end
-- ==== Proof.RefLayer.lean ====
/-
  One layer of the reference, read at a node and a column.

  The reference gathers the rows of a node array f along the extended source words (wrapped, read signed, clamped),
  scales the row of extended edge e by  c[node (src e)] · c[node (dst e)]  (the two factors gathered from the factor
  vector along the wrapped source and target words) and adds the scaled rows into zeros along the extended target
  words read as they stand. At node r, column k this is the sum over the extended edges that land on r, which splits
  into the given edges into r,  Σ_{e into r} f[node (src e), k] · weight e,  and r's loop edge, whose source and
  target word is r itself:  f[r, k] · (c r · c r).  Only the splitting of a finite sum is used.
-/
import Idealize.ShloMosaic.PureOps.Ideal
import Idealize.ShloMosaic.PureOps.Ideal.Laws
import Idealize.ShloMosaic.Lib.ValueIdx
import proofs.«125733_j4569845203117_1_alg».proof.Proof.LibScatterGather
import proofs.«125733_j4569845203117_1_alg».proof.Proof.LibGraphMean
import proofs.«125733_j4569845203117_1_alg».proof.Proof.LibGcnLayer
import proofs.«125733_j4569845203117_1_alg».proof.Proof.RefIdx

noncomputable section

namespace Cert.ReferenceIdeal.RefValue

open Idealize.ShloMosaic Idealize.ShloMosaic.ValueIdx Cert.Gcn2 Cert.ScatterGather Cert.GraphMean Cert.Gcn

/-- A gather whose index word at edge e is the wrapped word v reads node `node v`. -/
theorem clampRow_wrap (S : IVec ⟨2, ![1650000, 1]⟩ 32) (e : Fin 1650000) (v : BitVec 32)
    (h : S (ix2 e (0 : Fin 1)) = wrap v) : clampRow 50000 (by decide) S e = node v := by
  refine Fin.ext ?_
  show min (S (ix2 e (0 : Fin 1))).toInt.toNat (50000 - 1) = min (wrap v).toInt.toNat (50000 - 1)
  rw [h]

/-- The reference's arrangement for any numbers of nodes, edges and columns: rows gathered along S, row e scaled by
    the product of the factor vector's entries gathered along S' and D', added into zeros along D. At node r,
    column k: the sum over the edges that land on r of the gathered entry times the two gathered factors. -/
theorem scatter_weighted_apply {N M C w : Nat} (hN : 0 < N)
    (gd : GatherDims ⟨2, ![N, C]⟩ ⟨2, ![M, 1]⟩ ⟨2, ![M, C]⟩)
    (wfg : GatherDims.WF ⟨2, ![N, C]⟩ ⟨2, ![M, 1]⟩ ⟨2, ![M, C]⟩ [1] [0] [] [0] [] 1 ![1, C]) (hgd : gd = rowsDims N M C wfg)
    (sd : ScatterDims ⟨2, ![N, C]⟩ ⟨2, ![M, 1]⟩ ⟨2, ![M, C]⟩)
    (wfs : ScatterDims.WF ⟨2, ![N, C]⟩ ⟨2, ![M, 1]⟩ ⟨2, ![M, C]⟩ [1] [0] [0] 1) (hsd : sd = rowsScatter N M C wfs)
    (gv : GatherDims ⟨1, ![N]⟩ ⟨2, ![M, 1]⟩ ⟨1, ![M]⟩)
    (wfv : GatherDims.WF ⟨1, ![N]⟩ ⟨2, ![M, 1]⟩ ⟨1, ![M]⟩ [] [0] [] [0] [] 1 ![1]) (hgv : gv = flatDims N M wfv)
    (Z XW : FVec Ideal ⟨2, ![N, C]⟩ .f32) (hZ : Z = fun _ => 0) (cv : FVec Ideal ⟨1, ![N]⟩ .f32)
    (S S' D' D : IVec ⟨2, ![M, 1]⟩ w) (NB : FVec Ideal ⟨2, ![M, C]⟩ .f32)
    (hNB : ∀ (e : Fin M) (k : Fin C), NB (ix2 e k) = mulf (Host.gather gv cv S') (Host.gather gv cv D') (ix1 e))
    (r : Fin N) (k : Fin C) :
    Host.scatterAdd (F := Ideal) sd Z D (mulf (Host.gather gd XW S) NB) (ix2 r k)
      = ∑ e ∈ landing D r, XW (ix2 (clampRow N hN S e) k)
          * (cv (ix1 (clampRow N hN S' e)) * cv (ix1 (clampRow N hN D' e))) := by
  subst hgd hsd hgv hZ
  show Ideal.hostScatterAdd (rowsScatter N M C wfs) (fun _ => 0) D _ (ix2 r k) = _
  rw [scatter_rows_apply]
  refine Finset.sum_congr rfl fun e _ => ?_
  rw [mulf_apply, gather_rows_at hN wfg, hNB, mulf_apply, gather_flat_at hN wfv, gather_flat_at hN wfv]

/-- THE LAYER OF THE REFERENCE at node r, column k, before the bias. -/
theorem layer_apply {C : Nat} (ei : IVec ⟨2, ![2, 1600000]⟩ 32)
    (gd : GatherDims ⟨2, ![50000, C]⟩ ⟨2, ![1650000, 1]⟩ ⟨2, ![1650000, C]⟩)
    (wfg : GatherDims.WF ⟨2, ![50000, C]⟩ ⟨2, ![1650000, 1]⟩ ⟨2, ![1650000, C]⟩ [1] [0] [] [0] [] 1 ![1, C])
    (hgd : gd = rowsDims 50000 1650000 C wfg)
    (sd : ScatterDims ⟨2, ![50000, C]⟩ ⟨2, ![1650000, 1]⟩ ⟨2, ![1650000, C]⟩)
    (wfs : ScatterDims.WF ⟨2, ![50000, C]⟩ ⟨2, ![1650000, 1]⟩ ⟨2, ![1650000, C]⟩ [1] [0] [0] 1)
    (hsd : sd = rowsScatter 50000 1650000 C wfs)
    (gv : GatherDims ⟨1, ![50000]⟩ ⟨2, ![1650000, 1]⟩ ⟨1, ![1650000]⟩)
    (wfv : GatherDims.WF ⟨1, ![50000]⟩ ⟨2, ![1650000, 1]⟩ ⟨1, ![1650000]⟩ [] [0] [] [0] [] 1 ![1])
    (hgv : gv = flatDims 50000 1650000 wfv)
    (Z XW : FVec Ideal ⟨2, ![50000, C]⟩ .f32) (hZ : Z = fun _ => 0)
    (cv : FVec Ideal ⟨1, ![50000]⟩ .f32) (hcv : ∀ r : Fin 50000, cv (ix1 r) = (c ei r : EReal))
    (S S' D' D : IVec ⟨2, ![1650000, 1]⟩ 32)
    (hS : ∀ e : Fin 1650000, S (ix2 e (0 : Fin 1)) = wrap (src2 ei e))
    (hS' : ∀ e : Fin 1650000, S' (ix2 e (0 : Fin 1)) = wrap (src2 ei e))
    (hD' : ∀ e : Fin 1650000, D' (ix2 e (0 : Fin 1)) = wrap (dst2 ei e))
    (hD : ∀ e : Fin 1650000, D (ix2 e (0 : Fin 1)) = dst2 ei e)
    (NB : FVec Ideal ⟨2, ![1650000, C]⟩ .f32)
    (hNB : ∀ (e : Fin 1650000) (k : Fin C), NB (ix2 e k) = mulf (Host.gather gv cv S') (Host.gather gv cv D') (ix1 e))
    (r : Fin 50000) (k : Fin C) :
    Host.scatterAdd (F := Ideal) sd Z D (mulf (Host.gather gd XW S) NB) (ix2 r k)
      = (∑ e ∈ into ei r, XW (ix2 (node (src ei e)) k) * weight ei e)
        + XW (ix2 r k) * ((c ei r : EReal) * (c ei r : EReal)) := by
  rw [scatter_weighted_apply (by decide) gd wfg hgd sd wfs hsd gv wfv hgv Z XW hZ cv S S' D' D NB hNB r k]
  have hterm : ∀ e : Fin 1650000, XW (ix2 (clampRow 50000 (by decide) S e) k)
        * (cv (ix1 (clampRow 50000 (by decide) S' e)) * cv (ix1 (clampRow 50000 (by decide) D' e)))
      = XW (ix2 (node (src2 ei e)) k)
        * ((c ei (node (src2 ei e)) : EReal) * (c ei (node (dst2 ei e)) : EReal)) := by
    intro e
    rw [clampRow_wrap S e _ (hS e), clampRow_wrap S' e _ (hS' e), clampRow_wrap D' e _ (hD' e), hcv, hcv]
  have hL : ∀ e : Fin 1600000, src2 ei (left e) = src ei e := fun e => ext_left _ e
  have hL' : ∀ e : Fin 1600000, dst2 ei (left e) = dst ei e := fun e => ext_left _ e
  have hR : node (src2 ei (loop r)) = r := by
    unfold src2; rw [ext_loop]; exact node_word r
  have hR' : node (dst2 ei (loop r)) = r := by
    unfold dst2; rw [ext_loop]; exact node_word r
  have hsplit := sum_landing ei r (fun e => XW (ix2 (node (src2 ei e)) k)
        * ((c ei (node (src2 ei e)) : EReal) * (c ei (node (dst2 ei e)) : EReal)))
  simp only [hL, hL', hR, hR'] at hsplit
  rw [Finset.sum_congr rfl (fun e _ => hterm e)]
  have hland : landing D r = Finset.univ.filter (fun e : Fin 1650000 => (dst2 ei e).toInt = (r.val : Int)) := by
    unfold landing
    exact Finset.filter_congr (fun e _ => by rw [hD e])
  rw [hland, hsplit]
  unfold weight
  rfl

end Cert.ReferenceIdeal.RefValue

end
-- ==== Proof.KRead3.lean ====
/-
  The messages, the squared factor's column and the bias rows of the idealized kernel program read at an index.

  The messages of a node array L at (r, k): rows gathered along the wrapped source words, each scaled by its edge's
  weight (the weights carried as an array constant along columns), added into zeros along the target words — the sum
  over the edges into r of L at the edge's source node, column k, times the edge's weight (the general reading of that
  arrangement, for any numbers of nodes, edges and columns, is the imported layer module's).
-/
import proofs.«125733_j4569845203117_1_alg».proof.Proof.KRead2
import proofs.«125733_j4569845203117_1_alg».proof.Proof.RefLayer
import Idealize.ShloMosaic.Lib.Pipeline.Value
import Idealize.ShloMosaic.Lib.ValueIdx
import Idealize.ShloMosaic.Lib.IdealHost

noncomputable section

namespace Cert.KernelIdeal.KHost

open Idealize.ShloMosaic Idealize.ShloMosaic.ValueIdx Cert.KernelIdeal Cert.KernelIdeal.Facts₀ Cert.KernelIdeal.Facts
open Cert.ScatterGather Cert.GraphMean

variable (ei : IVec S2x1600000 32)

/-- The column-constant array of edge weights at `(e, k)`: the product of the two gathered factors of edge `e`. -/
theorem normCols_apply {C : Nat}
    (h : (⟨2, ![1600000, 1]⟩ : Shape).BroadcastsInDim ⟨2, ![1600000, C]⟩ ![0, 1]) (e : Fin 1600000) (k : Fin C) :
    broadcastInDim (⟨2, ![1600000, C]⟩ : Shape) ![0, 1] h
      (broadcastInDim S1600000x1 ![0] bcast_S1600000_S1600000x1_0 (normV ei)) (ix2 e k) = normV ei (ix1 e) := by
  generalize normV ei = w
  rw [broadcastInDim_apply ![0, 1] h _ (ix2 e k) (ix2 e (0 : Fin 1))
    (fun a => match a with
      | ⟨0, _⟩ => by show e.val = if (1600000 : Nat) = 1 then 0 else e.val; rw [if_neg (by omega)]
      | ⟨1, _⟩ => by show (0 : Nat) = if (1 : Nat) = 1 then 0 else k.val; rw [if_pos rfl])]
  exact broadcastInDim_apply ![0] bcast_S1600000_S1600000x1_0 w (ix2 e (0 : Fin 1)) (ix1 e)
    (fun a => by
      obtain rfl : a = 0 := Subsingleton.elim _ _
      show e.val = if (1600000 : Nat) = 1 then 0 else e.val
      rw [if_neg (by omega)])

/-- A term of the messages: the two gathered factors of edge `e` are the specification's weight. -/
theorem weight_term (e : Fin 1600000) :
    dinvV ei (ix1 (clampRow 50000 (by decide) (colV (wrapV (srcV ei))) e))
      * dinvV ei (ix1 (clampRow 50000 (by decide) (colV (wrapV (dstV ei))) e)) = Cert.Gcn2.weight ei e := by
  unfold Cert.Gcn2.weight
  rw [clampRow_wrap, clampRow_wrap, dinvV_apply, dinvV_apply, srcV_apply, dstV_apply]

theorem agg64_apply (L : FVec Ideal S50000x64 .f32) (r : Fin 50000) (k : Fin 64) :
    agg64 ei L (ix2 r k) = ∑ e ∈ Cert.Gcn2.into ei r, L (ix2 (Cert.Gcn2.node (Cert.Gcn2.src ei e)) k) * Cert.Gcn2.weight ei e := by
  have wfg : GatherDims.WF ⟨2, ![50000, 64]⟩ ⟨2, ![1600000, 1]⟩ ⟨2, ![1600000, 64]⟩ [1] [0] [] [0] [] 1 ![1, 64] :=
    gather_S50000x64_S1600000x1_S1600000x64_1_0_n_n_0_1_164.wf
  have wfs : ScatterDims.WF ⟨2, ![50000, 64]⟩ ⟨2, ![1600000, 1]⟩ ⟨2, ![1600000, 64]⟩ [1] [0] [0] 1 :=
    scatter_S50000x64_S1600000x1_S1600000x64_1_0_0_1.wf
  have wfv : GatherDims.WF ⟨1, ![50000]⟩ ⟨2, ![1600000, 1]⟩ ⟨1, ![1600000]⟩ [] [0] [] [0] [] 1 ![1] :=
    gather_S50000_S1600000x1_S1600000_n_0_n_n_0_1_1.wf
  unfold agg64
  rw [Cert.ReferenceIdeal.RefValue.scatter_weighted_apply (by decide)
    gather_S50000x64_S1600000x1_S1600000x64_1_0_n_n_0_1_164 wfg rfl
    scatter_S50000x64_S1600000x1_S1600000x64_1_0_0_1 wfs rfl
    gather_S50000_S1600000x1_S1600000_n_0_n_n_0_1_1 wfv rfl
    _ L (Cert.Gcn.bcast_zero_f32 bcast_S_S50000x64) (dinvV ei)
    (colV (wrapV (srcV ei))) (colV (wrapV (srcV ei))) (colV (wrapV (dstV ei))) (colV (dstV ei)) _
    (fun e k => normCols_apply ei bcast_S1600000x1_S1600000x64_0_1 e k) r k, landing_dst]
  refine Finset.sum_congr rfl fun e _ => ?_
  rw [weight_term, clampRow_wrap, srcV_apply]

theorem agg3_apply (L : FVec Ideal S50000x3 .f32) (r : Fin 50000) (k : Fin 3) :
    agg3 ei L (ix2 r k) = ∑ e ∈ Cert.Gcn2.into ei r, L (ix2 (Cert.Gcn2.node (Cert.Gcn2.src ei e)) k) * Cert.Gcn2.weight ei e := by
  have wfg : GatherDims.WF ⟨2, ![50000, 3]⟩ ⟨2, ![1600000, 1]⟩ ⟨2, ![1600000, 3]⟩ [1] [0] [] [0] [] 1 ![1, 3] :=
    gather_S50000x3_S1600000x1_S1600000x3_1_0_n_n_0_1_13.wf
  have wfs : ScatterDims.WF ⟨2, ![50000, 3]⟩ ⟨2, ![1600000, 1]⟩ ⟨2, ![1600000, 3]⟩ [1] [0] [0] 1 :=
    scatter_S50000x3_S1600000x1_S1600000x3_1_0_0_1.wf
  have wfv : GatherDims.WF ⟨1, ![50000]⟩ ⟨2, ![1600000, 1]⟩ ⟨1, ![1600000]⟩ [] [0] [] [0] [] 1 ![1] :=
    gather_S50000_S1600000x1_S1600000_n_0_n_n_0_1_1.wf
  unfold agg3
  rw [Cert.ReferenceIdeal.RefValue.scatter_weighted_apply (by decide)
    gather_S50000x3_S1600000x1_S1600000x3_1_0_n_n_0_1_13 wfg rfl
    scatter_S50000x3_S1600000x1_S1600000x3_1_0_0_1 wfs rfl
    gather_S50000_S1600000x1_S1600000_n_0_n_n_0_1_1 wfv rfl
    _ L (Cert.Gcn.bcast_zero_f32 bcast_S_S50000x3) (dinvV ei)
    (colV (wrapV (srcV ei))) (colV (wrapV (srcV ei))) (colV (wrapV (dstV ei))) (colV (dstV ei)) _
    (fun e k => normCols_apply ei bcast_S1600000x1_S1600000x3_0_1 e k) r k, landing_dst]
  refine Finset.sum_congr rfl fun e _ => ?_
  rw [weight_term, clampRow_wrap, srcV_apply]

theorem d2col_apply (r : Fin 50000) :
    d2col ei (ix2 r (0 : Fin 1)) = (Cert.Gcn2.c ei r : EReal) * (Cert.Gcn2.c ei r : EReal) := by
  unfold d2col
  rw [shapeCast_apply _ shapeCasts_S50000_S50000x1 (ix2 r (0 : Fin 1)) (ix1 r)
    (by rewrite [Shape.rowMajor_val_two, Shape.rowMajor_val_one]; show r.val = r.val * 1 + 0; omega)]
  exact d2V_apply ei r

theorem b1row_apply (b1 : FVec Ideal S64 .f32) (k : Fin 64) : b1row b1 (ix2 (0 : Fin 1) k) = b1 (ix1 k) := by
  unfold b1row
  exact shapeCast_apply _ shapeCasts_S64_S1x64 (ix2 (0 : Fin 1) k) (ix1 k)
    (by rewrite [Shape.rowMajor_val_two, Shape.rowMajor_val_one]; show k.val = 0 * 64 + k.val; omega)

theorem b2row_apply (b2 : FVec Ideal S3 .f32) (k : Fin 3) : b2row b2 (ix2 (0 : Fin 1) k) = b2 (ix1 k) := by
  unfold b2row
  exact shapeCast_apply _ shapeCasts_S3_S1x3 (ix2 (0 : Fin 1) k) (ix1 k)
    (by rewrite [Shape.rowMajor_val_two, Shape.rowMajor_val_one]; show k.val = 0 * 3 + k.val; omega)

end Cert.KernelIdeal.KHost

end
-- ==== Proof.KSpec.lean ====
/-
  The idealized kernel program's composition is the specification's function.

  At node r: the first projection is the specification's `lin1`; its messages (the sum over the edges into r of the
  source node's row times the edge's weight) plus its own row times the squared factor plus the bias are the
  specification's layer, so the clipped combination is `hid`; the second projection of that is `lin2`; its combination
  is `logits`; and a row less its maximum less the logarithm of the sum of the exponentials of the shifted row is
  `out`. Every step is a reading at an index; no law of arithmetic is used.
-/
import proofs.«125733_j4569845203117_1_alg».proof.Proof.KOut
import proofs.«125733_j4569845203117_1_alg».proof.Proof.KRead3

noncomputable section

namespace Cert.KernelIdeal.KHost

open Idealize.ShloMosaic Idealize.ShloMosaic.ValueIdx Cert.KernelIdeal

variable (ei : IVec S2x1600000 32) (x : FVec Ideal S50000x128 .f32) (W1 : FVec Ideal S128x64 .f32) (b1 : FVec Ideal S64 .f32)
  (W2 : FVec Ideal S64x3 .f32) (b2 : FVec Ideal S3 .f32)

/-- The first combination at node `r`, column `k` is the specification's first layer. -/
theorem comb1 (r : Fin 50000) (k : Fin 64) :
    Cert.Gcn2.combine (agg64 ei (Cert.Gcn2.proj1Arr x W1)) (Cert.Gcn2.proj1Arr x W1) (d2col ei) (b1row b1) r k
      = Cert.Gcn2.layer ei (Cert.Gcn2.lin1 x W1) (fun k => b1 (ix1 k)) r k := by
  unfold Cert.Gcn2.combine Cert.Gcn2.layer
  rw [agg64_apply, d2col_apply, b1row_apply]
  rfl

/-- The hidden layer at node `r`, column `k`. -/
theorem hid_eq (r : Fin 50000) (k : Fin 64) : (Cert.Gcn2.reluArr (agg64 ei (Cert.Gcn2.proj1Arr x W1)) (Cert.Gcn2.proj1Arr x W1) (d2col ei) (b1row b1)) (ix2 r k) = Cert.Gcn2.hid ei x W1 b1 r k := by
  show max (Cert.Gcn2.combine (agg64 ei (Cert.Gcn2.proj1Arr x W1)) (Cert.Gcn2.proj1Arr x W1) (d2col ei) (b1row b1) r k) 0 = _
  rw [comb1]
  rfl

/-- The second projection at node `r`, class `k`. -/
theorem lin2_eq (r : Fin 50000) (k : Fin 3) : (Cert.Gcn2.proj2Arr (Cert.Gcn2.reluArr (agg64 ei (Cert.Gcn2.proj1Arr x W1)) (Cert.Gcn2.proj1Arr x W1) (d2col ei) (b1row b1)) W2) (ix2 r k) = Cert.Gcn2.lin2 ei x W1 b1 W2 r k := by
  show ∑ j : Fin 64, (Cert.Gcn2.reluArr (agg64 ei (Cert.Gcn2.proj1Arr x W1)) (Cert.Gcn2.proj1Arr x W1) (d2col ei) (b1row b1)) (ix2 r j) * W2 (ix2 j k) = ∑ j : Fin 64, Cert.Gcn2.hid ei x W1 b1 r j * W2 (ix2 j k)
  exact Finset.sum_congr rfl fun j _ => by rw [hid_eq]

/-- The second combination at node `r`, class `k` is the specification's logits. -/
theorem comb2 (r : Fin 50000) (k : Fin 3) :
    Cert.Gcn2.combine (agg3 ei (Cert.Gcn2.proj2Arr (Cert.Gcn2.reluArr (agg64 ei (Cert.Gcn2.proj1Arr x W1)) (Cert.Gcn2.proj1Arr x W1) (d2col ei) (b1row b1)) W2)) (Cert.Gcn2.proj2Arr (Cert.Gcn2.reluArr (agg64 ei (Cert.Gcn2.proj1Arr x W1)) (Cert.Gcn2.proj1Arr x W1) (d2col ei) (b1row b1)) W2) (d2col ei) (b2row b2) r k = Cert.Gcn2.logits ei x W1 b1 W2 b2 r k := by
  unfold Cert.Gcn2.combine Cert.Gcn2.logits Cert.Gcn2.layer
  rw [agg3_apply, d2col_apply, b2row_apply]
  simp only [lin2_eq]

/-- THE KERNEL PROGRAM'S VALUE is the specification's result array. -/
theorem kOut_eq : kOut ei x W1 b1 W2 b2 = Cert.Gcn2.outArr ei x W1 b1 W2 b2 := by
  funext i
  obtain ⟨r, k, rfl⟩ : ∃ (r : Fin 50000) (k : Fin 3), i = ix2 r k := ⟨i 0, i 1, eq_ix2 i⟩
  show Cert.Gcn2.logSoftmax3 (fun k' => Cert.Gcn2.combine (agg3 ei (Cert.Gcn2.proj2Arr (Cert.Gcn2.reluArr (agg64 ei (Cert.Gcn2.proj1Arr x W1)) (Cert.Gcn2.proj1Arr x W1) (d2col ei) (b1row b1)) W2)) (Cert.Gcn2.proj2Arr (Cert.Gcn2.reluArr (agg64 ei (Cert.Gcn2.proj1Arr x W1)) (Cert.Gcn2.proj1Arr x W1) (d2col ei) (b1row b1)) W2) (d2col ei) (b2row b2) r k') k
    = Cert.Gcn2.out ei x W1 b1 W2 b2 r k
  rw [show (fun k' => Cert.Gcn2.combine (agg3 ei (Cert.Gcn2.proj2Arr (Cert.Gcn2.reluArr (agg64 ei (Cert.Gcn2.proj1Arr x W1)) (Cert.Gcn2.proj1Arr x W1) (d2col ei) (b1row b1)) W2)) (Cert.Gcn2.proj2Arr (Cert.Gcn2.reluArr (agg64 ei (Cert.Gcn2.proj1Arr x W1)) (Cert.Gcn2.proj1Arr x W1) (d2col ei) (b1row b1)) W2) (d2col ei) (b2row b2) r k')
      = fun k' => Cert.Gcn2.logits ei x W1 b1 W2 b2 r k' from funext fun k' => comb2 ei x W1 b1 W2 b2 r k']
  rfl

end Cert.KernelIdeal.KHost

end
-- ==== Proof.RefTail.lean ====
/-
  The row normalisation of the reference (its log_softmax), read at a node and a class.

  The reference takes the maximum of a row of three by folding max from -inf over the row, takes the maximum of that
  with -inf once more, subtracts it from the row, and subtracts the logarithm of  0 + Σ exp  of the shifted row.
  -inf is the bottom element of the extended reals, so  max ⊥ a = a  and the row maximum is the fold of max from ⊥;
  and  0 + s = s.
-/
import Idealize.ShloMosaic.PureOps.Ideal
import Idealize.ShloMosaic.PureOps.Ideal.Laws
import Idealize.ShloMosaic.PureOps.Reduce
import Idealize.ShloMosaic.Lib.ValueIdx
import proofs.«125733_j4569845203117_1_alg».proof.Proof.Spec

noncomputable section

namespace Cert.ReferenceIdeal.RefValue

open Idealize.ShloMosaic Idealize.ShloMosaic.ValueIdx Cert.Gcn2

/-- The word 0xFF800000 is -inf, the bottom element. -/
theorem ofBits_neg_inf_f32 : Ideal.ofBits .f32 0xFF800000#32 = (⊥ : EReal) := by
  simp [Ideal.ofBits, Ideal.ieee]

/-- The maximum-reduction of a [50000, 3] array over its columns, at row r: the fold of max from the initial value's
    element over the three columns. -/
theorem rowmax_apply (X : FVec Ideal ⟨2, ![50000, 3]⟩ .f32) (init : FVec Ideal ⟨0, ![]⟩ .f32)
    (h' : (⟨2, ![50000, 3]⟩ : Shape).ReducesTo [1] ⟨1, ![50000]⟩) (hu : 0 < (⟨0, ![]⟩ : Shape).numel) (r : Fin 50000) :
    Host.reduce FloatOps.maximumf X init h' hu (ix1 r)
      = (Finset.univ : Finset (Fin 3)).fold max (init (Shape.Idx.first hu)) (fun k => X (ix2 r k)) := by
  rw [Host.reduce_eq_fold_single FloatOps.maximumf X init h' (by decide) hu (ix1 r)]
  refine Finset.fold_congr (fun k _ => ?_)
  exact congrArg X (funext fun a => Fin.ext (by match a with | ⟨0, _⟩ => rfl | ⟨1, _⟩ => rfl))

/-- The reference's shift: the maximum with -inf of the fold of max from -inf is the fold of max from ⊥. -/
theorem max_bot_fold (v : Fin 3 → EReal) :
    max (Ideal.ofBits .f32 0xFF800000#32) ((Finset.univ : Finset (Fin 3)).fold max (Ideal.ofBits .f32 0xFF800000#32) v)
      = (Finset.univ : Finset (Fin 3)).fold max ⊥ v := by
  rw [ofBits_neg_inf_f32]
  exact max_eq_right bot_le

end Cert.ReferenceIdeal.RefValue

end
-- ==== Proof.RefConcat.lean ====
/-
  The concatenation of a word array over the given edges with the node numbers, read at an extended edge:
  the array's word at a given edge, the node's number at a loop edge.
-/
import Idealize.ShloMosaic.PureOps.Ideal
import Idealize.ShloMosaic.Lib.ValueIdx
import Idealize.ShloMosaic.Lib.Pipeline.Value
import proofs.«125733_j4569845203117_1_alg».proof.Proof.RefIdx

noncomputable section

namespace Cert.ReferenceIdeal.RefValue

open Idealize.ShloMosaic Idealize.ShloMosaic.ValueIdx Cert.Gcn2

/-- A word array over the given edges followed by the node numbers, at extended edge e. -/
theorem concat_iota_apply (a : IVec ⟨1, ![1600000]⟩ 32)
    (h : Shape.Concatenates [(⟨1, ![1600000]⟩ : Shape), (⟨1, ![50000]⟩ : Shape)] ⟨1, ![1650000]⟩ 0) (e : Fin 1650000) :
    concatenate (⟨1, ![1650000]⟩ : Shape) 0
        [⟨(⟨1, ![1600000]⟩ : Shape), a⟩, ⟨(⟨1, ![50000]⟩ : Shape), iotaInDim (⟨1, ![50000]⟩ : Shape) 32 0⟩] h (ix1 e)
      = ext (fun e' => a (ix1 e')) e := by
  unfold ext
  by_cases he : e.val < 1600000
  · rw [dif_pos he]
    exact concatenate_pair_apply_left (0 : Fin 1) a _ h (ix1 e) rfl (ix1 ⟨e.val, he⟩)
      (fun b => by obtain rfl : b = 0 := Subsingleton.elim _ _; rfl)
  · rw [dif_neg he]
    have hlt : e.val - 1600000 < 50000 := by have := e.isLt; omega
    rw [concatenate_pair_apply_right (s₂ := (⟨1, ![50000]⟩ : Shape)) (0 : Fin 1) a
      (iotaInDim (⟨1, ![50000]⟩ : Shape) 32 0) h (ix1 e) rfl rfl (ix1 (⟨e.val - 1600000, hlt⟩ : Fin 50000))
      (fun b hb => by obtain rfl : b = 0 := Subsingleton.elim _ _; exact absurd rfl hb)
      (by show e.val - 1600000 + 1600000 = e.val; omega)]
    rfl

end Cert.ReferenceIdeal.RefValue

end
-- ==== Proof.RefDeg.lean ====
/-
  The degrees and the normalising factors of the reference.

  The reference adds a one into node r for every extended edge whose target word reads as r: the given edges into r
  and r's own loop edge, so the degree of r is  #(edges into r) + 1,  a positive real. The factor of r,
  selected as  1/√deg  where the degree is positive and 0 elsewhere, is therefore the real  1/√(#(edges into r) + 1).
-/
import Idealize.ShloMosaic.PureOps.Ideal
import Idealize.ShloMosaic.PureOps.Ideal.Laws
import Idealize.ShloMosaic.Lib.ValueIdx
import proofs.«125733_j4569845203117_1_alg».proof.Proof.LibScatterGather
import proofs.«125733_j4569845203117_1_alg».proof.Proof.LibGraphMean
import proofs.«125733_j4569845203117_1_alg».proof.Proof.RefIdx

noncomputable section

namespace Cert.ReferenceIdeal.RefValue

open Idealize.ShloMosaic Idealize.ShloMosaic.ValueIdx Cert.Gcn2 Cert.ScatterGather Cert.GraphMean

variable (ei : IVec ⟨2, ![2, 1600000]⟩ 32)

/-- The extended edges that land on node r: the given edges into r and r's loop edge. -/
theorem landing_card (D : IVec ⟨2, ![1650000, 1]⟩ 32) (hD : ∀ e : Fin 1650000, D (ix2 e (0 : Fin 1)) = dst2 ei e)
    (r : Fin 50000) : (landing D r).card = (into ei r).card + 1 := by
  unfold landing
  simp only [hD]
  rw [Finset.card_eq_sum_ones, sum_landing ei r (fun _ => 1), Finset.sum_const, smul_eq_mul, mul_one]

/-- The degree of node r as the reference accumulates it: ones added into zeros along the extended target words. -/
theorem deg_apply (d : ScatterDims ⟨1, ![50000]⟩ ⟨2, ![1650000, 1]⟩ ⟨1, ![1650000]⟩)
    (wf : ScatterDims.WF ⟨1, ![50000]⟩ ⟨2, ![1650000, 1]⟩ ⟨1, ![1650000]⟩ [] [0] [0] 1) (hd : d = flatScatter 50000 1650000 wf)
    (Z : FVec Ideal ⟨1, ![50000]⟩ .f32) (hZ : Z = fun _ => 0)
    (D : IVec ⟨2, ![1650000, 1]⟩ 32) (hD : ∀ e : Fin 1650000, D (ix2 e (0 : Fin 1)) = dst2 ei e)
    (U : FVec Ideal ⟨1, ![1650000]⟩ .f32) (hU : U = fun _ => 1) (r : Fin 50000) :
    Host.scatterAdd (F := Ideal) d Z D U (ix1 r) = ((((into ei r).card : ℝ) + 1 : ℝ) : EReal) := by
  rw [host_count_apply d wf hd Z hZ D U hU r, landing_card ei D hD r]
  push_cast
  rfl

/-- The factor selected from a degree that is the count plus one: the real 1/√(count + 1). -/
theorem dinv_apply (r : Fin 50000) (d : EReal) (hd : d = ((((into ei r).card : ℝ) + 1 : ℝ) : EReal)) :
    Scalar.select (Ideal.cmp .ogt d 0) (Ideal.rsqrt d) 0 = (c ei r : EReal) := by
  subst hd
  have hpos : (0 : ℝ) < ((into ei r).card : ℝ) + 1 := by positivity
  have hlt : (0 : EReal) < ((((into ei r).card : ℝ) + 1 : ℝ) : EReal) := by exact_mod_cast hpos
  have hb : Ideal.cmp .ogt ((((into ei r).card : ℝ) + 1 : ℝ) : EReal) 0 = 1#1 := by
    show BitVec.ofBool (decide ((0 : EReal) < ((((into ei r).card : ℝ) + 1 : ℝ) : EReal))) = 1#1
    rw [decide_eq_true hlt]
    rfl
  rw [hb, select_one, Ideal.rsqrt_coe, if_neg (not_lt.mpr hpos.le), if_neg hpos.ne']
  rfl

end Cert.ReferenceIdeal.RefValue

end
-- ==== Proof.RefEdges.lean ====
/-
  The stages of the reference that depend on the edge list only, read at an edge or a node, for both layers
  (the printed program computes them twice, with the same formulas).

  * the source and target rows of the edge list, and their concatenations with the node numbers: the extended source
    and target words;
  * the extended words wrapped (a negative word counted from the end), as the gathers' index columns;
  * the degrees: ones added into zeros along the extended target words, the count of edges into a node plus one;
  * the factors: 1/√degree selected where the degree is positive, the real 1/√(count + 1).
-/
import Idealize.ShloMosaic.PureOps.Ideal
import Idealize.ShloMosaic.PureOps.Ideal.Laws
import Idealize.ShloMosaic.Lib.ValueIdx
import Idealize.ShloMosaic.Lib.Pipeline.Value
import proofs.«125733_j4569845203117_1_alg».proof.Proof.RefRead
import proofs.«125733_j4569845203117_1_alg».proof.Proof.Spec
import proofs.«125733_j4569845203117_1_alg».proof.Proof.RefIdx
import proofs.«125733_j4569845203117_1_alg».proof.Proof.RefConcat
import proofs.«125733_j4569845203117_1_alg».proof.Proof.RefDeg

noncomputable section

namespace Cert.ReferenceIdeal.RefValue

open Cert.ReferenceIdeal Cert.ReferenceIdeal.Gen Cert.ReferenceIdeal.ReadP Idealize.ShloMosaic Idealize.ShloMosaic.ValueIdx
  Idealize.ShloMosaic.StableHlo Cert.Gcn2

/-- The zero word, as the ideal instance reads it. -/
theorem zero_word : (FloatOps.ofBits .f32 0x00000000#32 : Ideal .f32) = (0 : EReal) := Ideal.ofBits_zero_f32

variable (x1 : (⟨S2x1600000, .i32⟩ : BufTy).Contents (Elt Ideal))

/-! ## The rows of the edge list -/

theorem v1_at (e : Fin 1600000) : val_main_v1 (F := Ideal) x1 (ix1 e) = src x1 e := by
  rw [val_main_v1_apply, val_main_v0_apply]
  exact congrArg x1 (funext fun a => Fin.ext (by
    match a with
    | ⟨0, _⟩ => rfl
    | ⟨1, _⟩ => exact Nat.mod_eq_of_lt e.isLt))

theorem v3_at (e : Fin 1600000) : val_main_v3 (F := Ideal) x1 (ix1 e) = dst x1 e := by
  rw [val_main_v3_apply, val_main_v2_apply]
  exact congrArg x1 (funext fun a => Fin.ext (by
    match a with
    | ⟨0, _⟩ => rfl
    | ⟨1, _⟩ => exact Nat.mod_eq_of_lt e.isLt))

/-! ## The extended words -/

theorem v6_at (e : Fin 1650000) : val_main_v6 (F := Ideal) x1 (ix1 e) = src2 x1 e := by
  unfold val_main_v6
  exact (concat_iota_apply (val_main_v1 (F := Ideal) x1) concatenates_S1600000_S50000_S1650000_d0 e).trans
    (congrArg (fun a => ext a e) (funext fun e' => v1_at x1 e'))

theorem v7_at (e : Fin 1650000) : val_main_v7 (F := Ideal) x1 (ix1 e) = dst2 x1 e := by
  unfold val_main_v7
  exact (concat_iota_apply (val_main_v3 (F := Ideal) x1) concatenates_S1600000_S50000_S1650000_d0 e).trans
    (congrArg (fun a => ext a e) (funext fun e' => v3_at x1 e'))

theorem v50_at (e : Fin 1650000) : val_main_v50 (F := Ideal) x1 (ix1 e) = src2 x1 e := by
  unfold val_main_v50
  exact (concat_iota_apply (val_main_v1 (F := Ideal) x1) concatenates_S1600000_S50000_S1650000_d0 e).trans
    (congrArg (fun a => ext a e) (funext fun e' => v1_at x1 e'))

theorem v51_at (e : Fin 1650000) : val_main_v51 (F := Ideal) x1 (ix1 e) = dst2 x1 e := by
  unfold val_main_v51
  exact (concat_iota_apply (val_main_v3 (F := Ideal) x1) concatenates_S1600000_S50000_S1650000_d0 e).trans
    (congrArg (fun a => ext a e) (funext fun e' => v3_at x1 e'))

/-! ## The index columns: the target words as they stand, the wrapped source and target words -/

theorem v10_at (e : Fin 1650000) : val_main_v10 (F := Ideal) x1 (ix2 e (0 : Fin 1)) = dst2 x1 e := by
  have hi : idx_main_v10 (ix2 e (0 : Fin 1)) = ix1 e := funext fun a => Fin.ext (by match a with | ⟨0, _⟩ => rfl)
  rw [val_main_v10_apply, hi, v7_at]

theorem v42_at (e : Fin 1650000) : val_main_v42 (F := Ideal) x1 (ix2 e (0 : Fin 1)) = dst2 x1 e := by
  have hi : idx_main_v42 (ix2 e (0 : Fin 1)) = ix1 e := funext fun a => Fin.ext (by match a with | ⟨0, _⟩ => rfl)
  rw [val_main_v42_apply, hi, v7_at]

theorem v54_at (e : Fin 1650000) : val_main_v54 (F := Ideal) x1 (ix2 e (0 : Fin 1)) = dst2 x1 e := by
  have hi : idx_main_v54 (ix2 e (0 : Fin 1)) = ix1 e := funext fun a => Fin.ext (by match a with | ⟨0, _⟩ => rfl)
  rw [val_main_v54_apply, hi, v51_at]

theorem v86_at (e : Fin 1650000) : val_main_v86 (F := Ideal) x1 (ix2 e (0 : Fin 1)) = dst2 x1 e := by
  have hi : idx_main_v86 (ix2 e (0 : Fin 1)) = ix1 e := funext fun a => Fin.ext (by match a with | ⟨0, _⟩ => rfl)
  rw [val_main_v86_apply, hi, v51_at]

theorem v21_at (e : Fin 1650000) : val_main_v21 (F := Ideal) x1 (ix2 e (0 : Fin 1)) = wrap (src2 x1 e) := by
  have hi : idx_main_v21 (ix2 e (0 : Fin 1)) = ix1 e := funext fun a => Fin.ext (by match a with | ⟨0, _⟩ => rfl)
  rw [val_main_v21_apply, hi, val_main_v20_apply, val_main_v17_apply, val_main_v19_apply, val_main_v16_apply,
    val_main_v18_apply, val_main_c_apply, val_main_c_3_apply, v6_at]
  rfl

theorem v28_at (e : Fin 1650000) : val_main_v28 (F := Ideal) x1 (ix2 e (0 : Fin 1)) = wrap (dst2 x1 e) := by
  have hi : idx_main_v28 (ix2 e (0 : Fin 1)) = ix1 e := funext fun a => Fin.ext (by match a with | ⟨0, _⟩ => rfl)
  rw [val_main_v28_apply, hi, val_main_v27_apply, val_main_v24_apply, val_main_v26_apply, val_main_v23_apply,
    val_main_v25_apply, val_main_c_4_apply, val_main_c_5_apply, v7_at]
  rfl

theorem v36_at (e : Fin 1650000) : val_main_v36 (F := Ideal) x1 (ix2 e (0 : Fin 1)) = wrap (src2 x1 e) := by
  have hi : idx_main_v36 (ix2 e (0 : Fin 1)) = ix1 e := funext fun a => Fin.ext (by match a with | ⟨0, _⟩ => rfl)
  rw [val_main_v36_apply, hi, val_main_v35_apply, val_main_v32_apply, val_main_v34_apply, val_main_v31_apply,
    val_main_v33_apply, val_main_c_6_apply, val_main_c_7_apply, v6_at]
  rfl

theorem v65_at (e : Fin 1650000) : val_main_v65 (F := Ideal) x1 (ix2 e (0 : Fin 1)) = wrap (src2 x1 e) := by
  have hi : idx_main_v65 (ix2 e (0 : Fin 1)) = ix1 e := funext fun a => Fin.ext (by match a with | ⟨0, _⟩ => rfl)
  rw [val_main_v65_apply, hi, val_main_v64_apply, val_main_v61_apply, val_main_v63_apply, val_main_v60_apply,
    val_main_v62_apply, val_main_c_13_apply, val_main_c_14_apply, v50_at]
  rfl

theorem v72_at (e : Fin 1650000) : val_main_v72 (F := Ideal) x1 (ix2 e (0 : Fin 1)) = wrap (dst2 x1 e) := by
  have hi : idx_main_v72 (ix2 e (0 : Fin 1)) = ix1 e := funext fun a => Fin.ext (by match a with | ⟨0, _⟩ => rfl)
  rw [val_main_v72_apply, hi, val_main_v71_apply, val_main_v68_apply, val_main_v70_apply, val_main_v67_apply,
    val_main_v69_apply, val_main_c_15_apply, val_main_c_16_apply, v51_at]
  rfl

theorem v80_at (e : Fin 1650000) : val_main_v80 (F := Ideal) x1 (ix2 e (0 : Fin 1)) = wrap (src2 x1 e) := by
  have hi : idx_main_v80 (ix2 e (0 : Fin 1)) = ix1 e := funext fun a => Fin.ext (by match a with | ⟨0, _⟩ => rfl)
  rw [val_main_v80_apply, hi, val_main_v79_apply, val_main_v76_apply, val_main_v78_apply, val_main_v75_apply,
    val_main_v77_apply, val_main_c_17_apply, val_main_c_18_apply, v50_at]
  rfl

/-! ## The degrees and the factors -/

theorem v11_at (r : Fin 50000) :
    val_main_v11 (F := Ideal) x1 (ix1 r) = ((((into x1 r).card : ℝ) + 1 : ℝ) : EReal) := by
  unfold val_main_v11
  exact deg_apply x1 scatter_S50000_S1650000x1_S1650000_n_0_0_1 scatter_S50000_S1650000x1_S1650000_n_0_0_1_wf rfl
    (val_main_v9 (F := Ideal))
    (funext fun i => by rw [val_main_v9_apply, val_main_cst_0_apply]; exact Ideal.ofBits_zero_f32)
    (val_main_v10 (F := Ideal) x1) (fun e => v10_at x1 e)
    (val_main_v8 (F := Ideal))
    (funext fun i => by rw [val_main_v8_apply, val_main_cst_apply]; exact ofBits_one_f32) r

theorem v55_at (r : Fin 50000) :
    val_main_v55 (F := Ideal) x1 (ix1 r) = ((((into x1 r).card : ℝ) + 1 : ℝ) : EReal) := by
  unfold val_main_v55
  exact deg_apply x1 scatter_S50000_S1650000x1_S1650000_n_0_0_1 scatter_S50000_S1650000x1_S1650000_n_0_0_1_wf rfl
    (val_main_v53 (F := Ideal))
    (funext fun i => by rw [val_main_v53_apply, val_main_cst_10_apply]; exact Ideal.ofBits_zero_f32)
    (val_main_v54 (F := Ideal) x1) (fun e => v54_at x1 e)
    (val_main_v52 (F := Ideal))
    (funext fun i => by rw [val_main_v52_apply, val_main_cst_9_apply]; exact ofBits_one_f32) r

theorem v15_at (r : Fin 50000) : val_main_v15 (F := Ideal) x1 (ix1 r) = (c x1 r : EReal) := by
  rw [val_main_v15_apply, val_main_v13_apply, val_main_v14_apply, val_main_call0_v1_apply, val_main_call0_v0_apply,
    val_main_cst_2_apply, val_main_v12_apply, val_main_cst_1_apply, zero_word]
  simp only [Ideal.cmpf_def, Ideal.hostUnary_rsqrt_def]
  exact dinv_apply x1 r (val_main_v11 (F := Ideal) x1 (ix1 r)) (v11_at x1 r)

theorem v59_at (r : Fin 50000) : val_main_v59 (F := Ideal) x1 (ix1 r) = (c x1 r : EReal) := by
  rw [val_main_v59_apply, val_main_v57_apply, val_main_v58_apply, val_main_call2_v1_apply, val_main_call2_v0_apply,
    val_main_cst_12_apply, val_main_v56_apply, val_main_cst_11_apply, zero_word]
  simp only [Ideal.cmpf_def, Ideal.hostUnary_rsqrt_def]
  exact dinv_apply x1 r (val_main_v55 (F := Ideal) x1 (ix1 r)) (v55_at x1 r)

end Cert.ReferenceIdeal.RefValue

end
-- ==== Proof.RefValue.lean ====
/-
  The reference program computes the two-layer graph convolution  Cert.Gcn2.outArr.

  The stages of the printed reference, in program order, each read at an index as the corresponding quantity of the
  specification:  x · W1  is lin1;  the first scatter of the weighted gathered rows is the sum over the edges into a
  node plus the node's own row times its squared factor, and with the bias it is the layer;  clipped below at zero it is
  hid;  hid · W2 is lin2;  the second scatter with its bias is logits;  the row normalisation takes each row less
  its maximum less the logarithm of the sum of the exponentials of the shifted row.
-/
import Idealize.ShloMosaic.PureOps.Ideal
import Idealize.ShloMosaic.PureOps.Ideal.Laws
import Idealize.ShloMosaic.Lib.ValueIdx
import Idealize.ShloMosaic.Lib.Pipeline.Value
import proofs.«125733_j4569845203117_1_alg».proof.Proof.RefRead
import proofs.«125733_j4569845203117_1_alg».proof.Proof.Spec
import proofs.«125733_j4569845203117_1_alg».proof.Proof.RefIdx
import proofs.«125733_j4569845203117_1_alg».proof.Proof.RefLayer
import proofs.«125733_j4569845203117_1_alg».proof.Proof.RefTail
import proofs.«125733_j4569845203117_1_alg».proof.Proof.RefEdges

noncomputable section

namespace Cert.ReferenceIdeal.RefValue

open Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo Cert.Gcn2

variable (x0 : (⟨S50000x128, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S64x3, .f32⟩ : BufTy).Contents (Elt Ideal)) (x5 : (⟨S3, .f32⟩ : BufTy).Contents (Elt Ideal))

/-! ## The first layer -/

theorem v4_at (r : Fin 50000) (k : Fin 64) : val_main_v4 (F := Ideal) x0 x2 (ix2 r k) = lin1 x0 x2 r k := by
  rw [val_main_v4_apply]
  unfold lin1
  refine Finset.sum_congr rfl fun j _ => ?_
  have hl : lidx_main_v4 (ix2 r k) j = ix2 r j := funext fun a => Fin.ext (by match a with | ⟨0, _⟩ => rfl | ⟨1, _⟩ => rfl)
  have hr : ridx_main_v4 (ix2 r k) j = ix2 j k := funext fun a => Fin.ext (by match a with | ⟨0, _⟩ => rfl | ⟨1, _⟩ => rfl)
  rw [hl, hr]

theorem v43_at (r : Fin 50000) (k : Fin 64) :
    val_main_v43 (F := Ideal) x0 x1 x2 (ix2 r k)
      = (∑ e ∈ into x1 r, lin1 x0 x2 (node (src x1 e)) k * weight x1 e)
        + lin1 x0 x2 r k * ((c x1 r : EReal) * (c x1 r : EReal)) := by
  have h := layer_apply (C := 64) x1 gather_S50000x64_S1650000x1_S1650000x64_1_0_n_n_0_1_164 gather_S50000x64_S1650000x1_S1650000x64_1_0_n_n_0_1_164_wf rfl scatter_S50000x64_S1650000x1_S1650000x64_1_0_0_1 scatter_S50000x64_S1650000x1_S1650000x64_1_0_0_1_wf rfl
    gather_S50000_S1650000x1_S1650000_n_0_n_n_0_1_1 gather_S50000_S1650000x1_S1650000_n_0_n_n_0_1_1_wf rfl
    (val_main_v41 (F := Ideal)) (val_main_v4 (F := Ideal) x0 x2)
    (funext fun i => by rw [val_main_v41_apply, val_main_cst_8_apply]; exact Ideal.ofBits_zero_f32)
    (val_main_v15 (F := Ideal) x1) (v15_at x1)
    (val_main_v36 (F := Ideal) x1) (val_main_v21 (F := Ideal) x1) (val_main_v28 (F := Ideal) x1)
    (val_main_v42 (F := Ideal) x1) (v36_at x1) (v21_at x1) (v28_at x1) (v42_at x1)
    (val_main_v39 (F := Ideal) x1)
    (fun e k => by
      have hi : idx_main_v38 (idx_main_v39 (ix2 e k)) = ix1 e := funext fun a => Fin.ext (by match a with | ⟨0, _⟩ => rfl)
      rw [val_main_v39_apply, val_main_v38_apply, hi]
      rfl) r k
  simp only [v4_at] at h
  exact h

theorem v46_at (r : Fin 50000) (k : Fin 64) :
    val_main_v46 (F := Ideal) x0 x1 x2 x3 (ix2 r k) = layer x1 (lin1 x0 x2) (fun k => x3 (ix1 k)) r k := by
  have hi : idx_main_v44 (idx_main_v45 (ix2 r k)) = ix1 k := funext fun a => Fin.ext (by match a with | ⟨0, _⟩ => rfl)
  rw [val_main_v46_apply, val_main_v45_apply, val_main_v44_apply, hi, v43_at]
  rfl

theorem v47_at (r : Fin 50000) (k : Fin 64) :
    val_main_v47 (F := Ideal) x0 x1 x2 x3 (ix2 r k) = hid x1 x0 x2 x3 r k := by
  rw [val_main_v47_apply, v46_at, val_main_call1_v0_apply, val_main_call1_cst_apply, zero_word]
  rfl

/-! ## The second layer -/

theorem v48_at (r : Fin 50000) (k : Fin 3) :
    val_main_v48 (F := Ideal) x0 x1 x2 x3 x4 (ix2 r k) = lin2 x1 x0 x2 x3 x4 r k := by
  rw [val_main_v48_apply]
  unfold lin2
  refine Finset.sum_congr rfl fun j _ => ?_
  have hl : lidx_main_v48 (ix2 r k) j = ix2 r j := funext fun a => Fin.ext (by match a with | ⟨0, _⟩ => rfl | ⟨1, _⟩ => rfl)
  have hr : ridx_main_v48 (ix2 r k) j = ix2 j k := funext fun a => Fin.ext (by match a with | ⟨0, _⟩ => rfl | ⟨1, _⟩ => rfl)
  rw [hl, hr, v47_at]

theorem v87_at (r : Fin 50000) (k : Fin 3) :
    val_main_v87 (F := Ideal) x0 x1 x2 x3 x4 (ix2 r k)
      = (∑ e ∈ into x1 r, lin2 x1 x0 x2 x3 x4 (node (src x1 e)) k * weight x1 e)
        + lin2 x1 x0 x2 x3 x4 r k * ((c x1 r : EReal) * (c x1 r : EReal)) := by
  have h := layer_apply (C := 3) x1 gather_S50000x3_S1650000x1_S1650000x3_1_0_n_n_0_1_13 gather_S50000x3_S1650000x1_S1650000x3_1_0_n_n_0_1_13_wf rfl scatter_S50000x3_S1650000x1_S1650000x3_1_0_0_1 scatter_S50000x3_S1650000x1_S1650000x3_1_0_0_1_wf rfl
    gather_S50000_S1650000x1_S1650000_n_0_n_n_0_1_1 gather_S50000_S1650000x1_S1650000_n_0_n_n_0_1_1_wf rfl
    (val_main_v85 (F := Ideal)) (val_main_v48 (F := Ideal) x0 x1 x2 x3 x4)
    (funext fun i => by rw [val_main_v85_apply, val_main_cst_19_apply]; exact Ideal.ofBits_zero_f32)
    (val_main_v59 (F := Ideal) x1) (v59_at x1)
    (val_main_v80 (F := Ideal) x1) (val_main_v65 (F := Ideal) x1) (val_main_v72 (F := Ideal) x1)
    (val_main_v86 (F := Ideal) x1) (v80_at x1) (v65_at x1) (v72_at x1) (v86_at x1)
    (val_main_v83 (F := Ideal) x1)
    (fun e k => by
      have hi : idx_main_v82 (idx_main_v83 (ix2 e k)) = ix1 e := funext fun a => Fin.ext (by match a with | ⟨0, _⟩ => rfl)
      rw [val_main_v83_apply, val_main_v82_apply, hi]
      rfl) r k
  simp only [v48_at] at h
  exact h

theorem v90_at (r : Fin 50000) (k : Fin 3) :
    val_main_v90 (F := Ideal) x0 x1 x2 x3 x4 x5 (ix2 r k) = logits x1 x0 x2 x3 x4 x5 r k := by
  have hi : idx_main_v88 (idx_main_v89 (ix2 r k)) = ix1 k := funext fun a => Fin.ext (by match a with | ⟨0, _⟩ => rfl)
  rw [val_main_v90_apply, val_main_v89_apply, val_main_v88_apply, hi, v87_at]
  rfl

/-! ## The row normalisation -/

theorem call3_v2_at (r : Fin 50000) :
    val_main_call3_v2 (F := Ideal) x0 x1 x2 x3 x4 x5 (ix1 r) = rowMax x1 x0 x2 x3 x4 x5 r := by
  rw [val_main_call3_v2_apply, val_main_call3_v1_apply, val_main_call3_cst_0_apply]
  unfold val_main_call3_v0
  rw [rowmax_apply]
  simp only [v90_at]
  exact max_bot_fold _

theorem call3_v5_at (r : Fin 50000) (k : Fin 3) :
    val_main_call3_v5 (F := Ideal) x0 x1 x2 x3 x4 x5 (ix2 r k)
      = logits x1 x0 x2 x3 x4 x5 r k - rowMax x1 x0 x2 x3 x4 x5 r := by
  have hi : idx_main_call3_v3 (idx_main_call3_v4 (ix2 r k)) = ix1 r := funext fun a => Fin.ext (by match a with | ⟨0, _⟩ => rfl)
  rw [val_main_call3_v5_apply, val_main_call3_v4_apply, val_main_call3_v3_apply, hi, v90_at, call3_v2_at]
  rfl

theorem call3_v7_at (r : Fin 50000) :
    val_main_call3_v7 (F := Ideal) x0 x1 x2 x3 x4 x5 (ix1 r)
      = ∑ k' : Fin 3, Ideal.exp (logits x1 x0 x2 x3 x4 x5 r k' - rowMax x1 x0 x2 x3 x4 x5 r) := by
  rw [val_main_call3_v7_apply, val_main_call3_cst_1_apply, zero_word, zero_add]
  refine Finset.sum_congr rfl fun k' _ => ?_
  have hi : idx_main_call3_v7 (ix1 r) k' = ix2 r k' := funext fun a => Fin.ext (by match a with | ⟨0, _⟩ => rfl | ⟨1, _⟩ => rfl)
  rw [hi, val_main_call3_v6_apply, call3_v5_at, Ideal.hostUnary_exp_def]

theorem v91_at (r : Fin 50000) (k : Fin 3) :
    val_main_v91 (F := Ideal) x0 x1 x2 x3 x4 x5 (ix2 r k) = out x1 x0 x2 x3 x4 x5 r k := by
  have hi : idx_main_call3_v8 (idx_main_call3_v10 (ix2 r k)) = ix1 r := funext fun a => Fin.ext (by match a with | ⟨0, _⟩ => rfl)
  unfold out
  rw [val_main_v91_apply, call3_v5_at, val_main_call3_v10_apply, val_main_call3_v9_apply, val_main_call3_v8_apply, hi,
    call3_v7_at, Ideal.hostUnary_log_def, Ideal.subf_def]

/-! ## The result -/

/-- The last stage of the reference is the specification's result array. -/
theorem val_eq : val_main_v91 (F := Ideal) x0 x1 x2 x3 x4 x5 = outArr x1 x0 x2 x3 x4 x5 := by
  funext i
  rw [eq_ix2 i]
  exact v91_at x0 x1 x2 x3 x4 x5 (i 0) (i 1)

/-- The term the reference's run leaves in its result buffer is the specification's result array of the argument
    arrays. -/
theorem result_eq (m : (ℓ : Loc nD τ sig) → Buf (Elt Ideal) ℓ) (c : Dev nD) :
    Cert.ReferenceIdeal.ValueP.res_main_v91 (F := Ideal) m c
      = outArr (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5)) :=
  (val_main_v91_eq (F := Ideal) m c).trans (val_eq _ _ _ _ _ _)

end Cert.ReferenceIdeal.RefValue

end
-- ==== Proof.lean ====
/- The proof of `Cert.Claim`: a two-layer graph convolution with self-loops, a kernel program of four kernels among host
   gathers and scatters against a plain reference that appends one loop edge per node.

   Both programs compute, at node r and class k, the function `Cert.Gcn2.outArr` (Proof/Spec.lean) of the six argument
   arrays: with c r = 1/√(in-degree r + 1), a layer sends a node array f to
       Σ_{e into r} f[source e] · (c (source e) · c (target e)) + f[r] · (c r · c r) + bias,
   the network is a projection, a layer clipped at zero, a projection, a layer, and each row less its maximum less the
   logarithm of the sum of the exponentials of the shifted row.
   * The kernel program (Proof/KRun.lean, KChain1/2.lean, KProj*.lean, KComb*.lean, KHost.lean, KRead1–3.lean, KSpec.lean):
     its run leaves the result buffer at the last boundary's contents; each kernel leaves in its output array one
     function of its input arrays (blocks of 5000 rows cover the 50000); the host stretches compute the degree, the
     factor, the edge weights and the gathered, scaled, scattered rows; read at an index the composition is `outArr`,
     the node's own row entering as a separate term.
   * The reference (Proof/RefRun.lean, RefRead.lean and the Ref*.lean modules): the same sums over 1600000 + 50000
     edges, the last 50000 being the loops; the sum over the edges into r splits into the given edges into r and the
     one loop at r, the in-degree count likewise, and 1/√d is the inverse root of d for a positive real d. Only
     commutativity and associativity of the extended reals' addition are used, so the precondition is never opened.
   The three frames are the generated frame certificates (the reference's is its run with the result dropped), and the
   idealization ledger is empty. -/
import proofs.«125733_j4569845203117_1_alg».proof.Defs
import proofs.«125733_j4569845203117_1_alg».proof.Proof.Gen.Kernel
import proofs.«125733_j4569845203117_1_alg».proof.Proof.Gen.Kernel.Skeleton
import proofs.«125733_j4569845203117_1_alg».proof.Proof.Gen.Kernel.Launch
import proofs.«125733_j4569845203117_1_alg».proof.Proof.Gen.Kernel.Points
import proofs.«125733_j4569845203117_1_alg».proof.Proof.Gen.Kernel.Frame
import proofs.«125733_j4569845203117_1_alg».proof.Proof.Gen.KernelIdeal
import proofs.«125733_j4569845203117_1_alg».proof.Proof.Gen.KernelIdeal.Skeleton
import proofs.«125733_j4569845203117_1_alg».proof.Proof.Gen.KernelIdeal.Launch
import proofs.«125733_j4569845203117_1_alg».proof.Proof.Gen.KernelIdeal.Points
import proofs.«125733_j4569845203117_1_alg».proof.Proof.Gen.KernelIdeal.Frame
import proofs.«125733_j4569845203117_1_alg».proof.Proof.Gen.ReferenceIdeal
import proofs.«125733_j4569845203117_1_alg».proof.Proof.Gen.Pre_finite_inputs
import proofs.«125733_j4569845203117_1_alg».proof.Proof.KRun
import proofs.«125733_j4569845203117_1_alg».proof.Proof.KChain2
import proofs.«125733_j4569845203117_1_alg».proof.Proof.KSpec
import proofs.«125733_j4569845203117_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The kernel program's run with its result at the specification's function of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v65)
          = Cert.Gcn2.outArr (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg1) = (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg2) = (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg3) = (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg4) = (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_arg5) = (m ((c.tc : Thread Cert.KernelIdeal.nD Cert.KernelIdeal.τ).loc Cert.KernelIdeal.main_arg5))) :=
  (θ_run Cert.KernelIdeal.defs _ _).mono
    (fun _ h c => ⟨(h c).1.trans ((Cert.KernelIdeal.KVal.result m ρ c).trans (Cert.KernelIdeal.KHost.kOut_eq _ _ _ _ _ _)), (h c).2⟩)
    (Cert.KernelIdeal.KVal.run_value (F := Ideal) m ρ)

/-- At the extended reals both programs end with the specification's function of arguments that agree. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
